-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_
  reducesTo_S8192x128_S8192_d1 : S8192x128.ReducesTo [1] S8192

variable [Facts]

def fn {F : FTy → Type} [FloatOps F] (main_arg0 : FVec F S8192x128 .f32) (main_arg1 : FVec F S8192 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x128 .f32 := mulf main_arg0 main_arg0
  let main_cst_2 : FVec F S_ .f32 := constant S_ .f32 0x00000000#32
  let main_v10 : FVec F S8192 .f32 := (fun x v => Host.reduceAdd x v reducesTo_S8192x128_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  main_v14
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x1, .i32⟩
  | .hbm, ⟨15, _⟩ => ⟨S1x8192, .i32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_33 : BitVec 32 := 0#32
  let v69 : BitVec 1 := Scalar.cmpi .ne v68 c0_i32_33
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x1, .i32⟩
  | .hbm, ⟨43, _⟩ => ⟨S1x8192, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.Base.lean ====
/-
  The similarity kernel's grid is 8 × 8: point t = 8·i + j works on the row block i and the column block j.
  This module fixes what every later statement about one grid point is phrased over: the two branch conditions of
  the body (j = 0 resets the four row accumulators, j = 7 writes the row block's loss), in closed form over the
  64 points; where the output window is idle; the staging memrefs the pipeline hands the body at a point; and the
  four scratch accumulators (running maximum, rescaled exponential sum, matched similarity sum, match count).
-/
import proofs.«101596_j86105504350689_1_alg».proof.Proof.Gen.Kernel.Launch
import proofs.«101596_j86105504350689_1_alg».proof.Proof.Gen.Kernel.Skeleton
import proofs.«101596_j86105504350689_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the column block is the first one (j = 0). -/
abbrev condFirst (i : grid0.Coords) : Prop :=
  (Scalar.cmpi .ne (Scalar.extui (Scalar.cmpi .eq (BitVec.ofNat 32 (i 1).val) 0#32)) 0#32) = 1#1

/-- It holds exactly at the points 8·i. -/
theorem condFirst_iff : ∀ t : Fin cfg0.N, condFirst (grid0.coords t) ↔ t.val % 8 = 0 :=
  (by decide +kernel : ∀ t : Fin grid0.N, condFirst (grid0.coords t) ↔ t.val % 8 = 0)

/-- The second branch: the column block is the last one (j = 7). -/
abbrev condLast (i : grid0.Coords) : Prop := k0_cond2 i = 1#1

/-- It holds exactly at the points 8·i + 7. -/
theorem condLast_iff : ∀ t : Fin cfg0.N, condLast (grid0.coords t) ↔ t.val % 8 = 7 :=
  (by decide +kernel : ∀ t : Fin grid0.N, condLast (grid0.coords t) ↔ t.val % 8 = 7)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle, and not written back, away from the last column block; live at it. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- The staging memref of each window at point t, as the pipeline passes it to the body, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- The four row accumulators the body keeps between column blocks: running maximum, rescaled sum of
    exponentials, sum of matched similarities, count of matches. -/
abbrev scMax : Memref sig .tc .vmem S1024x1 .f32 := Memref.whole cc0_scratch0
abbrev scSum : Memref sig .tc .vmem S1024x1 .f32 := Memref.whole cc0_scratch1
abbrev scSim : Memref sig .tc .vmem S1024x1 .f32 := Memref.whole cc0_scratch2
abbrev scCnt : Memref sig .tc .vmem S1024x1 .f32 := Memref.whole cc0_scratch3

/-- One staging buffer of the output window, through which its contents are stated. -/
abbrev viewOut : View sig .tc .vmem S1024x1 .f32 := (Memref.whole cc0_stg4_0 : Memref sig .tc .vmem S1024x1 .f32).view

/-- What the launch leaves to the body besides the windows: the four accumulators at some contents and the
    generator register at some state. -/
theorem scoped_eq (c : Dev nD) :
    (Pipeline.ΦA spec0 c : sProp 𝕄)
      = iprop(iprop((∃ d, owns (c : Thread nD τ) scMax fullShare d) ∗ (∃ d, owns (c : Thread nD τ) scSum fullShare d)
          ∗ (∃ d, owns (c : Thread nD τ) scSim fullShare d) ∗ (∃ d, owns (c : Thread nD τ) scCnt fullShare d)) ∗ (∃ r, prngReg c r)) := by
  unfold Pipeline.ΦA; rw [scopedRest0_eq]; simp only [scMax, scSum, scSim, scCnt, owns_whole]; try rfl

end Cert.Kernel.Hand

end
-- ==== Proof.Kernel.RunMid.lean ====
/-
  One grid point strictly inside a row block's sweep (0 < j < 7): the body loads the row block and the column
  block of the scaled features and the two label blocks, folds this column block into the four row accumulators
  (new running maximum; the old exponential sum rescaled by exp(old max − new max) plus this block's
  off-diagonal exponentials; the matched similarities; the match count), and leaves the output window alone.
  The statement: from the inputs at their contents, the output's buffer at anything and the accumulators at what
  the point before left, the body runs to the end without a fault, the inputs and the output's buffer as they
  were, each accumulator holding the pieces the body stored (found by running the body symbolically).
-/
import proofs.«101596_j86105504350689_1_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i)
    (x0 x1 : Vec F S1024x128 .f32) (x2 : Vec F S1024x1 .i32) (x3 : Vec F S1x1024 .i32) (xs0 xs1 xs2 xs3 : Vec F S1024x1 .f32) :
    Σ' (LS0 LS1 LS2 : List (View.Piece (Elt F) S1024x1 .f32)), { LS3 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.Kernel.RunFirst.lean ====
/-
  The first column block of a row block's sweep (j = 0): the body first resets the four row accumulators
  (running maximum −∞, the three sums 0), whatever they held, and then folds the block in as at any other point.
  The output window is left alone.
-/
import proofs.«101596_j86105504350689_1_alg».proof.Proof.Kernel.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i)
    (x0 x1 : Vec F S1024x128 .f32) (x2 : Vec F S1024x1 .i32) (x3 : Vec F S1x1024 .i32) :
    Σ' (LS0 LS1 LS2 : List (View.Piece (Elt F) S1024x1 .f32)), { LS3 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.Kernel.RunLast.lean ====
/-
  The last column block of a row block's sweep (j = 7): after folding the block into the four row accumulators
  as at any other point, the body reads them back and stores the row block's loss,
  −(matched sum − count · (maximum + log (max (exponential sum) 1e-5))) / (count + 1), into the output window.
-/
import proofs.«101596_j86105504350689_1_alg».proof.Proof.Kernel.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i)
    (x0 x1 : Vec F S1024x128 .f32) (x2 : Vec F S1024x1 .i32) (x3 : Vec F S1x1024 .i32) (xs0 xs1 xs2 xs3 : Vec F S1024x1 .f32) :
    Σ' (L4 LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.Kernel.Data.lean ====
/-
  The proof data of the similarity kernel's one pipeline: what each window's staging buffer and each of the four
  row accumulators holds after the body at every grid point. The inputs' buffers hold their blocks; the output's
  buffer is written only at a last column block (j = 7); the accumulators are carried from point to point: at a first
  column block (j = 0) they restart from the reset values, at every other point they are folded from what the
  point before left. The region invariant carries the accumulators at exactly those contents, so the body at a
  point starts from what the body at the point before ended with.
-/
import proofs.«101596_j86105504350689_1_alg».proof.Proof.Kernel.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers as the region finds them: after the host operations before it (the row norms, the two
    divisions, the two reshapes of the labels). -/
abbrev V0 (c : Dev nD) : Valuation τ sig (Elt F) := StableHlo.after (List.flatten [hostOps0, hostOps0_1]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the mean after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

abbrev Acc4 : Type := Vec F S1024x1 .f32 × Vec F S1024x1 .f32 × Vec F S1024x1 .f32 × Vec F S1024x1 .f32

/-- A buffer's contents after a list of stores, read through a view of it (the stores cover it, so the prior
    contents do not matter). -/
abbrev readBack (v : View sig .tc .vmem S1024x1 .f32) (L : List (View.Piece (Elt F) S1024x1 .f32)) : Vec F S1024x1 .f32 :=
  v.read (Elt F) (v.writes (Elt F) v.junk L)

/-- The output's component where the window is idle: never consulted. -/
abbrev junkOut : Vec F S1024x1 .f32 := viewOut.read (Elt F) viewOut.junk

theorem coverFirst0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).1, y ∈ pc.1.set :=
  View.cover_of_tiledL _ S1024x1.size (by sl_kernel_rfl) y
theorem coverFirst1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).2.1, y ∈ pc.1.set :=
  View.cover_of_tiledL _ S1024x1.size (by sl_kernel_rfl) y
theorem coverFirst2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).2.2.1, y ∈ pc.1.set :=
  View.cover_of_tiledL _ S1024x1.size (by sl_kernel_rfl) y
theorem coverFirst3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).2.2.2.1, y ∈ pc.1.set :=
  View.cover_of_tiledL _ S1024x1.size (by sl_kernel_rfl) y
/-- The four accumulators after the body in this case: the stored pieces read back. -/
def afterFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  : Acc4 (F := F) :=
  (readBack scMax.view (runFirst c i arg2 harg2 arg3 harg3 arg4 harg4 arg5 harg5 arg6 harg6 arg7 harg7 arg8 harg8 arg9 harg9 arg10 harg10 hc0 hc1 x0 x1 x2 x3 ).1, readBack scSum.view (runFirst c i arg2 harg2 arg3 harg3 arg4 harg4 arg5 harg5 arg6 harg6 arg7 harg7 arg8 harg8 arg9 harg9 arg10 harg10 hc0 hc1 x0 x1 x2 x3 ).2.1,
   readBack scSim.view (runFirst c i arg2 harg2 arg3 harg3 arg4 harg4 arg5 harg5 arg6 harg6 arg7 harg7 arg8 harg8 arg9 harg9 arg10 harg10 hc0 hc1 x0 x1 x2 x3 ).2.2.1, readBack scCnt.view (runFirst c i arg2 harg2 arg3 harg3 arg4 harg4 arg5 harg5 arg6 harg6 arg7 harg7 arg8 harg8 arg9 harg9 arg10 harg10 hc0 hc1 x0 x1 x2 x3 ).2.2.2.1)
theorem coverMid0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S1024x1.size (by sl_kernel_rfl) y
theorem coverMid1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S1024x1.size (by sl_kernel_rfl) y
theorem coverMid2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S1024x1.size (by sl_kernel_rfl) y
theorem coverMid3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S1024x1.size (by sl_kernel_rfl) y
/-- The four accumulators after the body in this case: the stored pieces read back. -/
def afterMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) : Acc4 (F := F) :=
  (readBack scMax.view (runMid c i arg2 harg2 arg3 harg3 arg4 harg4 arg5 harg5 arg6 harg6 arg7 harg7 arg8 harg8 arg9 harg9 arg10 harg10 hc0 hc1 x0 x1 x2 x3 xs0 xs1 xs2 xs3).1, readBack scSum.view (runMid c i arg2 harg2 arg3 harg3 arg4 harg4 arg5 harg5 arg6 harg6 arg7 harg7 arg8 harg8 arg9 harg9 arg10 harg10 hc0 hc1 x0 x1 x2 x3 xs0 xs1 xs2 xs3).2.1,
   readBack scSim.view (runMid c i arg2 harg2 arg3 harg3 arg4 harg4 arg5 harg5 arg6 harg6 arg7 harg7 arg8 harg8 arg9 harg9 arg10 harg10 hc0 hc1 x0 x1 x2 x3 xs0 xs1 xs2 xs3).2.2.1, readBack scCnt.view (runMid c i arg2 harg2 arg3 harg3 arg4 harg4 arg5 harg5 arg6 harg6 arg7 harg7 arg8 harg8 arg9 harg9 arg10 harg10 hc0 hc1 x0 x1 x2 x3 xs0 xs1 xs2 xs3).2.2.2.1)
theorem coverLast0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S1024x1.size (by sl_kernel_rfl) y
theorem coverLast1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S1024x1.size (by sl_kernel_rfl) y
theorem coverLast2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S1024x1.size (by sl_kernel_rfl) y
theorem coverLast3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL _ S1024x1.size (by sl_kernel_rfl) y
/-- The four accumulators after the body in this case: the stored pieces read back. -/
def afterLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) : Acc4 (F := F) :=
  (readBack scMax.view (runLast c i arg2 harg2 arg3 harg3 arg4 harg4 arg5 harg5 arg6 harg6 arg7 harg7 arg8 harg8 arg9 harg9 arg10 harg10 hc0 hc1 x0 x1 x2 x3 xs0 xs1 xs2 xs3).2.1, readBack scSum.view (runLast c i arg2 harg2 arg3 harg3 arg4 harg4 arg5 harg5 arg6 harg6 arg7 harg7 arg8 harg8 arg9 harg9 arg10 harg10 hc0 hc1 x0 x1 x2 x3 xs0 xs1 xs2 xs3).2.2.1,
   readBack scSim.view (runLast c i arg2 harg2 arg3 harg3 arg4 harg4 arg5 harg5 arg6 harg6 arg7 harg7 arg8 harg8 arg9 harg9 arg10 harg10 hc0 hc1 x0 x1 x2 x3 xs0 xs1 xs2 xs3).2.2.2.1, readBack scCnt.view (runLast c i arg2 harg2 arg3 harg3 arg4 harg4 arg5 harg5 arg6 harg6 arg7 harg7 arg8 harg8 arg9 harg9 arg10 harg10 hc0 hc1 x0 x1 x2 x3 xs0 xs1 xs2 xs3).2.2.2.2.1)
theorem coverOut (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S1024x1.size (by sl_kernel_rfl) y
/-- The row block's loss as the last column block stores it. -/
def outLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) : Vec F S1024x1 .f32 :=
  readBack viewOut (runLast c i arg2 harg2 arg3 harg3 arg4 harg4 arg5 harg5 arg6 harg6 arg7 harg7 arg8 harg8 arg9 harg9 arg10 harg10 hc0 hc1 x0 x1 x2 x3 xs0 xs1 xs2 xs3).1

/-! ## Point by point -/

/-- What the output's buffer and the four accumulators hold after the body at the n-th point (the output first):
    the first column block starts from the reset values, every later one from what the point before left; the
    output's component is only meaningful at a last column block. -/
def outsAt (c : Dev nD) : (n : ℕ) → n < cfg0.N → Vec F S1024x1 .f32 × Acc4 (F := F)
  | 0, hn => (junkOut, afterFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scSim (Memref.isWhole_whole _) scCnt (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      (junkOut, afterFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) ((condFirst_iff ⟨n + 1, hn⟩).mpr h0) (fun h => (fun h => by (try dsimp only at h); omega) ((condLast_iff ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
         afterLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)
      else
        (junkOut, afterMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)

theorem outsAt_first (c : Dev nD) (t : Fin cfg0.N) (h0 : t.val % 8 = 0) :
    outsAt m c t.val t.isLt = (junkOut, afterFirst c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) ((condFirst_iff t).mpr h0) (fun h => (fun h => by omega) ((condLast_iff t).mp h)) (iblk m c 0 t) (iblk m c 1 t) (iblk m c 2 t) (iblk m c 3 t)) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt m c t.val t.isLt = (junkOut, afterMid c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) (fun h => h0 ((condFirst_iff t).mp h)) (fun h => h1 ((condLast_iff t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) (fun h => h0 ((condFirst_iff t).mp h)) ((condLast_iff t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
      afterLast c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) (fun h => h0 ((condFirst_iff t).mp h)) ((condLast_iff t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before the n-th point: at the start what the launch leaves; afterwards the four
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scMax fullShare ((outsAt m c n hn).2.1) ∗ owns (c : Thread nD τ) scSum fullShare ((outsAt m c n hn).2.2.1) ∗ owns (c : Thread nD τ) scSim fullShare ((outsAt m c n hn).2.2.2.1) ∗ owns (c : Thread nD τ) scCnt fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((outsAt m c n hn).2.1) ∗ owns (c : Thread nD τ) scSum fullShare ((outsAt m c n hn).2.2.1) ∗ owns (c : Thread nD τ) scSim fullShare ((outsAt m c n hn).2.2.2.1) ∗ owns (c : Thread nD τ) scCnt fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scMax fullShare ((outsAt m c (n - 1) (by omega)).2.1) ∗ owns (c : Thread nD τ) scSum fullShare ((outsAt m c (n - 1) (by omega)).2.2.1) ∗ owns (c : Thread nD τ) scSim fullShare ((outsAt m c (n - 1) (by omega)).2.2.2.1) ∗ owns (c : Thread nD τ) scCnt fullShare ((outsAt m c (n - 1) (by omega)).2.2.2.2)) ∗ (∃ r, prngReg c r)) := by
  cases n with
  | zero => exact absurd rfl hz
  | succ n => rfl

/-! ## The proof data -/

/-- The arrays as the region finds them; each input's buffer at its block and the output's at the loss after the
    body; the invariant above; nothing owed. Windows 0 and 1 stage blocks of ONE array (the scaled features), so
    each holds half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the closed forms of the two conditions say which case the point is in; the invariant hands
    the body the accumulators at what the point before left (at anything before the very first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 8 = 0
  · have h1 : ¬t.val % 8 = 7 := by omega
    have hc0 : condFirst (grid0.coords t) := (condFirst_iff t).mpr h0
    have hc1 : ¬condLast (grid0.coords t) := fun h => h1 ((condLast_iff t).mp h)
    rw [Dat.leavesExact_idle (dats m 0 c) 4 t (idle4 t hc1) (noFlush4 t hc1)]
    rw [outsAt_first m c t h0]
    unfold afterFirst; (try dsimp only)
    by_cases hz : t.val = 0
    · rw [PhiS_castSucc m c t, PhiS_zero m c _ _ hz, scoped_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst2 c _ _ _ _ _ _ _ _ _ _ _ _ _ _ _ _ _ _ _ _ _ _ _ _ _)
        unfold owns; iexists _; isplitr
        swap; · iexact HS3
        ipureintro; exact View.read_writes_of_cover _ _ _ _ _ (coverFirst3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst2 c _ _ _ _ _ _ _ _ _ _ _ _ _ _ _ _ _ _ _ _ _ _ _ _ _)
        unfold owns; iexists _; isplitr
        swap; · iexact HS3
        ipureintro; exact View.read_writes_of_cover _ _ _ _ _ (coverFirst3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬condFirst (grid0.coords t) := fun h => h0 ((condFirst_iff t).mp h)
    by_cases h1 : t.val % 8 = 7
    · have hc1 : condLast (grid0.coords t) := (condLast_iff t).mpr h1
      rw [show (dats m 0 c).leavesExact 4 t = owns (c : Thread nD τ) (ms4 t) fullShare ((dats m 0 c).after 4 t) from by
        unfold Dat.leavesExact; rw [live4 t hc1], after4]
      rw [outsAt_last m c t h0 h1]
      unfold outLast afterLast; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ _ _ hc0 hc1 (iblk m c 0 t) (iblk m c 1 t) (iblk m c 2 t) (iblk m c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverLast0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverLast1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverLast2 c _ _ _ _ _ _ _ _ _ _ _ _ _ _ _ _ _ _ _ _ _ _ _ _ _ _ _ _ _)
        unfold owns; iexists _; isplitr
        swap; · iexact HS3
        ipureintro; exact View.read_writes_of_cover _ _ _ _ _ (coverLast3 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut c _ _ _ _ _ _ _ _ _ _ _ _ _ _ _ _ _ _ _ _ _ _ _ _ _ _ _ _ _)
    · have hc1 : ¬condLast (grid0.coords t) := fun h => h1 ((condLast_iff t).mp h)
      rw [Dat.leavesExact_idle (dats m 0 c) 4 t (idle4 t hc1) (noFlush4 t hc1)]
      rw [outsAt_mid m c t h0 h1]
      unfold afterMid; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ _ _ hc0 hc1 (iblk m c 0 t) (iblk m c 1 t) (iblk m c 2 t) (iblk m c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverMid0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverMid1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverMid2 c _ _ _ _ _ _ _ _ _ _ _ _ _ _ _ _ _ _ _ _ _ _ _ _ _ _ _ _ _)
        unfold owns; iexists _; isplitr
        swap; · iexact HS3
        ipureintro; exact View.read_writes_of_cover _ _ _ _ _ (coverMid3 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Hand

end
-- ==== Proof.Kernel.Launch.lean ====
/-
  The launch of the similarity kernel's region. Two of its input windows stage blocks of ONE array, the scaled
  features (the row block through window 0, the column block through window 1): the array is held whole when the
  region is entered, each of the two windows takes half of it for the region's duration, and the halves are put
  together again for the mean that follows the region. The other three arrays (the two label layouts, the loss
  column) are held whole by their one window.
-/
import proofs.«101596_j86105504350689_1_alg».proof.Proof.Kernel.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: four buffers, five windows -/

/-- The buffers behind the windows' arrays: the scaled features, the two label layouts, the loss column. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6) ∗ (((c : Thread nD τ).loc main_v7) ↦{fullShare} W main_v7) ∗ (((c : Thread nD τ).loc main_v8) ↦{fullShare} W main_v8)) := by
  unfold Pipeline.arrBufs
  exact bigSep_eq_bigSepL_of_eq [main_v5, main_v6, main_v7, main_v8] (by decide) (by decide) _

/-- The pipeline's arrays window by window: the scaled features in two halves, the rest whole. -/
theorem arrays_eq (c : Dev nD) (A : (w : Fin cfg0.W) → Buf (Elt F) ((cfg0.win w).arr.view.loc (c : Thread nD τ))) :
    ((dats m 0 c).arrays A : sProp 𝕄)
      = iprop((((c : Thread nD τ).loc main_v5) ↦{fullShare.left} A 0) ∗ (((c : Thread nD τ).loc main_v5) ↦{fullShare.right} A 1) ∗ (((c : Thread nD τ).loc main_v6) ↦{fullShare} A 2) ∗ (((c : Thread nD τ).loc main_v7) ↦{fullShare} A 3) ∗ (((c : Thread nD τ).loc main_v8) ↦{fullShare} A 4)) := by
  unfold Dat.arrays
  rw [bigSep_W0, (arr_whole0 0).set_eq_univ, (arr_whole0 2).set_eq_univ, (arr_whole0 3).set_eq_univ, (arr_whole0 4).set_eq_univ]
  rfl

/-- Whole buffers at contents W become the pipeline's arrays at the same contents: the scaled features split in two. -/
theorem arrays_of_bufs (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m 0 c).arrays fun w => W (Pipeline.arrRef spec0 w) := by
  rw [arrBufs_eq, arrays_eq]
  iintro ⟨H5, H6, H7, H8⟩
  ihave Hs := (pointsTo_share (PosShare.mem_left_op_right fullShare)).1 $$ H5
  icases Hs with ⟨Hl, Hr⟩
  isplitl [Hl]; · iexact Hl
  isplitl [Hr]; · iexact Hr
  isplitl [H6]; · iexact H6
  isplitl [H7]; · iexact H7
  iexact H8

/-- And back: the two halves of the scaled features joined. -/
theorem bufs_of_arrays (c : Dev nD) (W : (b : Ref sig .tc) → Buf (Elt F) ((c : Thread nD τ).loc b)) :
    ((dats m 0 c).arrays fun w => W (Pipeline.arrRef spec0 w) : sProp 𝕄)
      ⊢ Pipeline.arrBufs (Ix := Unit) (Name := ℕ) (U := UR sig nD τ) (Lvl := ℕ) spec0 c W := by
  rw [arrBufs_eq, arrays_eq]
  iintro ⟨Hl, Hr, H6, H7, H8⟩
  isplitl [Hl Hr]
  · iapply (pointsTo_share (PosShare.mem_left_op_right fullShare)).2
    isplitl [Hl]; · iexact Hl
    iexact Hr
  isplitl [H6]; · iexact H6
  isplitl [H7]; · iexact H7
  iexact H8

/-! ## Around the region -/

/-- The buffers when the region ends: the loss column at what the region's write-backs left, everything else as
    the region found it. -/
def Vexit (c : Dev nD) : Valuation τ sig (Elt F) :=
  Function.update (V0 m c) (Proc.devRef .tc main_v8) ((dats m 0 c).arrAt 4 cfg0.N)

/-- The buffers when @main ends: after the sum over the loss column and the division by its length. -/
def Vend (c : Dev nD) : Valuation τ sig (Elt F) := StableHlo.after hostOps1 (Vexit m c)

/-- Each window's array at the region's end is what `Vexit` says of its buffer: an input's array is as the region
    found it, the loss column is the one buffer the region changes. -/
theorem arrAt_exit (c : Dev nD) (w : Fin cfg0.W) :
    (dats m 0 c).arrAt w cfg0.N = Vexit m c (Proc.devRef .tc (Pipeline.arrRef spec0 w)) := by
  unfold Vexit
  match w with
  | ⟨0, _⟩ => rw [Function.update_of_ne (StableHlo.devRef_ne_of_ne (show (main_v5 : Ref sig .tc) ≠ main_v8 by decide))]; exact ((dats m 0 c).arrAt_in 0 rfl _).trans (A_eq m c 0)
  | ⟨1, _⟩ => rw [Function.update_of_ne (StableHlo.devRef_ne_of_ne (show (main_v5 : Ref sig .tc) ≠ main_v8 by decide))]; exact ((dats m 0 c).arrAt_in 1 rfl _).trans (A_eq m c 1)
  | ⟨2, _⟩ => rw [Function.update_of_ne (StableHlo.devRef_ne_of_ne (show (main_v6 : Ref sig .tc) ≠ main_v8 by decide))]; exact ((dats m 0 c).arrAt_in 2 rfl _).trans (A_eq m c 2)
  | ⟨3, _⟩ => rw [Function.update_of_ne (StableHlo.devRef_ne_of_ne (show (main_v7 : Ref sig .tc) ≠ main_v8 by decide))]; exact ((dats m 0 c).arrAt_in 3 rfl _).trans (A_eq m c 3)
  | ⟨4, _⟩ => exact (Function.update_self (Proc.devRef .tc main_v8) ((dats m 0 c).arrAt 4 cfg0.N) (V0 m c)).symm

/-! ## The mean after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The mean writes no window's array: each of its four operations writes only its own result. -/
theorem tail_keeps (w : Fin cfg0.W) : ∀ op ∈ (hostOps1 : List (HloOp τ sig (Elt F))), Proc.devRef .tc (Pipeline.arrRef spec0 w) ∉ op.writes := by
  intro op hop
  simp only [hostOps1, List.mem_cons, List.mem_nil_iff, or_false] at hop
  rcases hop with rfl | rfl | rfl | rfl
  all_goals fin_cases w <;> simp only [StableHlo.nullary_writes, StableHlo.unary_writes, StableHlo.binary_writes, Finset.mem_singleton] <;> exact StableHlo.devRef_ne_of_ne (by decide)

/-- A buffer that is no window's array is not the loss column, so the region leaves it as it found it. -/
theorem rest_exit (c : Dev nD) :
    (Pipeline.unscopedRest (Ix := Unit) (Name := ℕ) (U := UR sig nD τ) (Lvl := ℕ) spec0 c (V m c) : sProp 𝕄)
      = Pipeline.unscopedRest spec0 c (fun b => Vexit m c (Proc.devRef .tc b)) := by
  unfold Pipeline.unscopedRest
  exact bigSep_congr fun b hb => by
    have hne : b ≠ main_v8 := fun e => (Finset.mem_sdiff.mp hb).2 (Finset.mem_image.mpr ⟨4, Finset.mem_univ _, (show Pipeline.arrRef spec0 4 = b from e.symm)⟩)
    show _ = (((c.tc : Thread nD τ).loc b) ↦{fullShare} Function.update (V0 m c) (Proc.devRef .tc main_v8) ((dats m 0 c).arrAt 4 cfg0.N) (Proc.devRef .tc b))
    rw [Function.update_of_ne (StableHlo.devRef_ne_of_ne hne)]

/-- At the region's exit the arrays and the bypassing buffers are ALL the unscoped buffers, held at the exit contents. -/
theorem held_exit (c : Dev nD) :
    iprop(((dats m 0 c).arrays fun w => (dats m 0 c).arrAt w cfg0.N) ∗ Pipeline.unscopedRest (Ix := Unit) (Name := ℕ) (U := UR sig nD τ) (Lvl := ℕ) spec0 c (V m c))
      ⊢ (StableHlo.held (c.tc : Thread nD τ) (Pipeline.ucRefs τ sig) (Vexit m c) : sProp 𝕄) := by
  refine (BI.sep_mono (Entails.of_eq (congrArg (dats m 0 c).arrays (funext fun w => arrAt_exit m c w))) (Entails.of_eq (rest_exit m c))).trans ?_
  refine (BI.sep_mono (bufs_of_arrays m c (fun b => Vexit m c (Proc.devRef .tc b))) (Idealize.SL.BI.Entails.refl _)).trans ?_
  exact Entails.of_eq ((Pipeline.unscopedBufs_split₀ cfgs 0 winFacts₀0.arr_unscoped c (fun b => Vexit m c (Proc.devRef .tc b))).symm.trans
    (Pipeline.unscopedBufs_held (Ix := Unit) (Name := ℕ) (U := UR sig nD τ) (Lvl := ℕ) c (Vexit m c)))

/-- The mean leaves every window's array as it was at the exit. -/
theorem arrAt_end (c : Dev nD) (w : Fin cfg0.W) :
    (dats m 0 c).arrAt w cfg0.N = Vend m c (Proc.devRef .tc (Pipeline.arrRef spec0 w)) :=
  (arrAt_exit m c w).trans (StableHlo.after_of_forall_not_mem hostOps1 (Vexit m c) (tail_keeps w)).symm

/-- After the mean they split again: the arrays are as at the exit (the mean writes none), the rest at the end contents. -/
theorem held_end (c : Dev nD) :
    (StableHlo.held (c.tc : Thread nD τ) (Pipeline.ucRefs τ sig) (Vend m c) : sProp 𝕄)
      ⊢ iprop(((dats m 0 c).arrays fun w => (dats m 0 c).arrAt w cfg0.N) ∗ Pipeline.unscopedRest (Ix := Unit) (Name := ℕ) (U := UR sig nD τ) (Lvl := ℕ) spec0 c (fun b => Vend m c (Proc.devRef .tc b))) := by
  refine (Entails.of_eq ((Pipeline.unscopedBufs_held (Ix := Unit) (Name := ℕ) (U := UR sig nD τ) (Lvl := ℕ) c (Vend m c)).symm.trans
    (Pipeline.unscopedBufs_split₀ cfgs 0 winFacts₀0.arr_unscoped c (fun b => Vend m c (Proc.devRef .tc b))))).trans ?_
  refine (BI.sep_mono (arrays_of_bufs m c (fun b => Vend m c (Proc.devRef .tc b))) (Idealize.SL.BI.Entails.refl _)).trans ?_
  exact BI.sep_mono (Entails.of_eq (congrArg (dats m 0 c).arrays (funext fun w => (arrAt_end m c w).symm))) (Idealize.SL.BI.Entails.refl _)

set_option backward.isDefEq.respectTransparency.types false in
/-- Every weakly fair execution of @main terminates without a fault, and every buffer that is no window's array ends
    at what the host operations after the region compute from the region's exit contents. -/
theorem run_main : θ_run defs (onTc (τ := τ) (main (F := F))) ⟨m, fun _ => 0, ρ⟩
    (fun r => ∀ c : Dev nD, ∀ b ∈ Pipeline.restRefsP sig (pcfgs (F := F) 0).pre spec0, r.2.mem ((c.tc : Thread nD τ).loc b) = Vend m c (Proc.devRef .tc b)) := by
  classical
  exact Pipeline.θ_run_region_pf_tail (pcfgs (F := F)) (fun p => (cfgs p).toPCfg_adm) (dats m) () cellOf_inj (0 : Fin 1)
    winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := Rounds.initOf (Pipeline.cells (Pipeline.pin (pcfgs (F := F)) fun p => (cfgs p).toPCfg_adm) cellOf_inj) (Pipeline.launchToks (Pipeline.pin (pcfgs (F := F)) fun p => (cfgs p).toPCfg_adm) cellOf_inj))
    (hu₀ := by
      iintro Hu; imodintro
      isplitl [Hu]; · iapply (show (ownU _ : sProp 𝕄) ⊢ BI.own (emb₁ (Rounds.initOf (Pipeline.cells (Pipeline.pin (pcfgs (F := F)) fun p => (cfgs p).toPCfg_adm) cellOf_inj) (Pipeline.launchToks (Pipeline.pin (pcfgs (F := F)) fun p => (cfgs p).toPCfg_adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      have h := arrays_of_bufs m c (V m c)
      rwa [show (fun w => V m c (Pipeline.arrRef spec0 w)) = ((dats m 0 c).arrAt · 0) from funext fun w => (A_eq m c w).symm] at h)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (pcfgs (F := F) 0).pre spec0 c (V m c))
    (Z' := fun c => Pipeline.unscopedRestP (Ix := Unit) (Name := ℕ) (U := UR sig nD τ) (Lvl := ℕ) (pcfgs (F := F) 0).pre spec0 c (fun b => Vend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [show (Pipeline.unscopedRestP (Ix := Unit) (Name := ℕ) (U := UR sig nD τ) (Lvl := ℕ) (pcfgs (F := F) 0).pre spec0 c (V m c) : sProp 𝕄) = Pipeline.unscopedRest spec0 c (V m c) from Pipeline.unscopedRestP_none spec0 c _,
        show (Pipeline.unscopedRestP (Ix := Unit) (Name := ℕ) (U := UR sig nD τ) (Lvl := ℕ) (pcfgs (F := F) 0).pre spec0 c (fun b => Vend m c (Proc.devRef .tc b)) : sProp 𝕄) = Pipeline.unscopedRest spec0 c (fun b => Vend m c (Proc.devRef .tc b)) from Pipeline.unscopedRestP_none spec0 c _]
      iintro ⟨Hk, Hb, Ha, Hz⟩
      ihave Hh := (held_exit m c) $$ [Ha Hz]
      · isplitl [Ha]; · iexact Ha
        iexact Hz
      iapply (Pipeline.wp_seqs_then (pcfgs (F := F)) defs₀ Variants.none c (Pipeline.ucRefs τ sig) [] [hostOps1] tail_sub tail_fresh (Vexit m c)) $$ [Hb Hh]
      · isplitl [Hb]; · iexact Hb
        iexact Hh
      iintro ⟨Hb, Hh⟩
      rw [Pipeline.chain_nil, wp_pure]
      imodintro
      iapply Hk
      iapply (held_end m c)
      iexact Hh)
    (QY := fun c s => ∀ b ∈ Pipeline.restRefsP sig (pcfgs (F := F) 0).pre spec0, s.mem ((c.tc : Thread nD τ).loc b) = Vend m c (Proc.devRef .tc b))
    (hY := fun c s' => by
      iintro ⟨-, HU, HSI⟩
      unfold Pipeline.unscopedRestP
      imodintro
      iapply (pointsTo_read_all (Pipeline.restRefsP sig (pcfgs (F := F) 0).pre spec0) (fun b => (c.tc : Thread nD τ).loc b) (fun b => Vend m c (Proc.devRef .tc b)) s')
      isplitl [HU] <;> iassumption)
    (hQ := fun s h c => (h c).2.2)

end Cert.Kernel.Hand

end
-- ==== Proof.Kernel.Frame.lean ====
/-
  What the kernel program's run says of the buffers a caller sees: the three argument arrays are written by no host
  operation, are no output of the region, and so end as they were launched; the result is what the mean computes
  from the loss column the region leaves.
-/
import proofs.«101596_j86105504350689_1_alg».proof.Proof.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes argument 0. -/
theorem V0_arg0 (c : Dev nD) : V0 m c (Proc.devRef .tc main_arg0) = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the region (it is not the loss column), nor the mean after it. -/
theorem Vend_arg0 (c : Dev nD) : Vend m c (Proc.devRef .tc main_arg0) = m ((c : Thread nD τ).loc main_arg0) := by
  unfold Vend
  rw [StableHlo.after_of_forall_not_mem (b := Proc.devRef .tc main_arg0) hostOps1 (Vexit m c) (List.forall_iff_forall_mem.mp (by
    simp only [hostOps1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  unfold Vexit
  rw [Function.update_of_ne (StableHlo.devRef_ne_of_ne (show (main_arg0 : Ref sig .tc) ≠ main_v8 by decide))]
  exact V0_arg0 m c

theorem arg0_mem : (main_arg0 : Ref sig .tc) ∈ Pipeline.restRefsP sig (pcfgs (F := F) 0).pre spec0 :=
  show (main_arg0 : Ref sig .tc) ∈ Pipeline.restRefsP sig Pipeline.Prefetch.none spec0 from by decide

/-- No host operation before the region writes argument 1. -/
theorem V0_arg1 (c : Dev nD) : V0 m c (Proc.devRef .tc main_arg1) = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the region (it is not the loss column), nor the mean after it. -/
theorem Vend_arg1 (c : Dev nD) : Vend m c (Proc.devRef .tc main_arg1) = m ((c : Thread nD τ).loc main_arg1) := by
  unfold Vend
  rw [StableHlo.after_of_forall_not_mem (b := Proc.devRef .tc main_arg1) hostOps1 (Vexit m c) (List.forall_iff_forall_mem.mp (by
    simp only [hostOps1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  unfold Vexit
  rw [Function.update_of_ne (StableHlo.devRef_ne_of_ne (show (main_arg1 : Ref sig .tc) ≠ main_v8 by decide))]
  exact V0_arg1 m c

theorem arg1_mem : (main_arg1 : Ref sig .tc) ∈ Pipeline.restRefsP sig (pcfgs (F := F) 0).pre spec0 :=
  show (main_arg1 : Ref sig .tc) ∈ Pipeline.restRefsP sig Pipeline.Prefetch.none spec0 from by decide

/-- No host operation before the region writes argument 2. -/
theorem V0_arg2 (c : Dev nD) : V0 m c (Proc.devRef .tc main_arg2) = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the region (it is not the loss column), nor the mean after it. -/
theorem Vend_arg2 (c : Dev nD) : Vend m c (Proc.devRef .tc main_arg2) = m ((c : Thread nD τ).loc main_arg2) := by
  unfold Vend
  rw [StableHlo.after_of_forall_not_mem (b := Proc.devRef .tc main_arg2) hostOps1 (Vexit m c) (List.forall_iff_forall_mem.mp (by
    simp only [hostOps1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  unfold Vexit
  rw [Function.update_of_ne (StableHlo.devRef_ne_of_ne (show (main_arg2 : Ref sig .tc) ≠ main_v8 by decide))]
  exact V0_arg2 m c

theorem arg2_mem : (main_arg2 : Ref sig .tc) ∈ Pipeline.restRefsP sig (pcfgs (F := F) 0).pre spec0 :=
  show (main_arg2 : Ref sig .tc) ∈ Pipeline.restRefsP sig Pipeline.Prefetch.none spec0 from by decide

theorem res_mem : (main_v10 : Ref sig .tc) ∈ Pipeline.restRefsP sig (pcfgs (F := F) 0).pre spec0 :=
  show (main_v10 : Ref sig .tc) ∈ Pipeline.restRefsP sig Pipeline.Prefetch.none spec0 from by decide

/-- The frame: every weakly fair execution terminates without a fault and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (arg0_mem (F := F))).trans (Vend_arg0 m c), (h c main_arg1 (arg1_mem (F := F))).trans (Vend_arg1 m c),
    (h c main_arg2 (arg2_mem (F := F))).trans (Vend_arg2 m c)⟩) (run_main m ρ)

/-- The same run with the result named: the mean of the loss column as the region leaves it. -/
theorem run_value : θ_run defs (onTc (τ := τ) (main (F := F))) ⟨m, fun _ => 0, ρ⟩ (fun r => ∀ c : Dev nD,
      r.2.mem ((c.tc : Thread nD τ).loc main_v10) = Vend m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c main_v10 (res_mem (F := F)), (h c main_arg0 (arg0_mem (F := F))).trans (Vend_arg0 m c), (h c main_arg1 (arg1_mem (F := F))).trans (Vend_arg1 m c),
    (h c main_arg2 (arg2_mem (F := F))).trans (Vend_arg2 m c)⟩) (run_main m ρ)

end Cert.Kernel.Hand

end
-- ==== Proof.KernelIdeal.Base.lean ====
/-
  The similarity kernel's grid is 8 × 8: point t = 8·i + j works on the row block i and the column block j.
  This module fixes what every later statement about one grid point is phrased over: the two branch conditions of
  the body (j = 0 resets the four row accumulators, j = 7 writes the row block's loss), in closed form over the
  64 points; where the output window is idle; the staging memrefs the pipeline hands the body at a point; and the
  four scratch accumulators (running maximum, rescaled exponential sum, matched similarity sum, match count).
-/
import proofs.«101596_j86105504350689_1_alg».proof.Proof.Gen.KernelIdeal.Launch
import proofs.«101596_j86105504350689_1_alg».proof.Proof.Gen.KernelIdeal.Skeleton
import proofs.«101596_j86105504350689_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the column block is the first one (j = 0). -/
abbrev condFirst (i : grid0.Coords) : Prop :=
  (Scalar.cmpi .ne (Scalar.extui (Scalar.cmpi .eq (BitVec.ofNat 32 (i 1).val) 0#32)) 0#32) = 1#1

/-- It holds exactly at the points 8·i. -/
theorem condFirst_iff : ∀ t : Fin cfg0.N, condFirst (grid0.coords t) ↔ t.val % 8 = 0 :=
  (by decide +kernel : ∀ t : Fin grid0.N, condFirst (grid0.coords t) ↔ t.val % 8 = 0)

/-- The second branch: the column block is the last one (j = 7). -/
abbrev condLast (i : grid0.Coords) : Prop := k0_cond2 i = 1#1

/-- It holds exactly at the points 8·i + 7. -/
theorem condLast_iff : ∀ t : Fin cfg0.N, condLast (grid0.coords t) ↔ t.val % 8 = 7 :=
  (by decide +kernel : ∀ t : Fin grid0.N, condLast (grid0.coords t) ↔ t.val % 8 = 7)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle, and not written back, away from the last column block; live at it. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- The staging memref of each window at point t, as the pipeline passes it to the body, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- The four row accumulators the body keeps between column blocks: running maximum, rescaled sum of
    exponentials, sum of matched similarities, count of matches. -/
abbrev scMax : Memref sig .tc .vmem S1024x1 .f32 := Memref.whole cc0_scratch0
abbrev scSum : Memref sig .tc .vmem S1024x1 .f32 := Memref.whole cc0_scratch1
abbrev scSim : Memref sig .tc .vmem S1024x1 .f32 := Memref.whole cc0_scratch2
abbrev scCnt : Memref sig .tc .vmem S1024x1 .f32 := Memref.whole cc0_scratch3

/-- One staging buffer of the output window, through which its contents are stated. -/
abbrev viewOut : View sig .tc .vmem S1024x1 .f32 := (Memref.whole cc0_stg4_0 : Memref sig .tc .vmem S1024x1 .f32).view

/-- What the launch leaves to the body besides the windows: the four accumulators at some contents and the
    generator register at some state. -/
theorem scoped_eq (c : Dev nD) :
    (Pipeline.ΦA spec0 c : sProp 𝕄)
      = iprop(iprop((∃ d, owns (c : Thread nD τ) scMax fullShare d) ∗ (∃ d, owns (c : Thread nD τ) scSum fullShare d)
          ∗ (∃ d, owns (c : Thread nD τ) scSim fullShare d) ∗ (∃ d, owns (c : Thread nD τ) scCnt fullShare d)) ∗ (∃ r, prngReg c r)) := by
  unfold Pipeline.ΦA; rw [scopedRest0_eq]; simp only [scMax, scSum, scSim, scCnt, owns_whole]; try rfl

end Cert.KernelIdeal.Hand

end
-- ==== Proof.KernelIdeal.RunMid.lean ====
/-
  One grid point strictly inside a row block's sweep (0 < j < 7): the body loads the row block and the column
  block of the scaled features and the two label blocks, folds this column block into the four row accumulators
  (new running maximum; the old exponential sum rescaled by exp(old max − new max) plus this block's
  off-diagonal exponentials; the matched similarities; the match count), and leaves the output window alone.
  The statement: from the inputs at their contents, the output's buffer at anything and the accumulators at what
  the point before left, the body runs to the end without a fault, the inputs and the output's buffer as they
  were, each accumulator holding the pieces the body stored (found by running the body symbolically).
-/
import proofs.«101596_j86105504350689_1_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i)
    (x0 x1 : Vec F S1024x128 .f32) (x2 : Vec F S1024x1 .i32) (x3 : Vec F S1x1024 .i32) (xs0 xs1 xs2 xs3 : Vec F S1024x1 .f32) :
    Σ' (LS0 LS1 LS2 : List (View.Piece (Elt F) S1024x1 .f32)), { LS3 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KernelIdeal.RunFirst.lean ====
/-
  The first column block of a row block's sweep (j = 0): the body first resets the four row accumulators
  (running maximum −∞, the three sums 0), whatever they held, and then folds the block in as at any other point.
  The output window is left alone.
-/
import proofs.«101596_j86105504350689_1_alg».proof.Proof.KernelIdeal.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i)
    (x0 x1 : Vec F S1024x128 .f32) (x2 : Vec F S1024x1 .i32) (x3 : Vec F S1x1024 .i32) :
    Σ' (LS0 LS1 LS2 : List (View.Piece (Elt F) S1024x1 .f32)), { LS3 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KernelIdeal.RunLast.lean ====
/-
  The last column block of a row block's sweep (j = 7): after folding the block into the four row accumulators
  as at any other point, the body reads them back and stores the row block's loss,
  −(matched sum − count · (maximum + log (max (exponential sum) 1e-5))) / (count + 1), into the output window.
-/
import proofs.«101596_j86105504350689_1_alg».proof.Proof.KernelIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i)
    (x0 x1 : Vec F S1024x128 .f32) (x2 : Vec F S1024x1 .i32) (x3 : Vec F S1x1024 .i32) (xs0 xs1 xs2 xs3 : Vec F S1024x1 .f32) :
    Σ' (L4 LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.KernelIdeal.Data.lean ====
/-
  The proof data of the similarity kernel's one pipeline: what each window's staging buffer and each of the four
  row accumulators holds after the body at every grid point. The inputs' buffers hold their blocks; the output's
  buffer is written only at a last column block (j = 7); the accumulators are carried from point to point: at a first
  column block (j = 0) they restart from the reset values, at every other point they are folded from what the
  point before left. The region invariant carries the accumulators at exactly those contents, so the body at a
  point starts from what the body at the point before ended with.
-/
import proofs.«101596_j86105504350689_1_alg».proof.Proof.KernelIdeal.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers as the region finds them: after the host operations before it (the row norms, the two
    divisions, the two reshapes of the labels). -/
abbrev V0 (c : Dev nD) : Valuation τ sig (Elt F) := StableHlo.after (List.flatten [hostOps0, hostOps0_1]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the mean after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

abbrev Acc4 : Type := Vec F S1024x1 .f32 × Vec F S1024x1 .f32 × Vec F S1024x1 .f32 × Vec F S1024x1 .f32

/-- A buffer's contents after a list of stores, read through a view of it (the stores cover it, so the prior
    contents do not matter). -/
abbrev readBack (v : View sig .tc .vmem S1024x1 .f32) (L : List (View.Piece (Elt F) S1024x1 .f32)) : Vec F S1024x1 .f32 :=
  v.read (Elt F) (v.writes (Elt F) v.junk L)

/-- The output's component where the window is idle: never consulted. -/
abbrev junkOut : Vec F S1024x1 .f32 := viewOut.read (Elt F) viewOut.junk

theorem coverFirst0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).1, y ∈ pc.1.set :=
  View.cover_of_tiledL _ S1024x1.size (by sl_kernel_rfl) y
theorem coverFirst1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).2.1, y ∈ pc.1.set :=
  View.cover_of_tiledL _ S1024x1.size (by sl_kernel_rfl) y
theorem coverFirst2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).2.2.1, y ∈ pc.1.set :=
  View.cover_of_tiledL _ S1024x1.size (by sl_kernel_rfl) y
theorem coverFirst3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  (y : S1024x1.Idx) :
    ∃ pc ∈ (runFirst c i arg2 harg2 arg3 harg3 arg4 harg4 arg5 harg5 arg6 harg6 arg7 harg7 arg8 harg8 arg9 harg9 arg10 harg10 hc0 hc1 x0 x1 x2 x3 ).2.2.2.1, y ∈ pc.1.set :=
  View.cover_of_tiledL _ S1024x1.size (by sl_kernel_rfl) y
/-- The four accumulators after the body in this case: the stored pieces read back. -/
def afterFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i) (x0 x1 : Vec F S1024x128 .f32) (x2 : Vec F S1024x1 .i32) (x3 : Vec F S1x1024 .i32)  : Acc4 (F := F) :=
  (readBack scMax.view (runFirst c i arg2 harg2 arg3 harg3 arg4 harg4 arg5 harg5 arg6 harg6 arg7 harg7 arg8 harg8 arg9 harg9 arg10 harg10 hc0 hc1 x0 x1 x2 x3 ).1, readBack scSum.view (runFirst c i arg2 harg2 arg3 harg3 arg4 harg4 arg5 harg5 arg6 harg6 arg7 harg7 arg8 harg8 arg9 harg9 arg10 harg10 hc0 hc1 x0 x1 x2 x3 ).2.1,
   readBack scSim.view (runFirst c i arg2 harg2 arg3 harg3 arg4 harg4 arg5 harg5 arg6 harg6 arg7 harg7 arg8 harg8 arg9 harg9 arg10 harg10 hc0 hc1 x0 x1 x2 x3 ).2.2.1, readBack scCnt.view (runFirst c i arg2 harg2 arg3 harg3 arg4 harg4 arg5 harg5 arg6 harg6 arg7 harg7 arg8 harg8 arg9 harg9 arg10 harg10 hc0 hc1 x0 x1 x2 x3 ).2.2.2.1)
theorem coverMid0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S1024x1.size (by sl_kernel_rfl) y
theorem coverMid1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S1024x1.size (by sl_kernel_rfl) y
theorem coverMid2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S1024x1.size (by sl_kernel_rfl) y
theorem coverMid3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runMid c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S1024x1.size (by sl_kernel_rfl) y
/-- The four accumulators after the body in this case: the stored pieces read back. -/
def afterMid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i) (x0 x1 : Vec F S1024x128 .f32) (x2 : Vec F S1024x1 .i32) (x3 : Vec F S1x1024 .i32) (xs0 xs1 xs2 xs3 : Vec F S1024x1 .f32) : Acc4 (F := F) :=
  (readBack scMax.view (runMid c i arg2 harg2 arg3 harg3 arg4 harg4 arg5 harg5 arg6 harg6 arg7 harg7 arg8 harg8 arg9 harg9 arg10 harg10 hc0 hc1 x0 x1 x2 x3 xs0 xs1 xs2 xs3).1, readBack scSum.view (runMid c i arg2 harg2 arg3 harg3 arg4 harg4 arg5 harg5 arg6 harg6 arg7 harg7 arg8 harg8 arg9 harg9 arg10 harg10 hc0 hc1 x0 x1 x2 x3 xs0 xs1 xs2 xs3).2.1,
   readBack scSim.view (runMid c i arg2 harg2 arg3 harg3 arg4 harg4 arg5 harg5 arg6 harg6 arg7 harg7 arg8 harg8 arg9 harg9 arg10 harg10 hc0 hc1 x0 x1 x2 x3 xs0 xs1 xs2 xs3).2.2.1, readBack scCnt.view (runMid c i arg2 harg2 arg3 harg3 arg4 harg4 arg5 harg5 arg6 harg6 arg7 harg7 arg8 harg8 arg9 harg9 arg10 harg10 hc0 hc1 x0 x1 x2 x3 xs0 xs1 xs2 xs3).2.2.2.1)
theorem coverLast0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL _ S1024x1.size (by sl_kernel_rfl) y
theorem coverLast1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL _ S1024x1.size (by sl_kernel_rfl) y
theorem coverLast2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL _ S1024x1.size (by sl_kernel_rfl) y
theorem coverLast3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL _ S1024x1.size (by sl_kernel_rfl) y
/-- The four accumulators after the body in this case: the stored pieces read back. -/
def afterLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) : Acc4 (F := F) :=
  (readBack scMax.view (runLast c i arg2 harg2 arg3 harg3 arg4 harg4 arg5 harg5 arg6 harg6 arg7 harg7 arg8 harg8 arg9 harg9 arg10 harg10 hc0 hc1 x0 x1 x2 x3 xs0 xs1 xs2 xs3).2.1, readBack scSum.view (runLast c i arg2 harg2 arg3 harg3 arg4 harg4 arg5 harg5 arg6 harg6 arg7 harg7 arg8 harg8 arg9 harg9 arg10 harg10 hc0 hc1 x0 x1 x2 x3 xs0 xs1 xs2 xs3).2.2.1,
   readBack scSim.view (runLast c i arg2 harg2 arg3 harg3 arg4 harg4 arg5 harg5 arg6 harg6 arg7 harg7 arg8 harg8 arg9 harg9 arg10 harg10 hc0 hc1 x0 x1 x2 x3 xs0 xs1 xs2 xs3).2.2.2.1, readBack scCnt.view (runLast c i arg2 harg2 arg3 harg3 arg4 harg4 arg5 harg5 arg6 harg6 arg7 harg7 arg8 harg8 arg9 harg9 arg10 harg10 hc0 hc1 x0 x1 x2 x3 xs0 xs1 xs2 xs3).2.2.2.2.1)
theorem coverOut (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) (y : S1024x1.Idx) :
    ∃ pc ∈ (runLast c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL _ S1024x1.size (by sl_kernel_rfl) y
/-- The row block's loss as the last column block stores it. -/
def outLast (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i) (x0 x1 : Vec F S1024x128 .f32) (x2 : Vec F S1024x1 .i32) (x3 : Vec F S1x1024 .i32) (xs0 xs1 xs2 xs3 : Vec F S1024x1 .f32) : Vec F S1024x1 .f32 :=
  readBack viewOut (runLast c i arg2 harg2 arg3 harg3 arg4 harg4 arg5 harg5 arg6 harg6 arg7 harg7 arg8 harg8 arg9 harg9 arg10 harg10 hc0 hc1 x0 x1 x2 x3 xs0 xs1 xs2 xs3).1

/-! ## Point by point -/

/-- What the output's buffer and the four accumulators hold after the body at the n-th point (the output first):
    the first column block starts from the reset values, every later one from what the point before left; the
    output's component is only meaningful at a last column block. -/
def outsAt (c : Dev nD) : (n : ℕ) → n < cfg0.N → Vec F S1024x1 .f32 × Acc4 (F := F)
  | 0, hn => (junkOut, afterFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scSim (Memref.isWhole_whole _) scCnt (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      (junkOut, afterFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) ((condFirst_iff ⟨n + 1, hn⟩).mpr h0) (fun h => (fun h => by (try dsimp only at h); omega) ((condLast_iff ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
         afterLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)
      else
        (junkOut, afterMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scSim (Memref.isWhole_whole _) scCnt (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)

theorem outsAt_first (c : Dev nD) (t : Fin cfg0.N) (h0 : t.val % 8 = 0) :
    outsAt m c t.val t.isLt = (junkOut, afterFirst c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) ((condFirst_iff t).mpr h0) (fun h => (fun h => by omega) ((condLast_iff t).mp h)) (iblk m c 0 t) (iblk m c 1 t) (iblk m c 2 t) (iblk m c 3 t)) := by
  obtain ⟨n, hn⟩ := t
  cases n with
  | zero => exact rfl
  | succ n => exact (dif_pos h0).trans rfl

theorem outsAt_mid (c : Dev nD) (t : Fin cfg0.N) (h0 : ¬t.val % 8 = 0) (h1 : ¬t.val % 8 = 7) :
    outsAt m c t.val t.isLt = (junkOut, afterMid c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) (fun h => h0 ((condFirst_iff t).mp h)) (fun h => h1 ((condLast_iff t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) (fun h => h0 ((condFirst_iff t).mp h)) ((condLast_iff t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
      afterLast c (grid0.coords t) (ms0 t) (hs0 t) (ms1 t) (hs1 t) (ms2 t) (hs2 t) (ms3 t) (hs3 t) (ms4 t) (hs4 t) scMax (Memref.isWhole_whole _) scSum (Memref.isWhole_whole _) scSim (Memref.isWhole_whole _) scCnt (Memref.isWhole_whole _) (fun h => h0 ((condFirst_iff t).mp h)) ((condLast_iff t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before the n-th point: at the start what the launch leaves; afterwards the four
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scMax fullShare ((outsAt m c n hn).2.1) ∗ owns (c : Thread nD τ) scSum fullShare ((outsAt m c n hn).2.2.1) ∗ owns (c : Thread nD τ) scSim fullShare ((outsAt m c n hn).2.2.2.1) ∗ owns (c : Thread nD τ) scCnt fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((outsAt m c n hn).2.1) ∗ owns (c : Thread nD τ) scSum fullShare ((outsAt m c n hn).2.2.1) ∗ owns (c : Thread nD τ) scSim fullShare ((outsAt m c n hn).2.2.2.1) ∗ owns (c : Thread nD τ) scCnt fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scMax fullShare ((outsAt m c (n - 1) (by omega)).2.1) ∗ owns (c : Thread nD τ) scSum fullShare ((outsAt m c (n - 1) (by omega)).2.2.1) ∗ owns (c : Thread nD τ) scSim fullShare ((outsAt m c (n - 1) (by omega)).2.2.2.1) ∗ owns (c : Thread nD τ) scCnt fullShare ((outsAt m c (n - 1) (by omega)).2.2.2.2)) ∗ (∃ r, prngReg c r)) := by
  cases n with
  | zero => exact absurd rfl hz
  | succ n => rfl

/-! ## The proof data -/

/-- The arrays as the region finds them; each input's buffer at its block and the output's at the loss after the
    body; the invariant above; nothing owed. Windows 0 and 1 stage blocks of ONE array (the scaled features), so
    each holds half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the closed forms of the two conditions say which case the point is in; the invariant hands
    the body the accumulators at what the point before left (at anything before the very first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 8 = 0
  · have h1 : ¬t.val % 8 = 7 := by omega
    have hc0 : condFirst (grid0.coords t) := (condFirst_iff t).mpr h0
    have hc1 : ¬condLast (grid0.coords t) := fun h => h1 ((condLast_iff t).mp h)
    rw [Dat.leavesExact_idle (dats m 0 c) 4 t (idle4 t hc1) (noFlush4 t hc1)]
    rw [outsAt_first m c t h0]
    unfold afterFirst; (try dsimp only)
    by_cases hz : t.val = 0
    · rw [PhiS_castSucc m c t, PhiS_zero m c _ _ hz, scoped_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst2 c _ _ _ _ _ _ _ _ _ _ _ _ _ _ _ _ _ _ _ _ _ _ _ _ _)
        unfold owns; iexists _; isplitr
        swap; · iexact HS3
        ipureintro; exact View.read_writes_of_cover _ _ _ _ _ (coverFirst3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverFirst2 c _ _ _ _ _ _ _ _ _ _ _ _ _ _ _ _ _ _ _ _ _ _ _ _ _)
        unfold owns; iexists _; isplitr
        swap; · iexact HS3
        ipureintro; exact View.read_writes_of_cover _ _ _ _ _ (coverFirst3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬condFirst (grid0.coords t) := fun h => h0 ((condFirst_iff t).mp h)
    by_cases h1 : t.val % 8 = 7
    · have hc1 : condLast (grid0.coords t) := (condLast_iff t).mpr h1
      rw [show (dats m 0 c).leavesExact 4 t = owns (c : Thread nD τ) (ms4 t) fullShare ((dats m 0 c).after 4 t) from by
        unfold Dat.leavesExact; rw [live4 t hc1], after4]
      rw [outsAt_last m c t h0 h1]
      unfold outLast afterLast; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ _ _ hc0 hc1 (iblk m c 0 t) (iblk m c 1 t) (iblk m c 2 t) (iblk m c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverLast0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverLast1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverLast2 c _ _ _ _ _ _ _ _ _ _ _ _ _ _ _ _ _ _ _ _ _ _ _ _ _ _ _ _ _)
        unfold owns; iexists _; isplitr
        swap; · iexact HS3
        ipureintro; exact View.read_writes_of_cover _ _ _ _ _ (coverLast3 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut c _ _ _ _ _ _ _ _ _ _ _ _ _ _ _ _ _ _ _ _ _ _ _ _ _ _ _ _ _)
    · have hc1 : ¬condLast (grid0.coords t) := fun h => h1 ((condLast_iff t).mp h)
      rw [Dat.leavesExact_idle (dats m 0 c) 4 t (idle4 t hc1) (noFlush4 t hc1)]
      rw [outsAt_mid m c t h0 h1]
      unfold afterMid; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ _ _ hc0 hc1 (iblk m c 0 t) (iblk m c 1 t) (iblk m c 2 t) (iblk m c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3 Hg]
      · isplitr [Hg]
        swap; · iexact Hg
        isplitl [HS0]
        · unfold owns; iexists _; isplitr
          swap; · iexact HS0
          ipureintro; exact View.read_writes_of_cover _ _ _ _ _ (coverMid0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverMid1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverMid2 c _ _ _ _ _ _ _ _ _ _ _ _ _ _ _ _ _ _ _ _ _ _ _ _ _ _ _ _ _)
        unfold owns; iexists _; isplitr
        swap; · iexact HS3
        ipureintro; exact View.read_writes_of_cover _ _ _ _ _ (coverMid3 c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Hand

end
-- ==== Proof.KernelIdeal.Launch.lean ====
/-
  The launch of the similarity kernel's region. Two of its input windows stage blocks of ONE array, the scaled
  features (the row block through window 0, the column block through window 1): the array is held whole when the
  region is entered, each of the two windows takes half of it for the region's duration, and the halves are put
  together again for the mean that follows the region. The other three arrays (the two label layouts, the loss
  column) are held whole by their one window.
-/
import proofs.«101596_j86105504350689_1_alg».proof.Proof.KernelIdeal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: four buffers, five windows -/

/-- The buffers behind the windows' arrays: the scaled features, the two label layouts, the loss column. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6) ∗ (((c : Thread nD τ).loc main_v7) ↦{fullShare} W main_v7) ∗ (((c : Thread nD τ).loc main_v8) ↦{fullShare} W main_v8)) := by
  unfold Pipeline.arrBufs
  exact bigSep_eq_bigSepL_of_eq [main_v5, main_v6, main_v7, main_v8] (by decide) (by decide) _

/-- The pipeline's arrays window by window: the scaled features in two halves, the rest whole. -/
theorem arrays_eq (c : Dev nD) (A : (w : Fin cfg0.W) → Buf (Elt F) ((cfg0.win w).arr.view.loc (c : Thread nD τ))) :
    ((dats m 0 c).arrays A : sProp 𝕄)
      = iprop((((c : Thread nD τ).loc main_v5) ↦{fullShare.left} A 0) ∗ (((c : Thread nD τ).loc main_v5) ↦{fullShare.right} A 1) ∗ (((c : Thread nD τ).loc main_v6) ↦{fullShare} A 2) ∗ (((c : Thread nD τ).loc main_v7) ↦{fullShare} A 3) ∗ (((c : Thread nD τ).loc main_v8) ↦{fullShare} A 4)) := by
  unfold Dat.arrays
  rw [bigSep_W0, (arr_whole0 0).set_eq_univ, (arr_whole0 2).set_eq_univ, (arr_whole0 3).set_eq_univ, (arr_whole0 4).set_eq_univ]
  rfl

/-- Whole buffers at contents W become the pipeline's arrays at the same contents: the scaled features split in two. -/
theorem arrays_of_bufs (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m 0 c).arrays fun w => W (Pipeline.arrRef spec0 w) := by
  rw [arrBufs_eq, arrays_eq]
  iintro ⟨H5, H6, H7, H8⟩
  ihave Hs := (pointsTo_share (PosShare.mem_left_op_right fullShare)).1 $$ H5
  icases Hs with ⟨Hl, Hr⟩
  isplitl [Hl]; · iexact Hl
  isplitl [Hr]; · iexact Hr
  isplitl [H6]; · iexact H6
  isplitl [H7]; · iexact H7
  iexact H8

/-- And back: the two halves of the scaled features joined. -/
theorem bufs_of_arrays (c : Dev nD) (W : (b : Ref sig .tc) → Buf (Elt F) ((c : Thread nD τ).loc b)) :
    ((dats m 0 c).arrays fun w => W (Pipeline.arrRef spec0 w) : sProp 𝕄)
      ⊢ Pipeline.arrBufs (Ix := Unit) (Name := ℕ) (U := UR sig nD τ) (Lvl := ℕ) spec0 c W := by
  rw [arrBufs_eq, arrays_eq]
  iintro ⟨Hl, Hr, H6, H7, H8⟩
  isplitl [Hl Hr]
  · iapply (pointsTo_share (PosShare.mem_left_op_right fullShare)).2
    isplitl [Hl]; · iexact Hl
    iexact Hr
  isplitl [H6]; · iexact H6
  isplitl [H7]; · iexact H7
  iexact H8

/-! ## Around the region -/

/-- The buffers when the region ends: the loss column at what the region's write-backs left, everything else as
    the region found it. -/
def Vexit (c : Dev nD) : Valuation τ sig (Elt F) :=
  Function.update (V0 m c) (Proc.devRef .tc main_v8) ((dats m 0 c).arrAt 4 cfg0.N)

/-- The buffers when @main ends: after the sum over the loss column and the division by its length. -/
def Vend (c : Dev nD) : Valuation τ sig (Elt F) := StableHlo.after hostOps1 (Vexit m c)

/-- Each window's array at the region's end is what `Vexit` says of its buffer: an input's array is as the region
    found it, the loss column is the one buffer the region changes. -/
theorem arrAt_exit (c : Dev nD) (w : Fin cfg0.W) :
    (dats m 0 c).arrAt w cfg0.N = Vexit m c (Proc.devRef .tc (Pipeline.arrRef spec0 w)) := by
  unfold Vexit
  match w with
  | ⟨0, _⟩ => rw [Function.update_of_ne (StableHlo.devRef_ne_of_ne (show (main_v5 : Ref sig .tc) ≠ main_v8 by decide))]; exact ((dats m 0 c).arrAt_in 0 rfl _).trans (A_eq m c 0)
  | ⟨1, _⟩ => rw [Function.update_of_ne (StableHlo.devRef_ne_of_ne (show (main_v5 : Ref sig .tc) ≠ main_v8 by decide))]; exact ((dats m 0 c).arrAt_in 1 rfl _).trans (A_eq m c 1)
  | ⟨2, _⟩ => rw [Function.update_of_ne (StableHlo.devRef_ne_of_ne (show (main_v6 : Ref sig .tc) ≠ main_v8 by decide))]; exact ((dats m 0 c).arrAt_in 2 rfl _).trans (A_eq m c 2)
  | ⟨3, _⟩ => rw [Function.update_of_ne (StableHlo.devRef_ne_of_ne (show (main_v7 : Ref sig .tc) ≠ main_v8 by decide))]; exact ((dats m 0 c).arrAt_in 3 rfl _).trans (A_eq m c 3)
  | ⟨4, _⟩ => exact (Function.update_self (Proc.devRef .tc main_v8) ((dats m 0 c).arrAt 4 cfg0.N) (V0 m c)).symm

/-! ## The mean after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The mean writes no window's array: each of its four operations writes only its own result. -/
theorem tail_keeps (w : Fin cfg0.W) : ∀ op ∈ (hostOps1 : List (HloOp τ sig (Elt F))), Proc.devRef .tc (Pipeline.arrRef spec0 w) ∉ op.writes := by
  intro op hop
  simp only [hostOps1, List.mem_cons, List.mem_nil_iff, or_false] at hop
  rcases hop with rfl | rfl | rfl | rfl
  all_goals fin_cases w <;> simp only [StableHlo.nullary_writes, StableHlo.unary_writes, StableHlo.binary_writes, Finset.mem_singleton] <;> exact StableHlo.devRef_ne_of_ne (by decide)

/-- A buffer that is no window's array is not the loss column, so the region leaves it as it found it. -/
theorem rest_exit (c : Dev nD) :
    (Pipeline.unscopedRest (Ix := Unit) (Name := ℕ) (U := UR sig nD τ) (Lvl := ℕ) spec0 c (V m c) : sProp 𝕄)
      = Pipeline.unscopedRest spec0 c (fun b => Vexit m c (Proc.devRef .tc b)) := by
  unfold Pipeline.unscopedRest
  exact bigSep_congr fun b hb => by
    have hne : b ≠ main_v8 := fun e => (Finset.mem_sdiff.mp hb).2 (Finset.mem_image.mpr ⟨4, Finset.mem_univ _, (show Pipeline.arrRef spec0 4 = b from e.symm)⟩)
    show _ = (((c.tc : Thread nD τ).loc b) ↦{fullShare} Function.update (V0 m c) (Proc.devRef .tc main_v8) ((dats m 0 c).arrAt 4 cfg0.N) (Proc.devRef .tc b))
    rw [Function.update_of_ne (StableHlo.devRef_ne_of_ne hne)]

/-- At the region's exit the arrays and the bypassing buffers are ALL the unscoped buffers, held at the exit contents. -/
theorem held_exit (c : Dev nD) :
    iprop(((dats m 0 c).arrays fun w => (dats m 0 c).arrAt w cfg0.N) ∗ Pipeline.unscopedRest (Ix := Unit) (Name := ℕ) (U := UR sig nD τ) (Lvl := ℕ) spec0 c (V m c))
      ⊢ (StableHlo.held (c.tc : Thread nD τ) (Pipeline.ucRefs τ sig) (Vexit m c) : sProp 𝕄) := by
  refine (BI.sep_mono (Entails.of_eq (congrArg (dats m 0 c).arrays (funext fun w => arrAt_exit m c w))) (Entails.of_eq (rest_exit m c))).trans ?_
  refine (BI.sep_mono (bufs_of_arrays m c (fun b => Vexit m c (Proc.devRef .tc b))) (Idealize.SL.BI.Entails.refl _)).trans ?_
  exact Entails.of_eq ((Pipeline.unscopedBufs_split₀ cfgs 0 winFacts₀0.arr_unscoped c (fun b => Vexit m c (Proc.devRef .tc b))).symm.trans
    (Pipeline.unscopedBufs_held (Ix := Unit) (Name := ℕ) (U := UR sig nD τ) (Lvl := ℕ) c (Vexit m c)))

/-- The mean leaves every window's array as it was at the exit. -/
theorem arrAt_end (c : Dev nD) (w : Fin cfg0.W) :
    (dats m 0 c).arrAt w cfg0.N = Vend m c (Proc.devRef .tc (Pipeline.arrRef spec0 w)) :=
  (arrAt_exit m c w).trans (StableHlo.after_of_forall_not_mem hostOps1 (Vexit m c) (tail_keeps w)).symm

/-- After the mean they split again: the arrays are as at the exit (the mean writes none), the rest at the end contents. -/
theorem held_end (c : Dev nD) :
    (StableHlo.held (c.tc : Thread nD τ) (Pipeline.ucRefs τ sig) (Vend m c) : sProp 𝕄)
      ⊢ iprop(((dats m 0 c).arrays fun w => (dats m 0 c).arrAt w cfg0.N) ∗ Pipeline.unscopedRest (Ix := Unit) (Name := ℕ) (U := UR sig nD τ) (Lvl := ℕ) spec0 c (fun b => Vend m c (Proc.devRef .tc b))) := by
  refine (Entails.of_eq ((Pipeline.unscopedBufs_held (Ix := Unit) (Name := ℕ) (U := UR sig nD τ) (Lvl := ℕ) c (Vend m c)).symm.trans
    (Pipeline.unscopedBufs_split₀ cfgs 0 winFacts₀0.arr_unscoped c (fun b => Vend m c (Proc.devRef .tc b))))).trans ?_
  refine (BI.sep_mono (arrays_of_bufs m c (fun b => Vend m c (Proc.devRef .tc b))) (Idealize.SL.BI.Entails.refl _)).trans ?_
  exact BI.sep_mono (Entails.of_eq (congrArg (dats m 0 c).arrays (funext fun w => (arrAt_end m c w).symm))) (Idealize.SL.BI.Entails.refl _)

set_option backward.isDefEq.respectTransparency.types false in
/-- Every weakly fair execution of @main terminates without a fault, and every buffer that is no window's array ends
    at what the host operations after the region compute from the region's exit contents. -/
theorem run_main : θ_run defs (onTc (τ := τ) (main (F := F))) ⟨m, fun _ => 0, ρ⟩
    (fun r => ∀ c : Dev nD, ∀ b ∈ Pipeline.restRefsP sig (pcfgs (F := F) 0).pre spec0, r.2.mem ((c.tc : Thread nD τ).loc b) = Vend m c (Proc.devRef .tc b)) := by
  classical
  exact Pipeline.θ_run_region_pf_tail (pcfgs (F := F)) (fun p => (cfgs p).toPCfg_adm) (dats m) () cellOf_inj (0 : Fin 1)
    winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := Rounds.initOf (Pipeline.cells (Pipeline.pin (pcfgs (F := F)) fun p => (cfgs p).toPCfg_adm) cellOf_inj) (Pipeline.launchToks (Pipeline.pin (pcfgs (F := F)) fun p => (cfgs p).toPCfg_adm) cellOf_inj))
    (hu₀ := by
      iintro Hu; imodintro
      isplitl [Hu]; · iapply (show (ownU _ : sProp 𝕄) ⊢ BI.own (emb₁ (Rounds.initOf (Pipeline.cells (Pipeline.pin (pcfgs (F := F)) fun p => (cfgs p).toPCfg_adm) cellOf_inj) (Pipeline.launchToks (Pipeline.pin (pcfgs (F := F)) fun p => (cfgs p).toPCfg_adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      have h := arrays_of_bufs m c (V m c)
      rwa [show (fun w => V m c (Pipeline.arrRef spec0 w)) = ((dats m 0 c).arrAt · 0) from funext fun w => (A_eq m c w).symm] at h)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (pcfgs (F := F) 0).pre spec0 c (V m c))
    (Z' := fun c => Pipeline.unscopedRestP (Ix := Unit) (Name := ℕ) (U := UR sig nD τ) (Lvl := ℕ) (pcfgs (F := F) 0).pre spec0 c (fun b => Vend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [show (Pipeline.unscopedRestP (Ix := Unit) (Name := ℕ) (U := UR sig nD τ) (Lvl := ℕ) (pcfgs (F := F) 0).pre spec0 c (V m c) : sProp 𝕄) = Pipeline.unscopedRest spec0 c (V m c) from Pipeline.unscopedRestP_none spec0 c _,
        show (Pipeline.unscopedRestP (Ix := Unit) (Name := ℕ) (U := UR sig nD τ) (Lvl := ℕ) (pcfgs (F := F) 0).pre spec0 c (fun b => Vend m c (Proc.devRef .tc b)) : sProp 𝕄) = Pipeline.unscopedRest spec0 c (fun b => Vend m c (Proc.devRef .tc b)) from Pipeline.unscopedRestP_none spec0 c _]
      iintro ⟨Hk, Hb, Ha, Hz⟩
      ihave Hh := (held_exit m c) $$ [Ha Hz]
      · isplitl [Ha]; · iexact Ha
        iexact Hz
      iapply (Pipeline.wp_seqs_then (pcfgs (F := F)) defs₀ Variants.none c (Pipeline.ucRefs τ sig) [] [hostOps1] tail_sub tail_fresh (Vexit m c)) $$ [Hb Hh]
      · isplitl [Hb]; · iexact Hb
        iexact Hh
      iintro ⟨Hb, Hh⟩
      rw [Pipeline.chain_nil, wp_pure]
      imodintro
      iapply Hk
      iapply (held_end m c)
      iexact Hh)
    (QY := fun c s => ∀ b ∈ Pipeline.restRefsP sig (pcfgs (F := F) 0).pre spec0, s.mem ((c.tc : Thread nD τ).loc b) = Vend m c (Proc.devRef .tc b))
    (hY := fun c s' => by
      iintro ⟨-, HU, HSI⟩
      unfold Pipeline.unscopedRestP
      imodintro
      iapply (pointsTo_read_all (Pipeline.restRefsP sig (pcfgs (F := F) 0).pre spec0) (fun b => (c.tc : Thread nD τ).loc b) (fun b => Vend m c (Proc.devRef .tc b)) s')
      isplitl [HU] <;> iassumption)
    (hQ := fun s h c => (h c).2.2)

end Cert.KernelIdeal.Hand

end
-- ==== Proof.KernelIdeal.Frame.lean ====
/-
  What the kernel program's run says of the buffers a caller sees: the three argument arrays are written by no host
  operation, are no output of the region, and so end as they were launched; the result is what the mean computes
  from the loss column the region leaves.
-/
import proofs.«101596_j86105504350689_1_alg».proof.Proof.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes argument 0. -/
theorem V0_arg0 (c : Dev nD) : V0 m c (Proc.devRef .tc main_arg0) = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the region (it is not the loss column), nor the mean after it. -/
theorem Vend_arg0 (c : Dev nD) : Vend m c (Proc.devRef .tc main_arg0) = m ((c : Thread nD τ).loc main_arg0) := by
  unfold Vend
  rw [StableHlo.after_of_forall_not_mem (b := Proc.devRef .tc main_arg0) hostOps1 (Vexit m c) (List.forall_iff_forall_mem.mp (by
    simp only [hostOps1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  unfold Vexit
  rw [Function.update_of_ne (StableHlo.devRef_ne_of_ne (show (main_arg0 : Ref sig .tc) ≠ main_v8 by decide))]
  exact V0_arg0 m c

theorem arg0_mem : (main_arg0 : Ref sig .tc) ∈ Pipeline.restRefsP sig (pcfgs (F := F) 0).pre spec0 :=
  show (main_arg0 : Ref sig .tc) ∈ Pipeline.restRefsP sig Pipeline.Prefetch.none spec0 from by decide

/-- No host operation before the region writes argument 1. -/
theorem V0_arg1 (c : Dev nD) : V0 m c (Proc.devRef .tc main_arg1) = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the region (it is not the loss column), nor the mean after it. -/
theorem Vend_arg1 (c : Dev nD) : Vend m c (Proc.devRef .tc main_arg1) = m ((c : Thread nD τ).loc main_arg1) := by
  unfold Vend
  rw [StableHlo.after_of_forall_not_mem (b := Proc.devRef .tc main_arg1) hostOps1 (Vexit m c) (List.forall_iff_forall_mem.mp (by
    simp only [hostOps1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  unfold Vexit
  rw [Function.update_of_ne (StableHlo.devRef_ne_of_ne (show (main_arg1 : Ref sig .tc) ≠ main_v8 by decide))]
  exact V0_arg1 m c

theorem arg1_mem : (main_arg1 : Ref sig .tc) ∈ Pipeline.restRefsP sig (pcfgs (F := F) 0).pre spec0 :=
  show (main_arg1 : Ref sig .tc) ∈ Pipeline.restRefsP sig Pipeline.Prefetch.none spec0 from by decide

/-- No host operation before the region writes argument 2. -/
theorem V0_arg2 (c : Dev nD) : V0 m c (Proc.devRef .tc main_arg2) = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the region (it is not the loss column), nor the mean after it. -/
theorem Vend_arg2 (c : Dev nD) : Vend m c (Proc.devRef .tc main_arg2) = m ((c : Thread nD τ).loc main_arg2) := by
  unfold Vend
  rw [StableHlo.after_of_forall_not_mem (b := Proc.devRef .tc main_arg2) hostOps1 (Vexit m c) (List.forall_iff_forall_mem.mp (by
    simp only [hostOps1, List.flatten_cons, List.flatten_nil, List.append_nil, List.cons_append, List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  unfold Vexit
  rw [Function.update_of_ne (StableHlo.devRef_ne_of_ne (show (main_arg2 : Ref sig .tc) ≠ main_v8 by decide))]
  exact V0_arg2 m c

theorem arg2_mem : (main_arg2 : Ref sig .tc) ∈ Pipeline.restRefsP sig (pcfgs (F := F) 0).pre spec0 :=
  show (main_arg2 : Ref sig .tc) ∈ Pipeline.restRefsP sig Pipeline.Prefetch.none spec0 from by decide

theorem res_mem : (main_v10 : Ref sig .tc) ∈ Pipeline.restRefsP sig (pcfgs (F := F) 0).pre spec0 :=
  show (main_v10 : Ref sig .tc) ∈ Pipeline.restRefsP sig Pipeline.Prefetch.none spec0 from by decide

/-- The frame: every weakly fair execution terminates without a fault and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (arg0_mem (F := F))).trans (Vend_arg0 m c), (h c main_arg1 (arg1_mem (F := F))).trans (Vend_arg1 m c),
    (h c main_arg2 (arg2_mem (F := F))).trans (Vend_arg2 m c)⟩) (run_main m ρ)

/-- The same run with the result named: the mean of the loss column as the region leaves it. -/
theorem run_value : θ_run defs (onTc (τ := τ) (main (F := F))) ⟨m, fun _ => 0, ρ⟩ (fun r => ∀ c : Dev nD,
      r.2.mem ((c.tc : Thread nD τ).loc main_v10) = Vend m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c main_v10 (res_mem (F := F)), (h c main_arg0 (arg0_mem (F := F))).trans (Vend_arg0 m c), (h c main_arg1 (arg1_mem (F := F))).trans (Vend_arg1 m c),
    (h c main_arg2 (arg2_mem (F := F))).trans (Vend_arg2 m c)⟩) (run_main m ρ)

end Cert.KernelIdeal.Hand

end
-- ==== Proof.KernelIdeal.CaseValues.lean ====
/-
  What the body leaves, as arithmetic. In every case the four row accumulators end at one tile step of the row
  recurrence applied to what they held: the new running maximum, the rescaled exponential sum, the matched
  similarity sum and the match count, computed from the row block and the column block of the scaled features and
  the two label blocks. At a first column block the step starts from the reset values; at a last column block
  the output block is, in addition, the loss formed from the four fresh accumulators.
-/
import proofs.«101596_j86105504350689_1_alg».proof.Proof.KernelIdeal.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One tile step on whole blocks: the four accumulators after the body, from the blocks and the accumulators before. -/
abbrev stepAcc (i : grid0.Coords) (x0 x1 : Vec F S1024x128 .f32) (x2 : Vec F S1024x1 .i32) (x3 : Vec F S1x1024 .i32)
    (aM aL aU aC : Vec F S1024x1 .f32) : Acc4 (F := F) :=
  (k0_pay2 (k0_pay13 x0 x1 aM), k0_pay1 (k0_pay14 i x0 x1 aM aM aL), k0_pay4 (k0_pay11 x0 x1) (k0_pay12 i) x2 x3 aU, k0_pay5 (k0_pay12 i) x2 x3 aC)

/-- Strictly inside a sweep the accumulators are stepped from what the point before left. -/
theorem afterMid_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : ¬condLast i)
    (x0 x1 : Vec F S1024x128 .f32) (x2 : Vec F S1024x1 .i32) (x3 : Vec F S1x1024 .i32) (xs0 xs1 xs2 xs3 : Vec F S1024x1 .f32) :
    afterMid c i arg2 harg2 arg3 harg3 arg4 harg4 arg5 harg5 arg6 harg6 arg7 harg7 arg8 harg8 arg9 harg9 arg10 harg10 hc0 hc1 x0 x1 x2 x3 xs0 xs1 xs2 xs3 = stepAcc i x0 x1 x2 x3 xs0 xs1 xs2 xs3 := by
  unfold afterMid readBack stepAcc
  rw [View.read_writes_eq_canon scMax.view _ _ (coverMid0 c i arg2 harg2 arg3 harg3 arg4 harg4 arg5 harg5 arg6 harg6 arg7 harg7 arg8 harg8 arg9 harg9 arg10 harg10 hc0 hc1 x0 x1 x2 x3 xs0 xs1 xs2 xs3),
    View.read_writes_eq_canon scSum.view _ _ (coverMid1 c i arg2 harg2 arg3 harg3 arg4 harg4 arg5 harg5 arg6 harg6 arg7 harg7 arg8 harg8 arg9 harg9 arg10 harg10 hc0 hc1 x0 x1 x2 x3 xs0 xs1 xs2 xs3),
    View.read_writes_eq_canon scSim.view _ _ (coverMid2 c i arg2 harg2 arg3 harg3 arg4 harg4 arg5 harg5 arg6 harg6 arg7 harg7 arg8 harg8 arg9 harg9 arg10 harg10 hc0 hc1 x0 x1 x2 x3 xs0 xs1 xs2 xs3),
    View.read_writes_eq_canon scCnt.view _ _ (coverMid3 c i arg2 harg2 arg3 harg3 arg4 harg4 arg5 harg5 arg6 harg6 arg7 harg7 arg8 harg8 arg9 harg9 arg10 harg10 hc0 hc1 x0 x1 x2 x3 xs0 xs1 xs2 xs3)]
  unfold runMid
  dsimp only
  sl_unfold_words
  simp only [View.canon_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]

/-- At a first column block they are stepped from the reset values. -/
theorem afterFirst_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : condFirst i) (hc1 : ¬condLast i)
    (x0 x1 : Vec F S1024x128 .f32) (x2 : Vec F S1024x1 .i32) (x3 : Vec F S1x1024 .i32) :
    afterFirst c i arg2 harg2 arg3 harg3 arg4 harg4 arg5 harg5 arg6 harg6 arg7 harg7 arg8 harg8 arg9 harg9 arg10 harg10 hc0 hc1 x0 x1 x2 x3 = stepAcc i x0 x1 x2 x3 (k0_pay7 (F := F)) (k0_pay8 (F := F)) (k0_pay9 (F := F)) (k0_pay10 (F := F)) := by
  unfold afterFirst readBack stepAcc
  rw [View.read_writes_eq_canon scMax.view _ _ (coverFirst0 c i arg2 harg2 arg3 harg3 arg4 harg4 arg5 harg5 arg6 harg6 arg7 harg7 arg8 harg8 arg9 harg9 arg10 harg10 hc0 hc1 x0 x1 x2 x3 ),
    View.read_writes_eq_canon scSum.view _ _ (coverFirst1 c i arg2 harg2 arg3 harg3 arg4 harg4 arg5 harg5 arg6 harg6 arg7 harg7 arg8 harg8 arg9 harg9 arg10 harg10 hc0 hc1 x0 x1 x2 x3 ),
    View.read_writes_eq_canon scSim.view _ _ (coverFirst2 c i arg2 harg2 arg3 harg3 arg4 harg4 arg5 harg5 arg6 harg6 arg7 harg7 arg8 harg8 arg9 harg9 arg10 harg10 hc0 hc1 x0 x1 x2 x3 ),
    View.read_writes_eq_canon scCnt.view _ _ (coverFirst3 c i arg2 harg2 arg3 harg3 arg4 harg4 arg5 harg5 arg6 harg6 arg7 harg7 arg8 harg8 arg9 harg9 arg10 harg10 hc0 hc1 x0 x1 x2 x3 )]
  unfold runFirst
  dsimp only
  sl_unfold_words
  simp only [View.canon_cons_unit_zero (S := S1024x1) hz2, View.readCov_unit_zero (S := S1024x1) _ hz2, View.canon_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]

/-- At a last column block they are stepped as inside a sweep, -/
theorem afterLast_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i)
    (x0 x1 : Vec F S1024x128 .f32) (x2 : Vec F S1024x1 .i32) (x3 : Vec F S1x1024 .i32) (xs0 xs1 xs2 xs3 : Vec F S1024x1 .f32) :
    afterLast c i arg2 harg2 arg3 harg3 arg4 harg4 arg5 harg5 arg6 harg6 arg7 harg7 arg8 harg8 arg9 harg9 arg10 harg10 hc0 hc1 x0 x1 x2 x3 xs0 xs1 xs2 xs3 = stepAcc i x0 x1 x2 x3 xs0 xs1 xs2 xs3 := by
  unfold afterLast readBack stepAcc
  refine Prod.ext ?_ (Prod.ext ?_ (Prod.ext ?_ ?_)) <;> dsimp only
  · rw [View.read_writes_eq_canon scMax.view _ _ (coverLast0 c i arg2 harg2 arg3 harg3 arg4 harg4 arg5 harg5 arg6 harg6 arg7 harg7 arg8 harg8 arg9 harg9 arg10 harg10 hc0 hc1 x0 x1 x2 x3 xs0 xs1 xs2 xs3)]
    unfold runLast
    dsimp only
    sl_unfold_words
    simp only [View.canon_unit_zero (S := S1024x1) hz2]
    simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]
  · rw [View.read_writes_eq_canon scSum.view _ _ (coverLast1 c i arg2 harg2 arg3 harg3 arg4 harg4 arg5 harg5 arg6 harg6 arg7 harg7 arg8 harg8 arg9 harg9 arg10 harg10 hc0 hc1 x0 x1 x2 x3 xs0 xs1 xs2 xs3)]
    unfold runLast
    dsimp only
    sl_unfold_words
    simp only [View.canon_unit_zero (S := S1024x1) hz2]
    simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]
  · rw [View.read_writes_eq_canon scSim.view _ _ (coverLast2 c i arg2 harg2 arg3 harg3 arg4 harg4 arg5 harg5 arg6 harg6 arg7 harg7 arg8 harg8 arg9 harg9 arg10 harg10 hc0 hc1 x0 x1 x2 x3 xs0 xs1 xs2 xs3)]
    unfold runLast
    dsimp only
    sl_unfold_words
    simp only [View.canon_unit_zero (S := S1024x1) hz2]
    simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]
  · rw [View.read_writes_eq_canon scCnt.view _ _ (coverLast3 c i arg2 harg2 arg3 harg3 arg4 harg4 arg5 harg5 arg6 harg6 arg7 harg7 arg8 harg8 arg9 harg9 arg10 harg10 hc0 hc1 x0 x1 x2 x3 xs0 xs1 xs2 xs3)]
    unfold runLast
    dsimp only
    sl_unfold_words
    simp only [View.canon_unit_zero (S := S1024x1) hz2]
    simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]

/-- and the output block is the loss formed from the fresh accumulators (the count is read twice). -/
theorem outLast_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬condFirst i) (hc1 : condLast i)
    (x0 x1 : Vec F S1024x128 .f32) (x2 : Vec F S1024x1 .i32) (x3 : Vec F S1x1024 .i32) (xs0 xs1 xs2 xs3 : Vec F S1024x1 .f32) :
    outLast c i arg2 harg2 arg3 harg3 arg4 harg4 arg5 harg5 arg6 harg6 arg7 harg7 arg8 harg8 arg9 harg9 arg10 harg10 hc0 hc1 x0 x1 x2 x3 xs0 xs1 xs2 xs3
      = k0_pay6 (stepAcc i x0 x1 x2 x3 xs0 xs1 xs2 xs3).1 (stepAcc i x0 x1 x2 x3 xs0 xs1 xs2 xs3).2.1 (stepAcc i x0 x1 x2 x3 xs0 xs1 xs2 xs3).2.2.1
          (stepAcc i x0 x1 x2 x3 xs0 xs1 xs2 xs3).2.2.2 (stepAcc i x0 x1 x2 x3 xs0 xs1 xs2 xs3).2.2.2 := by
  unfold outLast readBack stepAcc
  rw [View.read_writes_eq_canon viewOut _ _ (coverOut c i arg2 harg2 arg3 harg3 arg4 harg4 arg5 harg5 arg6 harg6 arg7 harg7 arg8 harg8 arg9 harg9 arg10 harg10 hc0 hc1 x0 x1 x2 x3 xs0 xs1 xs2 xs3)]
  unfold runLast
  dsimp only
  sl_unfold_words
  simp only [View.canon_unit_zero (S := S1024x1) hz2, View.readCov_unit_zero (S := S1024x1) _ hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S1x1024) hz2]

end Cert.KernelIdeal.Hand

end
-- ==== Proof.KernelIdeal.Blocks.lean ====
/-
  Where a window's block sits in its array. Point t = 8·i + j of the grid stages, of the scaled features, the row
  block i (rows 1024·i … 1024·i + 1023) through the first window and the column block j through the second; of the
  labels laid out as a column, block i; of the labels laid out as a row, block j; and it writes the loss column's
  block i. Reading a block at a position inside it is reading the array at that block's offset plus the position.
-/
import proofs.«101596_j86105504350689_1_alg».proof.Proof.KernelIdeal.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The grid's two coordinates at point t: the row block t / 8 and the column block t % 8. -/
theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

theorem idxf0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idxf1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idxf2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idxf3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idxf4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- A position below 8192, as an index of the long axis (positions at or beyond it never occur). -/
def pos (n : ℕ) : Fin 8192 := ⟨n % 8192, Nat.mod_lt _ (by decide)⟩

theorem pos_val {n : ℕ} (h : n < 8192) : (pos n).val = n := Nat.mod_eq_of_lt h

theorem tlt (t : Fin cfg0.N) : t.val < 64 := lt_of_lt_of_eq t.isLt (show cfg0.N = 64 from N_0)

/-- The row block of the scaled features at a position: row 1024·(t/8) + q of the array. -/
theorem blk0_apply (c : Dev nD) (t : Fin cfg0.N) (q : Fin 1024) (d : Fin 128) :
    iblk m c 0 t (ix2 q d) = V m c main_v5 (ix2 (pos (1024 * (t.val / 8) + q.val)) d) := by
  have ht := tlt t
  unfold iblk
  rw [View.read_apply]
  show V m c main_v5 (((cfg0.win 0).blk t).view.emb (ix2 q d)) = _
  refine congrArg (V m c main_v5) (funext fun a => Fin.ext ?_)
  match a with
  | ⟨0, _⟩ =>
    show win0_0.index t 0 * 1024 + 1 * q.val = (pos (1024 * (t.val / 8) + q.val)).val
    rw [(idxf0 t).1, pos_val (by omega)]; omega
  | ⟨1, _⟩ =>
    show win0_0.index t 1 * 128 + 1 * d.val = d.val
    rw [(idxf0 t).2]; omega

/-- The column block of the scaled features at a position: row 1024·(t%8) + p of the array. -/
theorem blk1_apply (c : Dev nD) (t : Fin cfg0.N) (p : Fin 1024) (d : Fin 128) :
    iblk m c 1 t (ix2 p d) = V m c main_v5 (ix2 (pos (1024 * (t.val % 8) + p.val)) d) := by
  have ht := tlt t
  unfold iblk
  rw [View.read_apply]
  show V m c main_v5 (((cfg0.win 1).blk t).view.emb (ix2 p d)) = _
  refine congrArg (V m c main_v5) (funext fun a => Fin.ext ?_)
  match a with
  | ⟨0, _⟩ =>
    show win0_1.index t 0 * 1024 + 1 * p.val = (pos (1024 * (t.val % 8) + p.val)).val
    rw [(idxf1 t).1, pos_val (by omega)]; omega
  | ⟨1, _⟩ =>
    show win0_1.index t 1 * 128 + 1 * d.val = d.val
    rw [(idxf1 t).2]; omega

/-- The labels' column block at a position. -/
theorem blk2_apply (c : Dev nD) (t : Fin cfg0.N) (q : Fin 1024) :
    iblk m c 2 t (ix2 q (0 : Fin 1)) = V m c main_v6 (ix2 (pos (1024 * (t.val / 8) + q.val)) (0 : Fin 1)) := by
  have ht := tlt t
  unfold iblk
  rw [View.read_apply]
  show V m c main_v6 (((cfg0.win 2).blk t).view.emb (ix2 q (0 : Fin 1))) = _
  refine congrArg (V m c main_v6) (funext fun a => Fin.ext ?_)
  match a with
  | ⟨0, _⟩ =>
    show win0_2.index t 0 * 1024 + 1 * q.val = (pos (1024 * (t.val / 8) + q.val)).val
    rw [(idxf2 t).1, pos_val (by omega)]; omega
  | ⟨1, _⟩ =>
    show win0_2.index t 1 * 1 + 1 * (0 : Fin 1).val = (0 : Fin 1).val
    rw [(idxf2 t).2]; rfl

/-- The labels' row block at a position. -/
theorem blk3_apply (c : Dev nD) (t : Fin cfg0.N) (p : Fin 1024) :
    iblk m c 3 t (ix2 (0 : Fin 1) p) = V m c main_v7 (ix2 (0 : Fin 1) (pos (1024 * (t.val % 8) + p.val))) := by
  have ht := tlt t
  unfold iblk
  rw [View.read_apply]
  show V m c main_v7 (((cfg0.win 3).blk t).view.emb (ix2 (0 : Fin 1) p)) = _
  refine congrArg (V m c main_v7) (funext fun a => Fin.ext ?_)
  match a with
  | ⟨0, _⟩ =>
    show win0_3.index t 0 * 1 + 1 * (0 : Fin 1).val = (0 : Fin 1).val
    rw [(idxf3 t).1]; rfl
  | ⟨1, _⟩ =>
    show win0_3.index t 1 * 1024 + 1 * p.val = (pos (1024 * (t.val % 8) + p.val)).val
    rw [(idxf3 t).2, pos_val (by omega)]; omega

end Cert.KernelIdeal.Hand

end
-- ==== Proof.RowSpec.lean ====
/-
  One row of the supervised-contrastive loss, written twice.

  A row has similarities a(k) to every column k, its own column r, and a mark lab(k) on the columns that carry the
  row's label (lab(r) holds). Away from the diagonal let w(k) = 1 − [k = r].

  The direct form (the reference): with Mx = max_k a(k), Z = max(ε, Σ_k exp(a(k) − Mx) · w(k)),
      loss = −( Σ_k (a(k) − Mx − log Z) · w(k) · [lab k]  /  Σ_k [lab k] ).

  The tiled form (the kernel): the columns come in T blocks of width W; four accumulators are folded over the
  blocks — the running maximum M, the sum L of off-diagonal exponentials relative to the running maximum
  (rescaled by exp(M_old − M_new) whenever the maximum moves), the sum U of the matched off-diagonal
  similarities and their count C — and the last block writes
      loss = 0 − (U − C · (M + log (max L ε))) / (C + 1).
  The two agree for real similarities: Σ_k [lab k] = C + 1 because the diagonal is matched.
  This module only fixes the two expressions; it proves nothing.
-/
import Idealize.ShloMosaic.PureOps.Ideal

noncomputable section

namespace Cert.RowSpec

open Idealize.ShloMosaic

/-- The four row accumulators: running maximum, rescaled exponential sum, matched similarity sum, match count. -/
abbrev Acc := EReal × EReal × EReal × EReal

/-- One column block folded in: x the block's similarities, d the off-diagonal mask, e the matched off-diagonal mask. -/
def step {W : ℕ} (x : Fin W → EReal) (d e : Fin W → Bool) (s : Acc) : Acc :=
  let M' := max s.1 ((Finset.univ : Finset (Fin W)).fold max ⊥ x)
  (M',
   s.2.1 * Ideal.exp (s.1 - M') + ∑ j, (if d j then Ideal.exp (x j - M') else 0),
   s.2.2.1 + ∑ j, (if e j then x j else 0),
   s.2.2.2 + ∑ j, (if e j then (1 : EReal) else 0))

/-- The accumulators after the first k blocks, from the reset values (−∞, 0, 0, 0). -/
def state {W : ℕ} (x : ℕ → Fin W → EReal) (d e : ℕ → Fin W → Bool) : ℕ → Acc
  | 0 => (⊥, 0, 0, 0)
  | k + 1 => step (x k) (d k) (e k) (state x d e k)

/-- The loss the last block writes from the accumulators. -/
def lossTiled (ε : EReal) (s : Acc) : EReal :=
  0 - Ideal.div (s.2.2.1 - s.2.2.2 * (s.1 + Ideal.log (max s.2.1 ε))) (s.2.2.2 + 1)

/-- The reference's loss of the row, from all its similarities at once. -/
def lossDirect {N : ℕ} (ε : EReal) (a : Fin N → EReal) (r : Fin N) (lab : Fin N → Bool) : EReal :=
  let Mx := (Finset.univ : Finset (Fin N)).fold max ⊥ a
  let w : Fin N → EReal := fun k => 1 - (if k = r then 1 else 0)
  let Z := max ε (0 + ∑ k, Ideal.exp (a k - Mx) * w k)
  let lm : Fin N → EReal := fun k => if lab k then 1 else 0
  (-(Ideal.div (0 + ∑ k, ((a k - Mx) - Ideal.log Z) * w k * lm k) (0 + ∑ k, lm k))) * 1

end Cert.RowSpec

end
-- ==== Proof.LibPlainDot.lean ====
/-
  A plain matrix product's contraction, read as a sum over the shared axis.

  For an `M × K` by `K × N` product with no batch axis the contraction index has one coordinate `k : Fin K`; at output
  entry `(r, c)` the left operand is read at `(r, k)` and the right at `(k, c)`.
-/
import Idealize.ShloMosaic.PureOps.Ideal.Laws
import Idealize.ShloMosaic.Lib.ValueIdx

noncomputable section

namespace Mpnn

open Idealize.ShloMosaic Idealize.ShloMosaic.ValueIdx

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product as a sum over `Fin K`. -/
theorem plain_sum (M K N : ℕ) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact plain_rhs1 M K N _ _)
  exact congrArg₂ (fun x y : EReal => x * y) (congrArg l el) (congrArg r er)

/-- A kernel's matrix product into a zero accumulator, at `Ideal`, entry by entry. -/
theorem matmul_plain (M K N : ℕ) {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_sum M K N l r j)

/-- The host's `dot_general` of the same layout, at `Ideal`, entry by entry. -/
theorem dotGeneral_plain (M K N : ℕ) {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_sum M K N l r j)

end Mpnn

end
-- ==== Proof.KernelIdeal.Payloads.lean ====
/-
  The kernel body's arithmetic, read at one row of a block.

  One grid point works on a block of 1024 rows against a block of 1024 columns.  Its payloads are the pure terms the body
  stores: the four row accumulators after the block (running maximum, rescaled exponential sum, matched similarity sum,
  match count), the loss the last block writes from them, and the reset values the first block starts from.  Read at
  row q, each is the corresponding expression of the row specification: the similarities of row q are the inner products
  of its feature vector with the 1024 column feature vectors; the off-diagonal mask compares the global row number with
  the global column number; the matched mask also compares the two labels.
-/
import proofs.«101596_j86105504350689_1_alg».proof.Proof.Gen.KernelIdeal.Skeleton
import proofs.«101596_j86105504350689_1_alg».proof.Proof.RowSpec
import proofs.«101596_j86105504350689_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx

/-- The pattern of −∞ denotes the bottom element. -/
theorem ofBits_neg_inf : Ideal.ofBits .f32 0xFF800000#32 = (⊥ : EReal) := by
  simp [Ideal.ofBits, Ideal.ieee]

/-! ### Layout operations at the block's literal shapes -/

section Layout
variable {α : Type}

/-- A length-1024 vector viewed as a column reads, at row q, its q-th element. -/
theorem keepdims_apply (v : S1024.Idx → α) (h : S1024.ShapeCasts S1024x1) (q : Fin 1024) :
    shapeCast S1024x1 v h (ix2 q (0 : Fin 1)) = v (ix1 q) :=
  shapeCast_apply v h _ _ (by
    rw [Shape.rowMajor_val_one, Shape.rowMajor_val_two]
    show q.val = q.val * 1 + 0
    omega)

/-- A column broadcast along the rows' entries reads, at (q, p), the column's element at row q. -/
theorem bcast_col_apply (v : S1024x1.Idx → α) (h : S1024x1.Broadcasts S1024x1024) (q p : Fin 1024) :
    broadcastTo S1024x1024 v h (ix2 q p) = v (ix2 q (0 : Fin 1)) := by
  refine broadcastTo_apply v h (ix2 q p) (ix2 q (0 : Fin 1)) fun ax => ?_
  match ax with
  | ⟨0, _⟩ => rfl
  | ⟨1, _⟩ => rfl

/-- A row broadcast down the columns reads, at (q, p), the row's element at column p. -/
theorem bcast_row_apply (v : S1x1024.Idx → α) (h : S1x1024.Broadcasts S1024x1024) (q p : Fin 1024) :
    broadcastTo S1024x1024 v h (ix2 q p) = v (ix2 (0 : Fin 1) p) :=
  broadcastTo_1b_ab_apply v h q p

/-- The index of the reduced matrix over row q with column p inserted is (q, p). -/
theorem lift_row (h : S1024x1024.Reduces [1] S1024) (q p : Fin 1024) : h.lift (ix1 q) p = ix2 q p := by
  funext c
  apply Fin.ext
  match c with
  | ⟨0, _⟩ => rfl
  | ⟨1, _⟩ => rfl

end Layout

/-! ### The similarities -/

/-- The block's similarity matrix at (q, p) is the inner product of row q's features with column p's features. -/
theorem pay11_apply (x0 x1 : Vec Ideal S1024x128 .f32) (q p : Fin 1024) :
    k0_pay11 x0 x1 (ix2 q p) = ∑ d : Fin 128, x0 (ix2 q d) * x1 (ix2 p d) := by
  unfold k0_pay11
  rw [shapeCast_self, shapeCast_self]
  refine (Mpnn.matmul_plain 1024 128 1024 none x0
    (transpose S128x1024 [1, 0] x1 transposes_S1024x128_p1_0_S128x1024) (ix2 q p)).trans ?_
  refine Finset.sum_congr rfl fun d _ => ?_
  exact congrArg (fun y : EReal => x0 (ix2 q d) * y) (transpose_ix2_apply x1 _ d p)

/-- The running maximum after the block, at row q: the larger of the old one and the block's row maximum. -/
theorem pay13_apply (x0 x1 : Vec Ideal S1024x128 .f32) (aM : Vec Ideal S1024x1 .f32) (q : Fin 1024) :
    k0_pay13 x0 x1 aM (ix2 q 0)
      = max (aM (ix2 q 0)) ((Finset.univ : Finset (Fin 1024)).fold max ⊥
          (fun p : Fin 1024 => ∑ d : Fin 128, x0 (ix2 q d) * x1 (ix2 p d))) := by
  unfold k0_pay13
  rw [maximumf_apply, keepdims_apply]
  refine congrArg (max (aM (ix2 q 0))) ?_
  refine (Ideal.multiReduction_maximumf_single (k0_pay11 x0 x1) 0xFF800000#32 reduces_S1024x1024_S1024 (.inl rfl) rfl
    (ix1 q)).trans ?_
  have hf : (k0_pay11 x0 x1 ∘ reduces_S1024x1024_S1024.lift (ix1 q))
      = fun p : Fin 1024 => ∑ d : Fin 128, x0 (ix2 q d) * x1 (ix2 p d) :=
    funext fun p : Fin 1024 =>
      (congrArg (k0_pay11 x0 x1) (lift_row reduces_S1024x1024_S1024 q p)).trans (pay11_apply x0 x1 q p)
  rw [hf]
  show Finset.fold max (Ideal.ofBits .f32 0xFF800000#32) _ _ = _
  rw [ofBits_neg_inf]
  rfl

/-! ### The two masks -/

/-- Two 32-bit words of numbers below 2³² are equal exactly when the numbers are. -/
theorem ofNat32_eq_iff {m n : ℕ} (hm : m < 4294967296) (hn : n < 4294967296) :
    BitVec.ofNat 32 m = BitVec.ofNat 32 n ↔ m = n := by
  constructor
  · intro h
    have h' := congrArg BitVec.toNat h
    simp only [BitVec.toNat_ofNat] at h'
    omega
  · rintro rfl
    rfl

/-- The 32-bit comparison "block offset + position differs" of a row number and a column number does not wrap: it is
    set exactly when the two global numbers differ. -/
theorem cmp_ne_word_iff (a b q p : ℕ) (ha : a < 8) (hb : b < 8) (hq : q < 1024) (hp : p < 1024) :
    IntOp.cmpi .ne (IntOp.addi (Scalar.muli (BitVec.ofNat 32 a) 1024#32) (BitVec.ofNat 32 q))
        (IntOp.addi (Scalar.muli (BitVec.ofNat 32 b) 1024#32) (BitVec.ofNat 32 p)) = 1#1
      ↔ a * 1024 + q ≠ b * 1024 + p := by
  have e1 : IntOp.addi (Scalar.muli (BitVec.ofNat 32 a) 1024#32) (BitVec.ofNat 32 q) = BitVec.ofNat 32 (a * 1024 + q) := by
    show BitVec.ofNat 32 a * BitVec.ofNat 32 1024 + BitVec.ofNat 32 q = _
    rw [BitVec.ofNat_add, BitVec.ofNat_mul]
  have e2 : IntOp.addi (Scalar.muli (BitVec.ofNat 32 b) 1024#32) (BitVec.ofNat 32 p) = BitVec.ofNat 32 (b * 1024 + p) := by
    show BitVec.ofNat 32 b * BitVec.ofNat 32 1024 + BitVec.ofNat 32 p = _
    rw [BitVec.ofNat_add, BitVec.ofNat_mul]
  rw [e1, e2]
  show BitVec.ofBool (BitVec.ofNat 32 (a * 1024 + q) != BitVec.ofNat 32 (b * 1024 + p)) = 1#1 ↔ _
  rw [← not_iff_not, not_ne_iff, ← ofNat32_eq_iff (by omega) (by omega)]
  by_cases h : BitVec.ofNat 32 (a * 1024 + q) = BitVec.ofNat 32 (b * 1024 + p)
  · simp [h]
  · have hb : (BitVec.ofNat 32 (a * 1024 + q) != BitVec.ofNat 32 (b * 1024 + p)) = true := bne_iff_ne.mpr h
    rw [hb]
    exact ⟨fun h' => absurd rfl h', fun h' => absurd h' h⟩

/-- The block's off-diagonal mask at (q, p) is set exactly when the global row number differs from the global column
    number. -/
theorem pay12_apply (i : grid0.Coords) (q p : Fin 1024) :
    k0_pay12 i (ix2 q p) = 1#1 ↔ (i 0).val * 1024 + q.val ≠ (i 1).val * 1024 + p.val := by
  have h0 : (i 0).val < 8 := (i 0).isLt
  have h1 : (i 1).val < 8 := (i 1).isLt
  unfold k0_pay12
  show IntOp.cmpi .ne
      (IntOp.addi (Scalar.muli (BitVec.ofNat 32 (i 0).val) 1024#32)
        (iota .tc S1024x1024 32 [0] iota_S1024x1024_d0_w32 (ix2 q p)))
      (IntOp.addi (Scalar.muli (BitVec.ofNat 32 (i 1).val) 1024#32)
        (iota .tc S1024x1024 32 [1] iota_S1024x1024_d1_w32 (ix2 q p))) = 1#1 ↔ _
  rw [iota_single_apply, iota_single_apply]
  exact cmp_ne_word_iff (i 0).val (i 1).val q.val p.val h0 h1 q.isLt p.isLt

/-- A conjunction of an equality test of two words with a condition bit is set exactly when both hold. -/
theorem and_eq_word_iff (x y : BitVec 32) (c : BitVec 1) :
    IntOp.andi (IntOp.cmpi .eq x y) c = 1#1 ↔ (x = y ∧ c = 1#1) := by
  show BitVec.ofBool (x == y) &&& c = 1#1 ↔ _
  by_cases h : x = y
  · subst h
    rcases BitVec.eq_zero_or_eq_one c with hc | hc <;> subst hc <;> simp
  · have hb : (x == y) = false := beq_eq_false_iff_ne.mpr h
    rw [hb]
    rcases BitVec.eq_zero_or_eq_one c with hc | hc <;> subst hc <;> simp [h]

/-- The matched mask at (q, p) is set exactly when the row's label equals the column's label and the given mask is
    set there. -/
theorem pay3_apply (v17 : IVec S1024x1024 1) (l0 : Vec Ideal S1024x1 .i32) (l1 : Vec Ideal S1x1024 .i32)
    (q p : Fin 1024) :
    k0_pay3 (F := Ideal) v17 l0 l1 (ix2 q p) = 1#1
      ↔ (l0 (ix2 q (0 : Fin 1)) = l1 (ix2 (0 : Fin 1) p) ∧ v17 (ix2 q p) = 1#1) := by
  unfold k0_pay3
  rw [shapeCast_self, shapeCast_self]
  show IntOp.andi (IntOp.cmpi .eq (broadcastTo S1024x1024 l0 broadcasts_S1024x1_S1024x1024 (ix2 q p))
      (broadcastTo S1024x1024 l1 broadcasts_S1x1024_S1024x1024 (ix2 q p))) (v17 (ix2 q p)) = 1#1 ↔ _
  rw [bcast_col_apply, bcast_row_apply]
  exact and_eq_word_iff _ _ _

/-- The matched off-diagonal mask at (q, p), as a Boolean expression in the labels and the global numbers. -/
theorem matched_iff (i : grid0.Coords) (l0 : Vec Ideal S1024x1 .i32) (l1 : Vec Ideal S1x1024 .i32) (q p : Fin 1024) :
    k0_pay3 (F := Ideal) (k0_pay12 i) l0 l1 (ix2 q p) = 1#1
      ↔ (decide (l0 (ix2 q (0 : Fin 1)) = l1 (ix2 (0 : Fin 1) p))
          && decide ((i 0).val * 1024 + q.val ≠ (i 1).val * 1024 + p.val)) = true := by
  rw [pay3_apply, pay12_apply, Bool.and_eq_true, decide_eq_true_eq, decide_eq_true_eq]

/-- A select on a condition bit that is set exactly when P holds is the conditional on P. -/
theorem select_ite {α : Type} (c : BitVec 1) (P : Prop) [Decidable P] (h : c = 1#1 ↔ P) (a b : α) :
    Scalar.select c a b = if P then a else b := by
  by_cases hp : P
  · rw [h.mpr hp, select_one, if_pos hp]
  · rw [eq_zero_of_ne_one (fun hc => hp (h.mp hc)), select_zero, if_neg hp]

/-- A condition bit widened to a word and converted to a float is 1 when set and 0 otherwise. -/
theorem bit_to_float (c : BitVec 1) (P : Prop) [Decidable P] (h : c = 1#1 ↔ P) :
    FloatOps.sitofp (F := Ideal) .f32 (c.setWidth 32) = if P then (1 : EReal) else 0 := by
  by_cases hp : P
  · rw [h.mpr hp, if_pos hp]
    show ((((1#1 : BitVec 1).setWidth 32).toInt : ℝ) : EReal) = 1
    have e : ((1#1 : BitVec 1).setWidth 32).toInt = 1 := by decide
    rw [e]
    simp
  · rw [eq_zero_of_ne_one (fun hc => hp (h.mp hc)), if_neg hp]
    show ((((0#1 : BitVec 1).setWidth 32).toInt : ℝ) : EReal) = 0
    have e : ((0#1 : BitVec 1).setWidth 32).toInt = 0 := by decide
    rw [e]
    simp

/-! ### The four accumulators after the block -/

/-- The matched similarity sum after the block, at row q: the old sum plus the block's matched off-diagonal
    similarities. -/
theorem pay4_apply (i : grid0.Coords) (x0 x1 : Vec Ideal S1024x128 .f32) (l0 : Vec Ideal S1024x1 .i32)
    (l1 : Vec Ideal S1x1024 .i32) (aU : Vec Ideal S1024x1 .f32) (q : Fin 1024) :
    k0_pay4 (k0_pay11 x0 x1) (k0_pay12 i) l0 l1 aU (ix2 q 0)
      = aU (ix2 q 0) + ∑ p : Fin 1024,
          (if (decide (l0 (ix2 q (0 : Fin 1)) = l1 (ix2 (0 : Fin 1) p))
                && decide ((i 0).val * 1024 + q.val ≠ (i 1).val * 1024 + p.val)) = true
            then ∑ d : Fin 128, x0 (ix2 q d) * x1 (ix2 p d) else 0) := by
  unfold k0_pay4
  rw [shapeCast_self, addf_apply, keepdims_apply]
  refine congrArg (fun y : EReal => aU (ix2 q 0) + y) ?_
  refine (Ideal.multiReduction_add_single _ 0x00000000#32 reduces_S1024x1024_S1024 (.inl rfl) rfl (ix1 q)).trans ?_
  refine Finset.sum_congr rfl fun (p : Fin 1024) _ => ?_
  refine (congrArg _ (lift_row reduces_S1024x1024_S1024 q p)).trans ?_
  show Scalar.select (k0_pay3 (F := Ideal) (k0_pay12 i) l0 l1 (ix2 q p)) (k0_pay11 x0 x1 (ix2 q p))
      (Ideal.ofBits .f32 0x00000000#32) = _
  rw [select_ite _ _ (matched_iff i l0 l1 q p), pay11_apply, Ideal.ofBits_zero_f32]

/-- The match count after the block, at row q: the old count plus the number of the block's matched off-diagonal
    columns. -/
theorem pay5_apply (i : grid0.Coords) (l0 : Vec Ideal S1024x1 .i32) (l1 : Vec Ideal S1x1024 .i32)
    (aC : Vec Ideal S1024x1 .f32) (q : Fin 1024) :
    k0_pay5 (k0_pay12 i) l0 l1 aC (ix2 q 0)
      = aC (ix2 q 0) + ∑ p : Fin 1024,
          (if (decide (l0 (ix2 q (0 : Fin 1)) = l1 (ix2 (0 : Fin 1) p))
                && decide ((i 0).val * 1024 + q.val ≠ (i 1).val * 1024 + p.val)) = true
            then (1 : EReal) else 0) := by
  unfold k0_pay5
  rw [shapeCast_self, addf_apply, keepdims_apply]
  refine congrArg (fun y : EReal => aC (ix2 q 0) + y) ?_
  refine (Ideal.multiReduction_add_single _ 0x00000000#32 reduces_S1024x1024_S1024 (.inl rfl) rfl (ix1 q)).trans ?_
  refine Finset.sum_congr rfl fun (p : Fin 1024) _ => ?_
  refine (congrArg _ (lift_row reduces_S1024x1024_S1024 q p)).trans ?_
  show FloatOps.sitofp (F := Ideal) .f32 ((k0_pay3 (F := Ideal) (k0_pay12 i) l0 l1 (ix2 q p)).setWidth 32) = _
  exact bit_to_float _ _ (matched_iff i l0 l1 q p)

/-- The rescaled exponential sum after the block, at row q: the old sum rescaled to the new maximum plus the block's
    off-diagonal exponentials relative to the new maximum. -/
theorem pay14_apply (i : grid0.Coords) (x0 x1 : Vec Ideal S1024x128 .f32) (aM aL : Vec Ideal S1024x1 .f32)
    (q : Fin 1024) :
    k0_pay14 i x0 x1 aM aM aL (ix2 q 0)
      = aL (ix2 q 0) * Ideal.exp (aM (ix2 q 0) - k0_pay13 x0 x1 aM (ix2 q 0))
        + ∑ p : Fin 1024,
          (if decide ((i 0).val * 1024 + q.val ≠ (i 1).val * 1024 + p.val) = true
            then Ideal.exp ((∑ d : Fin 128, x0 (ix2 q d) * x1 (ix2 p d)) - k0_pay13 x0 x1 aM (ix2 q 0)) else 0) := by
  unfold k0_pay14
  rw [addf_apply, mulf_apply, keepdims_apply]
  refine congrArg₂ (fun y z : EReal => y + z) rfl ?_
  refine (Ideal.multiReduction_add_single _ 0x00000000#32 reduces_S1024x1024_S1024 (.inl rfl) rfl (ix1 q)).trans ?_
  refine Finset.sum_congr rfl fun (p : Fin 1024) _ => ?_
  refine (congrArg _ (lift_row reduces_S1024x1024_S1024 q p)).trans ?_
  show Scalar.select (k0_pay12 i (ix2 q p))
      (Ideal.exp (k0_pay11 x0 x1 (ix2 q p)
        - broadcastTo S1024x1024 (k0_pay13 x0 x1 aM) broadcasts_S1024x1_S1024x1024 (ix2 q p)))
      (Ideal.ofBits .f32 0x00000000#32) = _
  rw [select_ite _ _ ((pay12_apply i q p).trans decide_eq_true_iff.symm), pay11_apply, bcast_col_apply,
    Ideal.ofBits_zero_f32]

/-- One block folded into a row's four accumulators: the values the body stores at row q are one step of the row
    specification, over the block's similarities of row q, the off-diagonal mask and the matched off-diagonal mask. -/
theorem tile_step (i : grid0.Coords) (x0 x1 : Vec Ideal S1024x128 .f32) (l0 : Vec Ideal S1024x1 .i32)
    (l1 : Vec Ideal S1x1024 .i32) (aM aL aU aC : Vec Ideal S1024x1 .f32) (q : Fin 1024) :
    (k0_pay2 (k0_pay13 x0 x1 aM) (ix2 q 0), k0_pay1 (k0_pay14 i x0 x1 aM aM aL) (ix2 q 0),
      k0_pay4 (k0_pay11 x0 x1) (k0_pay12 i) l0 l1 aU (ix2 q 0), k0_pay5 (k0_pay12 i) l0 l1 aC (ix2 q 0))
      = Cert.RowSpec.step (fun p : Fin 1024 => ∑ d : Fin 128, x0 (ix2 q d) * x1 (ix2 p d))
          (fun p => decide ((i 0).val * 1024 + q.val ≠ (i 1).val * 1024 + p.val))
          (fun p => decide (l0 (ix2 q 0) = l1 (ix2 0 p))
            && decide ((i 0).val * 1024 + q.val ≠ (i 1).val * 1024 + p.val))
          (aM (ix2 q 0), aL (ix2 q 0), aU (ix2 q 0), aC (ix2 q 0)) := by
  have h2 : k0_pay2 (k0_pay13 x0 x1 aM) = k0_pay13 x0 x1 aM := by
    unfold k0_pay2
    exact shapeCast_self _ _
  have h1 : k0_pay1 (k0_pay14 i x0 x1 aM aM aL) = k0_pay14 i x0 x1 aM aM aL := by
    unfold k0_pay1
    exact shapeCast_self _ _
  rw [h2, h1, pay14_apply, pay4_apply, pay5_apply, pay13_apply]
  rfl

/-! ### The loss and the reset values -/

/-- The reset values of the four accumulators at a row: −∞, 0, 0, 0. -/
theorem reset_payloads (q : Fin 1024) :
    (k0_pay7 (F := Ideal) (ix2 q 0), k0_pay8 (F := Ideal) (ix2 q 0), k0_pay9 (F := Ideal) (ix2 q 0),
      k0_pay10 (F := Ideal) (ix2 q 0)) = ((⊥ : EReal), (0 : EReal), (0 : EReal), (0 : EReal)) := by
  unfold k0_pay7 k0_pay8 k0_pay9 k0_pay10
  simp only [shapeCast_self, broadcast_apply]
  show (Ideal.ofBits .f32 0xFF800000#32, Ideal.ofBits .f32 0x00000000#32, Ideal.ofBits .f32 0x00000000#32,
    Ideal.ofBits .f32 0x00000000#32) = _
  rw [ofBits_neg_inf, Ideal.ofBits_zero_f32]

/-- The loss the last block writes, at a row, is the tiled loss of the row's four accumulators. -/
theorem loss_payload (vM vL vU vC : Vec Ideal S1024x1 .f32) (q : Fin 1024) :
    k0_pay6 vM vL vU vC vC (ix2 q 0)
      = Cert.RowSpec.lossTiled (Ideal.ofBits .f32 0x3727C5AC#32)
          (vM (ix2 q 0), vL (ix2 q 0), vU (ix2 q 0), vC (ix2 q 0)) := by
  unfold k0_pay6 Cert.RowSpec.lossTiled
  show Ideal.ofBits .f32 0x00000000#32
      - Ideal.div (vU (ix2 q 0) - vC (ix2 q 0) * (vM (ix2 q 0)
          + Ideal.log (max (vL (ix2 q 0)) (Ideal.ofBits .f32 0x3727C5AC#32))))
        (vC (ix2 q 0) + Ideal.ofBits .f32 0x3F800000#32) = _
  rw [Ideal.ofBits_zero_f32, Ideal.ofBits_one_f32]

end Cert.KernelIdeal.Pay

end
-- ==== Proof.KernelIdeal.RowState.lean ====
/-
  The row recurrence, point by point. Fix a row r = 1024·i + q of the similarity matrix. The body at point
  t = 8·i + j folds column block j into the row's four accumulators: this is one step of the tiled recurrence of
  the row's loss with the tile's similarities x(j, p) = ⟨g_r, g_(1024 j + p)⟩ (g the scaled features), the
  off-diagonal mask r ≠ 1024 j + p and the matched off-diagonal mask. So after point 8·i + j the accumulators at
  row q hold the recurrence's state after j + 1 tiles — by induction on the point, the first column block starting
  from the reset values — and the block the last column block writes back is the tiled loss after all 8 tiles.
  The loss column therefore ends, row by row, at the tiled loss of that row.
-/
import proofs.«101596_j86105504350689_1_alg».proof.Proof.KernelIdeal.CaseValues
import proofs.«101596_j86105504350689_1_alg».proof.Proof.KernelIdeal.Blocks
import proofs.«101596_j86105504350689_1_alg».proof.Proof.KernelIdeal.Payloads
import proofs.«101596_j86105504350689_1_alg».proof.Proof.RowSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.RowSpec

variable (m : (ℓ : Loc nD τ sig) → Buf (Elt Ideal) ℓ) (c : Dev nD)

/-- The scaled features and the two label layouts as the region finds them. -/
abbrev gF : S8192x128.Idx → EReal := V m c main_v5
abbrev labC : S8192x1.Idx → BitVec 32 := V m c main_v6
abbrev labR : S1x8192.Idx → BitVec 32 := V m c main_v7

/-- The similarity of rows r and k as the kernel's matrix product forms it. -/
def simK (r k : Fin 8192) : EReal := ∑ d : Fin 128, gF m c (ix2 r d) * gF m c (ix2 k d)

/-- Row r's tile j: the similarities, the off-diagonal mask, the matched off-diagonal mask. -/
def xT (r : Fin 8192) (j : ℕ) (p : Fin 1024) : EReal := simK m c r (pos (1024 * j + p.val))
def dT (r : Fin 8192) (j : ℕ) (p : Fin 1024) : Bool := decide (r.val ≠ 1024 * j + p.val)
def eT (r : Fin 8192) (j : ℕ) (p : Fin 1024) : Bool :=
  decide (labC m c (ix2 r (0 : Fin 1)) = labR m c (ix2 (0 : Fin 1) (pos (1024 * j + p.val)))) && decide (r.val ≠ 1024 * j + p.val)

/-- The four accumulators at one row of the block. -/
abbrev accAt (A : Acc4 (F := Ideal)) (q : Fin 1024) : Acc :=
  (A.1 (ix2 q (0 : Fin 1)), A.2.1 (ix2 q (0 : Fin 1)), A.2.2.1 (ix2 q (0 : Fin 1)), A.2.2.2 (ix2 q (0 : Fin 1)))

/-- The body at point t is one step of row 1024·(t/8) + q's recurrence, on tile t % 8. -/
theorem step_at (t : Fin cfg0.N) (q : Fin 1024) (aM aL aU aC : Vec Ideal S1024x1 .f32) :
    accAt (stepAcc (grid0.coords t) (iblk m c 0 t) (iblk m c 1 t) (iblk m c 2 t) (iblk m c 3 t) aM aL aU aC) q
      = step (xT m c (pos (1024 * (t.val / 8) + q.val)) (t.val % 8)) (dT (pos (1024 * (t.val / 8) + q.val)) (t.val % 8))
          (eT m c (pos (1024 * (t.val / 8) + q.val)) (t.val % 8)) (aM (ix2 q (0 : Fin 1)), aL (ix2 q (0 : Fin 1)), aU (ix2 q (0 : Fin 1)), aC (ix2 q (0 : Fin 1))) := by
  have ht := tlt t
  have hr : (pos (1024 * (t.val / 8) + q.val)).val = 1024 * (t.val / 8) + q.val := pos_val (by omega)
  have hx : (fun p : Fin 1024 => ∑ d : Fin 128, (show EReal from iblk m c 0 t (ix2 q d)) * (show EReal from iblk m c 1 t (ix2 p d)))
      = xT m c (pos (1024 * (t.val / 8) + q.val)) (t.val % 8) := funext fun p => by
    unfold xT simK
    exact Finset.sum_congr rfl fun d _ => by rw [blk0_apply, blk1_apply]
  have hd : (fun p : Fin 1024 => decide (((grid0.coords t) 0).val * 1024 + q.val ≠ ((grid0.coords t) 1).val * 1024 + p.val))
      = dT (pos (1024 * (t.val / 8) + q.val)) (t.val % 8) := funext fun p => by
    unfold dT
    rw [(coords_eq t).1, (coords_eq t).2, hr]
    exact decide_eq_decide.mpr ⟨fun h e => h (by omega), fun h e => h (by omega)⟩
  have he : (fun p : Fin 1024 => decide ((show BitVec 32 from iblk m c 2 t (ix2 q (0 : Fin 1))) = (show BitVec 32 from iblk m c 3 t (ix2 (0 : Fin 1) p)))
        && decide (((grid0.coords t) 0).val * 1024 + q.val ≠ ((grid0.coords t) 1).val * 1024 + p.val))
      = eT m c (pos (1024 * (t.val / 8) + q.val)) (t.val % 8) := funext fun p => by
    unfold eT
    rw [blk2_apply, blk3_apply, (coords_eq t).1, (coords_eq t).2, hr]
    congr 1
    exact decide_eq_decide.mpr ⟨fun h e => h (by omega), fun h e => h (by omega)⟩
  show (_, _, _, _) = _
  rw [Cert.KernelIdeal.Pay.tile_step (grid0.coords t) (iblk m c 0 t) (iblk m c 1 t) (iblk m c 2 t) (iblk m c 3 t) aM aL aU aC q, hx, hd, he]

/-- After point n the accumulators at row q of the block hold the row's recurrence after n % 8 + 1 tiles. -/
theorem acc_inv : ∀ (n : ℕ) (h : n < cfg0.N) (q : Fin 1024),
    accAt (outsAt m c n h).2 q
      = state (xT m c (pos (1024 * (n / 8) + q.val))) (dT (pos (1024 * (n / 8) + q.val))) (eT m c (pos (1024 * (n / 8) + q.val))) (n % 8 + 1)
  | 0, h, q => by
    rw [show outsAt m c 0 h = outsAt m c (⟨0, h⟩ : Fin cfg0.N).val (⟨0, h⟩ : Fin cfg0.N).isLt from rfl, outsAt_first m c ⟨0, h⟩ rfl]
    dsimp only
    rw [afterFirst_eq, step_at m c ⟨0, h⟩ q]
    rw [Cert.KernelIdeal.Pay.reset_payloads q]
    rfl
  | n + 1, h, q => by
    have hN : n + 1 < 64 := lt_of_lt_of_eq h (show cfg0.N = 64 from N_0)
    by_cases h0 : (n + 1) % 8 = 0
    · rw [show outsAt m c (n + 1) h = outsAt m c (⟨n + 1, h⟩ : Fin cfg0.N).val (⟨n + 1, h⟩ : Fin cfg0.N).isLt from rfl, outsAt_first m c ⟨n + 1, h⟩ h0]
      dsimp only
      rw [afterFirst_eq, step_at m c ⟨n + 1, h⟩ q]
      rw [Cert.KernelIdeal.Pay.reset_payloads q]
      dsimp only
      rw [h0]
      rfl
    · have ih := acc_inv n (Nat.lt_of_succ_lt h) q
      have hdiv : n / 8 = (n + 1) / 8 := by omega
      have hmod : n % 8 + 1 = (n + 1) % 8 := by omega
      rw [hdiv, hmod] at ih
      have hstep : ∀ A : Acc4 (F := Ideal), A = (outsAt m c n (Nat.lt_of_succ_lt h)).2 →
          accAt (stepAcc (grid0.coords ⟨n + 1, h⟩) (iblk m c 0 ⟨n + 1, h⟩) (iblk m c 1 ⟨n + 1, h⟩) (iblk m c 2 ⟨n + 1, h⟩) (iblk m c 3 ⟨n + 1, h⟩) A.1 A.2.1 A.2.2.1 A.2.2.2) q
            = state (xT m c (pos (1024 * ((n + 1) / 8) + q.val))) (dT (pos (1024 * ((n + 1) / 8) + q.val))) (eT m c (pos (1024 * ((n + 1) / 8) + q.val))) ((n + 1) % 8 + 1) := by
        intro A hA
        rw [step_at m c ⟨n + 1, h⟩ q]
        show step _ _ _ (accAt A q) = _
        rw [hA, ih]
        rfl
      by_cases h1 : (n + 1) % 8 = 7
      · rw [show outsAt m c (n + 1) h = outsAt m c (⟨n + 1, h⟩ : Fin cfg0.N).val (⟨n + 1, h⟩ : Fin cfg0.N).isLt from rfl, outsAt_last m c ⟨n + 1, h⟩ h0 h1]
        dsimp only
        rw [afterLast_eq]
        exact hstep _ rfl
      · rw [show outsAt m c (n + 1) h = outsAt m c (⟨n + 1, h⟩ : Fin cfg0.N).val (⟨n + 1, h⟩ : Fin cfg0.N).isLt from rfl, outsAt_mid m c ⟨n + 1, h⟩ h0 h1]
        dsimp only
        rw [afterMid_eq]
        exact hstep _ rfl

/-! ## The loss column -/

/-- The small constant under the logarithm. -/
abbrev epsK : EReal := Ideal.ofBits .f32 0x3727C5AC#32

/-- Row r's loss as the kernel forms it: the tiled loss after all 8 column blocks. -/
def lossK (r : Fin 8192) : EReal := lossTiled epsK (state (xT m c r) (dT r) (eT m c r) 8)

/-- The loss column as one function. -/
def lossCol : S8192x1.Idx → EReal := fun y => lossK m c (pos (y 0).val)

theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- What a last column block writes back is its row block of the loss column. -/
theorem flushed4 (t : Fin cfg0.N) (hf : (cfg0.win 4).flush t = true) :
    (dats m 0 c).flushed 4 t = ((cfg0.win 4).blk t).view.read (Elt Ideal) (lossCol m c) := by
  have ht := tlt t
  have h7 : t.val % 8 = 7 := (flush0_4 t).mp hf
  have h0 : ¬t.val % 8 = 0 := by omega
  show (cfg0.win 4).cut (grid0.coords t) ((dats m 0 c).after 4 t) = _
  rw [after4, outsAt_last m c t h0 h7]
  dsimp only
  rw [outLast_eq]
  funext y
  obtain ⟨q, z, rfl⟩ : ∃ (q : Fin 1024) (z : Fin 1), y = ix2 q z := ⟨y 0, y 1, eq_ix2 y⟩
  obtain rfl : z = 0 := Subsingleton.elim _ _
  have hacc := acc_inv m c t.val t.isLt q
  rw [outsAt_last m c t h0 h7] at hacc
  dsimp only at hacc
  rw [afterLast_eq] at hacc
  show k0_pay6 (F := Ideal) _ _ _ _ _ (ix2 q (0 : Fin 1)) = lossCol m c (((cfg0.win 4).blk t).view.emb (ix2 q (0 : Fin 1)))
  rw [Cert.KernelIdeal.Pay.loss_payload]
  have hrow : pos ((((cfg0.win 4).blk t).view.emb (ix2 q (0 : Fin 1))) 0).val = pos (1024 * (t.val / 8) + q.val) := by
    congr 1
    show win0_4.index t 0 * 1024 + 1 * q.val = _
    rw [(idxf4 t).1]; omega
  unfold lossCol lossK
  rw [hrow]
  show lossTiled epsK (accAt _ q) = _
  rw [hacc, h7]

/-- Every row of the loss column lies in the block of the last column block of its row block. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  refine ⟨⟨8 * ((i 0).val / 1024) + 7, by omega⟩, (flush0_4 _).mpr (by show (8 * ((i 0).val / 1024) + 7) % 8 = 7; omega), ?_⟩
  rw [mem_blk4]
  intro a
  match a with
  | ⟨0, _⟩ =>
    show win0_4.index _ 0 * 1024 ≤ (i 0).val ∧ (i 0).val < win0_4.index _ 0 * 1024 + 1024
    rw [(idxf4 _).1]
    show (8 * ((i 0).val / 1024) + 7) / 8 * 1024 ≤ (i 0).val ∧ (i 0).val < (8 * ((i 0).val / 1024) + 7) / 8 * 1024 + 1024
    omega
  | ⟨1, _⟩ =>
    show win0_4.index _ 1 * 1 ≤ (i 1).val ∧ (i 1).val < win0_4.index _ 1 * 1 + 1
    rw [(idxf4 _).2]; omega

/-- The loss column after the region. -/
theorem final4 : (dats m 0 c).arrAt 4 cfg0.N = lossCol m c :=
  (dats m 0 c).arrAt_eq_of_cover 4 (lossCol m c) (flushed4 m c) (cover4)

end Cert.KernelIdeal.Hand

end
-- ==== Proof.RefRow.lean ====
/-
  The reference program at the extended-real instance, read row by row.

  For features X (8192 rows of 128 entries) and integer labels lab, the reference normalises every row,
      nrm r = sqrt (0 + Σ_d X(r,d)²),   unit r d = X(r,d) / nrm r,
  takes all pairwise similarities at temperature 0.2,
      simRef r k = (Σ_d unit r d · unit k d) / 0.2,
  and from row r's similarities computes the supervised-contrastive loss of that row: with Mx the row's maximum,
  w(k) = 1 − [k = r], Z = max(ε, 0 + Σ_k exp(simRef r k − Mx) · w(k)) and lm(k) = [lab r = lab k],
      loss r = −( (0 + Σ_k (simRef r k − Mx − log Z) · w(k) · lm(k)) / (0 + Σ_k lm(k)) ) · 1.
  The program's result is (0 + Σ_r loss r) / 8192.

  This module proves that the generated stage-by-stage reading of the reference is exactly that formula: each
  stage is read at an index through the generated per-operation lemmas, the one row maximum (a fold of max from −∞
  over the columns) is read by hand, and the two 0/1 masks (the diagonal, and the label match) are identified
  with the indicator functions of the row specification.
-/
import proofs.«101596_j86105504350689_1_alg».proof.Proof.Gen.ReferenceIdeal.Read
import proofs.«101596_j86105504350689_1_alg».proof.Proof.RowSpec
import Idealize.ShloMosaic.Lib.ValueIdx
import Idealize.ShloMosaic.PureOps.Ideal.Laws
import Idealize.ShloMosaic.Lib.IdealHost

noncomputable section

namespace Cert.RefRow

open Cert.ReferenceIdeal Cert.ReferenceIdeal.Gen Cert.ReferenceIdeal.Read Idealize.ShloMosaic Idealize.ShloMosaic.ValueIdx

/-- The feature array: 8192 rows of 128 extended reals. -/
abbrev Feat := (⟨S8192x128, .f32⟩ : BufTy).Contents (Elt Ideal)
/-- The label array: 8192 words. -/
abbrev Labs := (⟨S8192, .i32⟩ : BufTy).Contents (Elt Ideal)

/-- The Euclidean norm of row r, as the reference computes it: the square root of zero plus the sum of squares. -/
def nrm (X : Feat) (r : Fin 8192) : EReal := Ideal.sqrt (0 + ∑ d : Fin 128, X (ix2 r d) * X (ix2 r d))

/-- Entry d of the normalised row r. -/
def unit (X : Feat) (r : Fin 8192) (d : Fin 128) : EReal := Ideal.div (X (ix2 r d)) (nrm X r)

/-- The similarity of rows r and k: the inner product of the normalised rows over the temperature 0.2. -/
def simRef (X : Feat) (r k : Fin 8192) : EReal :=
  Ideal.div (∑ d : Fin 128, unit X r d * unit X k d) (Ideal.ofBits .f32 0x3E4CCCCD#32)

/-! ## The norm, the normalised rows and the similarities, read at an index -/

theorem norm_apply (X : Feat) (r : Fin 8192) (c : Fin 1) : val_main_v0 (F := Ideal) X (ix2 r c) = nrm X r := by
  have e : ∀ k : Fin 128, idx_main_call0_v1 (idx_main_call0_v2 (ix2 r c)) k = ix2 r k := fun k =>
    funext fun a => match a with | ⟨0, _⟩ => rfl | ⟨1, _⟩ => rfl
  rw [val_main_v0_apply, val_main_call0_v2_apply, val_main_call0_v1_apply]
  simp only [val_main_call0_v0_apply, val_main_call0_cst_apply, e, Ideal.hostUnary_sqrt_def, Ideal.mulf_def,
    Ideal.ofBits_def, Ideal.ofBits_zero_f32]
  rfl

theorem unit_apply (X : Feat) (r : Fin 8192) (d : Fin 128) : val_main_v2 (F := Ideal) X (ix2 r d) = unit X r d := by
  have e : idx_main_v1 (ix2 r d) = ix2 r (0 : Fin 1) := funext fun a => match a with | ⟨0, _⟩ => rfl | ⟨1, _⟩ => rfl
  rw [val_main_v2_apply, val_main_v1_apply, e, norm_apply, Ideal.hostDivf_def]
  rfl

theorem sim_apply (X : Feat) (r k : Fin 8192) : val_main_v6 (F := Ideal) X (ix2 r k) = simRef X r k := by
  have el : ∀ d : Fin 128, lidx_main_v4 (ix2 r k) d = ix2 r d := fun d =>
    funext fun a => match a with | ⟨0, _⟩ => rfl | ⟨1, _⟩ => rfl
  have er : ∀ d : Fin 128, idx_main_v3 (ridx_main_v4 (ix2 r k) d) = ix2 k d := fun d =>
    funext fun a => match a with | ⟨0, _⟩ => rfl | ⟨1, _⟩ => rfl
  rw [val_main_v6_apply, val_main_v4_apply, val_main_v5_apply, val_main_cst_apply]
  simp only [val_main_v3_apply, el, er, unit_apply, Ideal.hostDivf_def, Ideal.ofBits_def]
  rfl

/-! ## Two constants -/

/-- The word 0xFF800000 is −∞. -/
theorem bits_neg_inf : Ideal.ofBits .f32 0xFF800000#32 = ⊥ := by simp [Ideal.ofBits, Ideal.ieee]

/-- The word 0x3F800000 is 1. -/
theorem bits_one : Ideal.ofBits .f32 0x3F800000#32 = 1 := Ideal.ofBits_one_f32

/-! ## The row maximum: a fold of max from −∞ over the columns -/

theorem rowmax_apply (X : Feat) (r : Fin 8192) :
    val_main_v7 (F := Ideal) X (ix1 r) = (Finset.univ : Finset (Fin 8192)).fold max ⊥ (fun k => simRef X r k) := by
  have hR : S8192x8192.Reduces [1] S8192 := by decide
  unfold val_main_v7
  generalize hy : val_main_v6 (F := Ideal) X = y
  rw [Host.reduce_eq_fold_single (FloatOps.maximumf (F := Ideal) (φ := .f32)) y _ reducesTo_S8192x8192_S8192_d1 hR h_S_ (ix1 r)]
  show (Finset.univ : Finset (Fin 8192)).fold max (Ideal.ofBits .f32 0xFF800000#32) (fun k => y (hR.lift (ix1 r) k)) = _
  rw [bits_neg_inf]
  refine congrArg (fun f : Fin 8192 → EReal => Finset.fold max ⊥ f Finset.univ) (funext fun (k : Fin 8192) => ?_)
  have e : hR.lift (ix1 r) k = ix2 r k := funext fun a => Fin.ext (by match a with | ⟨0, _⟩ => rfl | ⟨1, _⟩ => rfl)
  rw [e, ← hy]
  exact sim_apply X r k

/-! ## The two 0/1 masks -/

/-- An equality test converted to a float is the indicator of the equality. -/
theorem uitofp_cmpi_eq {w : Nat} (x y : BitVec w) :
    (FloatOps.uitofp (F := Ideal) .f32 (IntOp.cmpi .eq x y) : EReal) = if x = y then 1 else 0 := by
  show (((BitVec.ofBool (x == y)).toNat : ℝ) : EReal) = _
  by_cases h : x = y
  · rw [if_pos h, beq_iff_eq.mpr h]; simp
  · rw [if_neg h, beq_eq_false_iff_ne.mpr h]; simp

/-- Row and column numbers below 8192 are equal as 32-bit words exactly when they are equal. -/
theorem ofNat_add_zero_eq_iff (r k : Fin 8192) :
    IntOp.addi (BitVec.ofNat 32 r.val) 0#32 = BitVec.ofNat 32 k.val ↔ k = r := by
  have hr := r.isLt
  have hk := k.isLt
  show BitVec.ofNat 32 r.val + 0#32 = BitVec.ofNat 32 k.val ↔ k = r
  rw [BitVec.add_zero]
  constructor
  · intro h
    have := congrArg BitVec.toNat h
    rw [BitVec.toNat_ofNat, BitVec.toNat_ofNat, Nat.mod_eq_of_lt (by omega), Nat.mod_eq_of_lt (by omega)] at this
    exact Fin.ext this.symm
  · rintro rfl; rfl

/-- Off the diagonal: one minus the indicator of the diagonal. -/
theorem offdiag_apply (r k : Fin 8192) :
    val_main_v18 (F := Ideal) (ix2 r k) = 1 - (if k = r then (1 : EReal) else 0) := by
  rw [val_main_v18_apply, val_main_v17_apply, val_main_cst_1_apply, val_main_v16_apply, val_main_v15_apply,
    val_main_v14_apply, val_main_v13_apply, val_main_c_apply, val_main_v11_apply, val_main_v12_apply, uitofp_cmpi_eq,
    Ideal.subf_def, Ideal.ofBits_def, bits_one]
  show 1 - (if IntOp.addi (BitVec.ofNat 32 r.val) 0#32 = BitVec.ofNat 32 k.val then (1 : EReal) else 0) = _
  simp only [ofNat_add_zero_eq_iff]

/-- The label match: the indicator that column k carries row r's label. -/
theorem match_apply (lab : Labs) (r k : Fin 8192) :
    val_main_v32 (F := Ideal) lab (ix2 r k) = if decide (lab (ix1 r) = lab (ix1 k)) then (1 : EReal) else 0 := by
  have e1 : idx_main_v27 (idx_main_v29 (ix2 r k)) = ix1 r := funext fun a => match a with | ⟨0, _⟩ => rfl
  have e2 : idx_main_v28 (idx_main_v30 (ix2 r k)) = ix1 k := funext fun a => match a with | ⟨0, _⟩ => rfl
  rw [val_main_v32_apply, val_main_v31_apply, val_main_v29_apply, val_main_v27_apply, val_main_v30_apply,
    val_main_v28_apply, e1, e2, uitofp_cmpi_eq]
  simp only [decide_eq_true_eq]

/-! ## The row's shifted similarities, its normaliser and its log-probabilities -/

/-- The maximum of row r's similarities. -/
def rowMax (X : Feat) (r : Fin 8192) : EReal := (Finset.univ : Finset (Fin 8192)).fold max ⊥ (fun k => simRef X r k)

/-- The clipped normaliser of row r: the off-diagonal exponentials of the shifted similarities, summed, and at least ε. -/
def rowZ (X : Feat) (r : Fin 8192) : EReal :=
  max (Ideal.ofBits .f32 0x3727C5AC#32)
    (0 + ∑ k : Fin 8192, Ideal.exp (simRef X r k - rowMax X r) * (1 - (if k = r then (1 : EReal) else 0)))

theorem shift_apply (X : Feat) (r k : Fin 8192) :
    val_main_v10 (F := Ideal) X (ix2 r k) = simRef X r k - rowMax X r := by
  have e : idx_main_v8 (idx_main_v9 (ix2 r k)) = ix1 r := funext fun a => match a with | ⟨0, _⟩ => rfl
  rw [val_main_v10_apply, val_main_v9_apply, val_main_v8_apply, e, rowmax_apply, sim_apply, Ideal.subf_def]
  rfl

theorem Z_apply (X : Feat) (r : Fin 8192) (c : Fin 1) : val_main_v23 (F := Ideal) X (ix2 r c) = rowZ X r := by
  have e : ∀ k : Fin 8192, idx_main_v21 (idx_main_v22 (ix2 r c)) k = ix2 r k := fun k =>
    funext fun a => match a with | ⟨0, _⟩ => rfl | ⟨1, _⟩ => rfl
  rw [val_main_v23_apply, val_main_call1_v1_apply, val_main_call1_v0_apply, val_main_cst_3_apply, val_main_v22_apply,
    val_main_v21_apply, val_main_cst_2_apply]
  simp only [val_main_v20_apply, val_main_v19_apply, e, shift_apply, offdiag_apply, Ideal.hostUnary_exp_def,
    Ideal.mulf_def, Ideal.maximumf_def, Ideal.ofBits_def, Ideal.ofBits_zero_f32]
  rfl

theorem logprob_apply (X : Feat) (r k : Fin 8192) :
    val_main_v26 (F := Ideal) X (ix2 r k) = (simRef X r k - rowMax X r) - Ideal.log (rowZ X r) := by
  have e : idx_main_v25 (ix2 r k) = ix2 r (0 : Fin 1) := funext fun a => match a with | ⟨0, _⟩ => rfl | ⟨1, _⟩ => rfl
  rw [val_main_v26_apply, val_main_v25_apply, val_main_v24_apply, e, Z_apply, shift_apply, Ideal.subf_def,
    Ideal.hostUnary_log_def]

/-! ## One row's loss, and the result -/

/-- THE ROW: entry r of the reference's per-row loss is the direct form of the row specification, at the row's
    similarities, with ε the word 0x3727C5AC and the mark "column k carries row r's label". -/
theorem ref_row (X : Feat) (lab : Labs) (r : Fin 8192) :
    val_main_v40 (F := Ideal) X lab (ix1 r)
      = Cert.RowSpec.lossDirect (Ideal.ofBits .f32 0x3727C5AC#32) (fun k => simRef X r k) r
          (fun k => decide (lab (ix1 r) = lab (ix1 k))) := by
  have e35 : ∀ k : Fin 8192, idx_main_v35 (ix1 r) k = ix2 r k := fun k =>
    funext fun a => match a with | ⟨0, _⟩ => rfl | ⟨1, _⟩ => rfl
  have e36 : ∀ k : Fin 8192, idx_main_v36 (ix1 r) k = ix2 r k := fun k =>
    funext fun a => match a with | ⟨0, _⟩ => rfl | ⟨1, _⟩ => rfl
  rw [val_main_v40_apply, val_main_v39_apply, val_main_cst_6_apply, val_main_v38_apply, val_main_v37_apply,
    val_main_v35_apply, val_main_v36_apply, val_main_cst_4_apply, val_main_cst_5_apply]
  simp only [val_main_v34_apply, val_main_v33_apply, e35, e36, logprob_apply, offdiag_apply, match_apply,
    Ideal.hostDivf_def, Ideal.hostNegf_def, Ideal.negf_def, Ideal.mulf_def, Ideal.ofBits_def, Ideal.ofBits_zero_f32,
    bits_one]
  rfl

/-- A sum over the row index set is the sum over the row numbers. -/
theorem sum_rows {M : Type*} [AddCommMonoid M] (f : S8192.Idx → M) : ∑ j, f j = ∑ r : Fin 8192, f (ix1 r) := by
  let e : S8192.Idx ≃ Fin 8192 := ⟨fun j => j 0, fun r => ix1 r, fun j => (eq_ix1 j).symm, fun _ => rfl⟩
  rw [← Equiv.sum_comp e.symm f]
  rfl

/-- THE RESULT: the reference's scalar is zero plus the sum of the rows' losses, over the word 0x46000000 (8192). -/
theorem ref_result (X : Feat) (lab : Labs) :
    val_main_v42 (F := Ideal) X lab
      = fun _ => Ideal.div
          (0 + ∑ r : Fin 8192, Cert.RowSpec.lossDirect (Ideal.ofBits .f32 0x3727C5AC#32) (fun k => simRef X r k) r
              (fun k => decide (lab (ix1 r) = lab (ix1 k))))
          (Ideal.ofBits .f32 0x46000000#32) := by
  funext i
  rw [val_main_v42_apply, val_main_v41_apply, val_main_cst_7_apply, val_main_cst_8_apply, sum_rows]
  simp only [ref_row, Ideal.hostDivf_def, Ideal.ofBits_def, Ideal.ofBits_zero_f32]

end Cert.RefRow

end
-- ==== Proof.KernelIdeal.HostValues.lean ====
/-
  The host operations of the kernel's program, read at an index.

  Before the region the program normalises the rows of the feature array X (each row over the square root of zero
  plus its sum of squares), divides every entry by the square root of the temperature 0.2, and lays the labels out
  twice: as a column (row r holds label r) and as a row (column k holds label k). After the region it takes the mean
  of the 8192 row losses: zero plus their sum, over 8192. This module states what each of those arrays holds at an
  index, in the terms of the reference's row formulas, and that the mean's operations leave the arguments alone.
-/
import proofs.«101596_j86105504350689_1_alg».proof.Proof.KernelIdeal.Data
import proofs.«101596_j86105504350689_1_alg».proof.Proof.RefRow
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.HostVal

open Cert.KernelIdeal Cert.KernelIdeal.Gen Cert.KernelIdeal.Hand
open Idealize.ShloMosaic Idealize.ShloMosaic.TcCoe Idealize.ShloMosaic.ValueIdx Idealize.ShloMosaic.StableHlo

/-! ## The mean after the region -/

/-- A sum over the index set of a one-column array is the sum over its rows. -/
theorem sum_col {M : Type*} [AddCommMonoid M] (f : S8192x1.Idx → M) : ∑ j, f j = ∑ r : Fin 8192, f (ix2 r (0 : Fin 1)) := by
  rw [sum_idx2]
  refine Finset.sum_congr rfl fun r _ => ?_
  exact Fin.sum_univ_one _

/-- The column of row losses the mean reads, as a function of the row index. -/
abbrev lossCol (W : Valuation τ sig (Elt Ideal)) : S8192x1.Idx → EReal := W (Proc.devRef .tc main_v8)

/-- The mean: zero plus the sum of the 8192 row losses, over the word 0x46000000 (8192). -/
theorem mean_apply (W : Valuation τ sig (Elt Ideal)) :
    (StableHlo.after (hostOps1 (F := Ideal)) W (Proc.devRef .tc main_v10) : S_.Idx → EReal)
      = fun _ => Ideal.div (0 + ∑ r : Fin 8192, lossCol W (ix2 r (0 : Fin 1))) (Ideal.ofBits .f32 0x46000000#32) := by
  after_results
  show Host.divf (F := Ideal) (Host.reduceAdd (F := Ideal) (lossCol W) _ _ _) _ = _
  generalize lossCol W = y
  funext i
  rw [hostDivf_apply, hostReduceAdd_apply, Ideal.hostReduceAdd_total reducesTo_S8192x1_S_d0_1 (fun b => b.elim0), sum_col]
  simp only [constant_apply, Ideal.ofBits_zero_f32]

/-! ## The arguments are left alone -/

/-- The mean's operations write only their own results: the three arguments keep their contents. -/
theorem args_kept0 (W : Valuation τ sig (Elt Ideal)) :
    StableHlo.after (hostOps1 (F := Ideal)) W (Proc.devRef .tc main_arg0) = W (Proc.devRef .tc main_arg0) := by
  after_results
theorem args_kept1 (W : Valuation τ sig (Elt Ideal)) :
    StableHlo.after (hostOps1 (F := Ideal)) W (Proc.devRef .tc main_arg1) = W (Proc.devRef .tc main_arg1) := by
  after_results
theorem args_kept2 (W : Valuation τ sig (Elt Ideal)) :
    StableHlo.after (hostOps1 (F := Ideal)) W (Proc.devRef .tc main_arg2) = W (Proc.devRef .tc main_arg2) := by
  after_results

variable (m : (ℓ : Loc nD τ sig) → Buf (Elt Ideal) ℓ) (c : Dev nD)

/-- So do the operations before the region. -/
theorem V0_arg0 : V0 m c (Proc.devRef .tc main_arg0) = m (c, Proc.devRef .tc main_arg0) := by
  dsimp only [V0]
  simp only [hostOps0, hostOps0_1, List.flatten_cons, List.flatten_nil, List.append_nil, List.cons_append, List.nil_append]
  after_results
theorem V0_arg1 : V0 m c (Proc.devRef .tc main_arg1) = m (c, Proc.devRef .tc main_arg1) := by
  dsimp only [V0]
  simp only [hostOps0, hostOps0_1, List.flatten_cons, List.flatten_nil, List.append_nil, List.cons_append, List.nil_append]
  after_results
theorem V0_arg2 : V0 m c (Proc.devRef .tc main_arg2) = m (c, Proc.devRef .tc main_arg2) := by
  dsimp only [V0]
  simp only [hostOps0, hostOps0_1, List.flatten_cons, List.flatten_nil, List.append_nil, List.cons_append, List.nil_append]
  after_results

/-! ## The labels, laid out as a column and as a row -/

/-- The feature array and the label array the program is launched on. -/
abbrev feat : S8192x128.Idx → EReal := m ((c.tc : Thread nD τ).loc main_arg0)
abbrev labs : S8192.Idx → BitVec 32 := m ((c.tc : Thread nD τ).loc main_arg2)

theorem labcol_eq : (V m c main_v6 : S8192x1.Idx → BitVec 32) = fun i => shapeCast S8192x1 (labs m c) shapeCasts_S8192_S8192x1 i := by
  dsimp only [V, V0]
  simp only [hostOps0, hostOps0_1, List.flatten_cons, List.flatten_nil, List.append_nil, List.cons_append, List.nil_append]
  after_results
  rfl

theorem labrow_eq : (V m c main_v7 : S1x8192.Idx → BitVec 32) = fun i => shapeCast S1x8192 (labs m c) shapeCasts_S8192_S1x8192 i := by
  dsimp only [V, V0]
  simp only [hostOps0, hostOps0_1, List.flatten_cons, List.flatten_nil, List.append_nil, List.cons_append, List.nil_append]
  after_results
  rfl

/-- Row r of the label column holds label r. -/
theorem labcol_apply (r : Fin 8192) : (V m c main_v6 : S8192x1.Idx → BitVec 32) (ix2 r (0 : Fin 1)) = labs m c (ix1 r) := by
  rw [labcol_eq]
  exact shapeCast_apply _ _ _ _ (by rw [Shape.rowMajor_val_one, Shape.rowMajor_val_two]; show r.val = r.val * 1 + 0; omega)

/-- Column k of the label row holds label k. -/
theorem labrow_apply (k : Fin 8192) : (V m c main_v7 : S1x8192.Idx → BitVec 32) (ix2 (0 : Fin 1) k) = labs m c (ix1 k) := by
  rw [labrow_eq]
  exact shapeCast_apply _ _ _ _ (by rw [Shape.rowMajor_val_one, Shape.rowMajor_val_two]; show k.val = 0 * 8192 + k.val; omega)

/-! ## The scaled unit rows -/

/-- The array the region reads its rows from: the reference's normalised rows, each entry over the square root of
    the temperature (a broadcast scalar). The operations are the reference's own, so the normalised rows are the
    reference's stage by unfolding. -/
theorem scaled_eq :
    (V m c main_v5 : S8192x128.Idx → EReal)
      = Host.divf (F := Ideal) (Cert.ReferenceIdeal.Read.val_main_v2 (F := Ideal) (feat m c))
          (broadcastInDim S8192x128 ![] bcast_S_S8192x128 (Host.sqrt (F := Ideal) (constant (F := Ideal) S_ .f32 0x3E4CCCCD#32))) := by
  dsimp only [V, V0]
  simp only [hostOps0, hostOps0_1, List.flatten_cons, List.flatten_nil, List.append_nil, List.cons_append, List.nil_append]
  after_results
  rfl

/-- Entry (r, d) of that array: the normalised row's entry over the square root of the temperature. -/
theorem scaled_apply (r : Fin 8192) (d : Fin 128) :
    (V m c main_v5 : S8192x128.Idx → EReal) (ix2 r d)
      = Ideal.div (Cert.RefRow.unit (feat m c) r d) (Ideal.sqrt (Ideal.ofBits .f32 0x3E4CCCCD#32)) := by
  rw [scaled_eq, hostDivf_apply, broadcastInDim_scalar_apply]
  have e := Cert.RefRow.unit_apply (feat m c) r d
  rw [← e]
  rfl

end Cert.KernelIdeal.HostVal

end
-- ==== Proof.LibEReal.lean ====
/-
  Facts about the extended reals as floats read them at the ideal instance: two bit patterns as the numbers they denote;
  the coercion of a finite real sum; scaling by the reciprocal square root of a positive real as division by its square
  root; a positive sum of squares of reals as a positive real; the Gram identity Σu² + Σv² − 2Σuv = Σ(u − v)² under the
  square root with its clamp at zero; a comparison's word as the order relation; and an extended real of finite absolute
  value as a real.
-/
import Idealize.ShloMosaic.PureOps.Ideal.Laws

noncomputable section

namespace Cert.Dist

open Idealize.ShloMosaic
open scoped BigOperators

/-- The pattern of 2.0 denotes the real 2. -/
theorem two_eq : Ideal.ofBits .f32 0x40000000#32 = ((2 : ℝ) : EReal) := by
  simp [Ideal.ofBits, Ideal.ieee, -EReal.coe_mul]; norm_num

/-- The pattern of +inf denotes the top element. -/
theorem inf_eq : Ideal.ofBits .f32 0x7F800000#32 = (⊤ : EReal) := by
  simp [Ideal.ofBits, Ideal.ieee]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling by the reciprocal square root of a positive real is dividing by its square root. -/
theorem mul_rsqrt_eq_div_sqrt (a : EReal) {r : ℝ} (hr : 0 < r) :
    a * Ideal.rsqrt (r : EReal) = Ideal.div a (Ideal.sqrt (r : EReal)) := by
  have h1 : Ideal.rsqrt (r : EReal) = (((Real.sqrt r)⁻¹ : ℝ) : EReal) := by
    rw [Ideal.rsqrt_coe, if_neg (not_lt.mpr hr.le), if_neg hr.ne']
  have h2 : Ideal.sqrt (r : EReal) = ((Real.sqrt r : ℝ) : EReal) := by
    rw [Ideal.sqrt_coe, if_neg (not_lt.mpr hr.le)]
  have hs : Real.sqrt r ≠ 0 := (Real.sqrt_pos.mpr hr).ne'
  rw [h1, h2, Ideal.div_coe hs, one_div]

/-- A sum of squares of reals that is positive as an extended real is a positive real. -/
theorem sumsq_pos {n : ℕ} (u : Fin n → ℝ) (h : (0 : EReal) < ∑ k : Fin n, (u k : EReal) * (u k : EReal)) :
    ∃ r : ℝ, 0 < r ∧ (∑ k : Fin n, (u k : EReal) * (u k : EReal)) = (r : EReal) := by
  refine ⟨∑ k : Fin n, u k * u k, ?_, ?_⟩
  · have e : (∑ k : Fin n, (u k : EReal) * (u k : EReal)) = ((∑ k : Fin n, u k * u k : ℝ) : EReal) := by
      rw [coe_sum]; exact Finset.sum_congr rfl fun k _ => (EReal.coe_mul _ _).symm
    rw [e] at h
    exact_mod_cast h
  · rw [coe_sum]; exact Finset.sum_congr rfl fun k _ => (EReal.coe_mul _ _).symm

/-- The Gram identity on real rows, read on the extended reals: the clamped expression under the kernel's square root
    is the sum of squared differences under the reference's. -/
theorem gram {n : ℕ} (u v : Fin n → ℝ) :
    Ideal.sqrt (max (((∑ k : Fin n, (u k : EReal) * (u k : EReal)) + (∑ k : Fin n, (v k : EReal) * (v k : EReal)))
        - ((2 : ℝ) : EReal) * (∑ k : Fin n, (u k : EReal) * (v k : EReal))) 0)
      = Ideal.sqrt (0 + ∑ k : Fin n, ((u k : EReal) - (v k : EReal)) * ((u k : EReal) - (v k : EReal))) := by
  have e1 : (∑ k : Fin n, (u k : EReal) * (u k : EReal)) = ((∑ k : Fin n, u k * u k : ℝ) : EReal) := by
    rw [coe_sum]; exact Finset.sum_congr rfl fun k _ => (EReal.coe_mul _ _).symm
  have e2 : (∑ k : Fin n, (v k : EReal) * (v k : EReal)) = ((∑ k : Fin n, v k * v k : ℝ) : EReal) := by
    rw [coe_sum]; exact Finset.sum_congr rfl fun k _ => (EReal.coe_mul _ _).symm
  have e3 : (∑ k : Fin n, (u k : EReal) * (v k : EReal)) = ((∑ k : Fin n, u k * v k : ℝ) : EReal) := by
    rw [coe_sum]; exact Finset.sum_congr rfl fun k _ => (EReal.coe_mul _ _).symm
  have e4 : (∑ k : Fin n, ((u k : EReal) - (v k : EReal)) * ((u k : EReal) - (v k : EReal)))
      = ((∑ k : Fin n, (u k - v k) * (u k - v k) : ℝ) : EReal) := by
    rw [coe_sum]; exact Finset.sum_congr rfl fun k _ => by rw [EReal.coe_mul, EReal.coe_sub]
  have key : (∑ k : Fin n, u k * u k) + (∑ k : Fin n, v k * v k) - 2 * (∑ k : Fin n, u k * v k)
      = ∑ k : Fin n, (u k - v k) * (u k - v k) := by
    rw [Finset.mul_sum, ← Finset.sum_add_distrib, ← Finset.sum_sub_distrib]
    exact Finset.sum_congr rfl fun k _ => by ring
  have hnn : (0 : ℝ) ≤ ∑ k : Fin n, (u k - v k) * (u k - v k) :=
    Finset.sum_nonneg fun k _ => mul_self_nonneg _
  rw [e1, e2, e3, e4, ← EReal.coe_add, ← EReal.coe_mul, ← EReal.coe_sub, key, zero_add,
    max_eq_left (by exact_mod_cast hnn)]

/-- The word of an ordered "less than" is 1 exactly when the left value is below the right. -/
theorem cmp_olt_iff (a b : EReal) : Ideal.cmp .olt a b = 1#1 ↔ a < b := by
  unfold Ideal.cmp; by_cases h : a < b <;> simp [h]

/-- The word of an ordered "greater than" is 1 exactly when the right value is below the left. -/
theorem cmp_ogt_iff (a b : EReal) : Ideal.cmp .ogt a b = 1#1 ↔ b < a := by
  unfold Ideal.cmp; by_cases h : b < a <;> simp [h]

/-- An extended real whose absolute value is below +∞ is a real. -/
theorem real_of_abs_lt_top (a : EReal) (h : max a (-a) < ⊤) : ∃ r : ℝ, a = (r : EReal) := by
  induction a using EReal.rec with
  | bot => simp at h
  | coe r => exact ⟨r, rfl⟩
  | top => simp at h

end Cert.Dist

end
-- ==== Proof.KernelIdeal.PreFacts.lean ====
/-
  What the precondition says of the inputs, entry by entry.

  The precondition is a conjunction of three "for all" tests: every feature has absolute value below +∞, every
  entry of the second argument likewise, and every row's sum of squares (zero plus the sum over the row) is above
  zero. From the first, every feature is a real number; from the third, every row's sum of squares is positive.
-/
import proofs.«101596_j86105504350689_1_alg».proof.Pre_finite_inputs
import proofs.«101596_j86105504350689_1_alg».proof.Proof.Gen.Pre_finite_inputs
import proofs.«101596_j86105504350689_1_alg».proof.Proof.LibEReal
import Idealize.ShloMosaic.Lib.ReduceAll
import Idealize.ShloMosaic.Lib.ValueIdx
import Idealize.ShloMosaic.Lib.IdealHost
import Idealize.ShloMosaic.PureOps.Ideal.Laws

noncomputable section

namespace Cert.KernelIdeal.PreFacts

open Cert.Pre_finite_inputs Cert.Pre_finite_inputs.Facts
open Idealize.ShloMosaic Idealize.ShloMosaic.ValueIdx

/-- The scalar shape has one index. -/
instance : Subsingleton S_.Idx := ⟨fun a b => funext fun d => d.elim0⟩

variable (X : FVec Ideal S8192x128 .f32) (I : FVec Ideal S8192 .f32) (lab : IVec S8192 32)

/-- The three conjuncts of the precondition, each still a "for all" test. -/
theorem conjuncts (h : fn (F := Ideal) X I lab = fun _ => 1#1) :
    (Host.reduce IntOp.andi
        (cmpf .olt (Host.absf (F := Ideal) X) (broadcastInDim S8192x128 ![] bcast_S_S8192x128 (constant (F := Ideal) S_ .f32 0x7F800000#32)))
        (constantI S_ 1 1#1) reducesTo_S8192x128_S_d0_1 h_S_ ix0 = 1#1)
    ∧ (Host.reduce IntOp.andi
        (cmpf .ogt (Host.reduceAdd (F := Ideal) (mulf X X) (constant (F := Ideal) S_ .f32 0x00000000#32) reducesTo_S8192x128_S8192_d1 h_S_)
          (broadcastInDim S8192 ![] bcast_S_S8192 (constant (F := Ideal) S_ .f32 0x00000000#32)))
        (constantI S_ 1 1#1) reducesTo_S8192_S_d0 h_S_ ix0 = 1#1) := by
  have h0 := congrFun h ix0
  dsimp only [fn] at h0
  obtain ⟨h8, h13⟩ := IntOp.andi_eq_one.1 h0
  obtain ⟨h3, _⟩ := IntOp.andi_eq_one.1 h8
  exact ⟨h3, h13⟩

/-- Every feature is a real number. -/
theorem feat_real (h : fn (F := Ideal) X I lab = fun _ => 1#1) : ∀ j : S8192x128.Idx, ∃ x : ℝ, X j = (x : EReal) := by
  intro j
  have hj := Host.reduce_andi_all _ _ _ _ _ (conjuncts X I lab h).1 j
  rw [cmpf_apply, broadcastInDim_scalar_apply, constant_apply, Cert.Dist.inf_eq] at hj
  exact Cert.Dist.real_of_abs_lt_top _ ((Cert.Dist.cmp_olt_iff _ _).1 hj)

/-- Every row's sum of squares is positive. -/
theorem norm_pos (h : fn (F := Ideal) X I lab = fun _ => 1#1) :
    ∀ r : Fin 8192, (0 : EReal) < ∑ d : Fin 128, X (ix2 r d) * X (ix2 r d) := by
  intro r
  have hR : S8192x128.Reduces [1] S8192 := by decide
  have hr := Host.reduce_andi_all _ _ _ _ _ (conjuncts X I lab h).2 (ix1 r)
  rw [cmpf_apply, broadcastInDim_scalar_apply, constant_apply, hostReduceAdd_apply,
    Ideal.hostReduceAdd_single reducesTo_S8192x128_S8192_d1 hR, constant_apply, Ideal.ofBits_zero_f32, zero_add] at hr
  have hpos := (Cert.Dist.cmp_ogt_iff _ _).1 hr
  refine lt_of_lt_of_eq hpos ?_
  show ∑ k : Fin 128, mulf X X (hR.lift (ix1 r) k) = _
  refine Finset.sum_congr rfl fun (k : Fin 128) _ => ?_
  have e : hR.lift (ix1 r) k = ix2 r k := funext fun a => Fin.ext (by match a with | ⟨0, _⟩ => rfl | ⟨1, _⟩ => rfl)
  rw [e]
  rfl

end Cert.KernelIdeal.PreFacts

end
-- ==== Proof.LibOnlineLse.lean ====
import Mathlib.Data.EReal.Operations
import Mathlib.Analysis.SpecialFunctions.Log.Basic
import Mathlib.Algebra.BigOperators.Fin
import Mathlib.Algebra.Group.Nat.Range
import Mathlib.Algebra.Order.BigOperators.Group.Finset
import Mathlib.Data.List.FinRange
import Mathlib.Data.Fintype.Basic

/-!
# The tiled ("online") log-sum-exp equals the direct log-sum-exp

A row of `N` real numbers `a 0, …, a (N-1)` is laid out in `T` tiles of width `W`
(`N ≤ T * W`, every tile starts inside the row: `t * W < N` for `t < T`); the columns
`t * W + j ≥ N` are padding and hold `⊥ = -∞`.

The online algorithm carries a pair `(m, l)`, starting at `(⊥, 0)`.  At a tile with entries
`xt : Fin W → EReal` it sets `M := max m (sup_j xt j)`, then
`l := ex (m - M) * l + ∑ j, ex (xt j - M)` and `m := M`; the result is `m + lg l`.
The functions `ex lg : EReal → EReal` are abstract: only `ex ⊥ = 0`, `ex r = exp r` and
`lg r = log r` (for real `r`, `r > 0` in the last) are used.

The invariant after `k ≥ 1` tiles: `m` is the (real) maximum of the entries seen so far, and
`l = ∑ exp (y - m)` over the real entries `y` seen so far (a padding entry contributes
`ex ⊥ = 0`).  Passing from `m` to a larger `M` multiplies every term by `exp (m - M)`, because
`exp (m - M) * exp (y - m) = exp (y - M)`.  After the last tile `m` is the maximum of the row and
`l` is a positive real, so `a v - (m + log l) = (a v - m) - log l` is arithmetic of real numbers.
-/

open Finset

namespace Cert.LibOnlineLse

/-- One tile of the online log-sum-exp: new running maximum, and the running sum rescaled to it. -/
noncomputable def step {W : ℕ} (ex : EReal → EReal) (xt : Fin W → EReal) (s : EReal × EReal) : EReal × EReal :=
  (max s.1 (Finset.univ.sup xt),
   ex (s.1 - max s.1 (Finset.univ.sup xt)) * s.2 + ∑ j, ex (xt j - max s.1 (Finset.univ.sup xt)))

/-- The pair `(m, l)` after the first `k` tiles. -/
noncomputable def state {W : ℕ} (ex : EReal → EReal) (x : ℕ → Fin W → EReal) : ℕ → EReal × EReal
  | 0 => (⊥, 0)
  | k + 1 => step ex (x k) (state ex x k)

/-! ### General facts about finite sums and suprema -/

/-- The coercion `ℝ → EReal` commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A supremum over `range (n + m)` splits at `n`. -/
theorem sup_range_add {α : Type*} [SemilatticeSup α] [OrderBot α] (f : ℕ → α) (n m : ℕ) :
    (range (n + m)).sup f = (range n).sup f ⊔ (range m).sup fun i => f (n + i) := by
  rw [Finset.range_add, Finset.sup_union, Finset.sup_map]
  rfl

/-- A supremum over `Fin n` of a function of the value is a supremum over `range n`. -/
theorem sup_univ_fin {α : Type*} [SemilatticeSup α] [OrderBot α] (f : ℕ → α) (n : ℕ) :
    (univ : Finset (Fin n)).sup (fun j => f j.val) = (range n).sup f := by
  apply le_antisymm
  · exact Finset.sup_le fun j _ => Finset.le_sup (f := f) (mem_range.2 j.2)
  · exact Finset.sup_le fun i hi =>
      Finset.le_sup (f := fun j : Fin n => f j.val) (mem_univ (⟨i, mem_range.1 hi⟩ : Fin n))

/-- A finite supremum of elements below `⊤` is below `⊤`. -/
theorem sup_ne_top (g : ℕ → EReal) (hg : ∀ i, g i ≠ ⊤) (s : Finset ℕ) : s.sup g ≠ ⊤ := by
  apply ne_of_lt
  rw [Finset.sup_lt_iff bot_lt_top]
  intro i _
  exact lt_top_iff_ne_top.2 (hg i)

/-- A left fold of `max` over a mapped list is the supremum over the list's elements. -/
theorem foldl_max_map {ι : Type*} [DecidableEq ι] (f : ι → EReal) (l : List ι) (b : EReal) :
    List.foldl max b (l.map f) = b ⊔ l.toFinset.sup f := by
  induction l generalizing b with
  | nil => simp
  | cons i l ih =>
    rw [List.map_cons, List.foldl_cons, ih, List.toFinset_cons, Finset.sup_insert, ← sup_assoc]

/-- A left fold of `max` from `⊥` over the values of `f : Fin n → EReal` is their supremum. -/
theorem foldl_max_ofFn {n : ℕ} (f : Fin n → EReal) :
    List.foldl max ⊥ (List.ofFn f) = Finset.univ.sup f := by
  rw [List.ofFn_eq_map, foldl_max_map, List.toFinset_finRange, bot_sup_eq]

/-! ### The shifted exponential as a real number -/

/-- `exp (y - m)` as a real number, for `y` real or `⊥` (then it is `0`). -/
noncomputable def E (y : EReal) (m : ℝ) : ℝ := if y = ⊥ then 0 else Real.exp (y.toReal - m)

theorem E_bot (m : ℝ) : E ⊥ m = 0 := if_pos rfl

theorem E_coe (r m : ℝ) : E (r : EReal) m = Real.exp (r - m) := by
  rw [E, if_neg (EReal.coe_ne_bot r), EReal.toReal_coe]

/-- On entries that are real or `⊥`, `ex (y - m)` is the real number `E y m`. -/
theorem ex_sub_coe (ex : EReal → EReal) (hbot : ex ⊥ = 0)
    (hex : ∀ r : ℝ, ex (r : EReal) = ((Real.exp r : ℝ) : EReal))
    {y : EReal} (hy : y ≠ ⊤) (m : ℝ) : ex (y - (m : EReal)) = ((E y m : ℝ) : EReal) := by
  induction y using EReal.rec with
  | bot => rw [EReal.bot_sub, hbot, E_bot, EReal.coe_zero]
  | coe r => rw [← EReal.coe_sub, hex, E_coe]
  | top => exact absurd rfl hy

/-- Changing the reference point from `m` to `m'` multiplies by `exp (m - m')`. -/
theorem E_rescale (y : EReal) (m m' : ℝ) : Real.exp (m - m') * E y m = E y m' := by
  unfold E
  split_ifs
  · rw [mul_zero]
  · rw [← Real.exp_add]
    congr 1
    ring

/-! ### The invariant, for tiles cut out of a flat sequence `g : ℕ → EReal` -/

section Flat

variable {W : ℕ} (ex : EReal → EReal) (x : ℕ → Fin W → EReal) (g : ℕ → EReal)

theorem state_succ (k : ℕ) : state ex x (k + 1) = step ex (x k) (state ex x k) := rfl

/-- The running maximum after `k` tiles is the supremum of the first `k * W` entries. -/
theorem state_fst_eq (hxg : ∀ t (j : Fin W), x t j = g (t * W + j.val)) (k : ℕ) :
    (state ex x k).1 = (range (k * W)).sup g := by
  induction k with
  | zero => simp [state]
  | succ k ih =>
    have hsup : (univ : Finset (Fin W)).sup (x k) = (range W).sup fun j => g (k * W + j) := by
      rw [← sup_univ_fin (fun j => g (k * W + j)) W]
      congr 1
      funext j
      exact hxg k j
    rw [add_mul, one_mul, sup_range_add, ← ih, ← hsup]
    rfl

/-- After at least one tile the running maximum is a real number, if no entry is `⊤` and the
first entry is not `⊥`. -/
theorem exists_real_fst (hxg : ∀ t (j : Fin W), x t j = g (t * W + j.val))
    (hg : ∀ i, g i ≠ ⊤) (hg0 : g 0 ≠ ⊥) (hW : 0 < W) (k : ℕ) (hk : 0 < k) :
    ∃ M : ℝ, (state ex x k).1 = (M : EReal) := by
  have h1 : (state ex x k).1 ≠ ⊤ := by
    rw [state_fst_eq ex x g hxg]
    exact sup_ne_top g hg _
  have h2 : (state ex x k).1 ≠ ⊥ := by
    rw [state_fst_eq ex x g hxg]
    intro h
    have h0 : g 0 ≤ (range (k * W)).sup g :=
      Finset.le_sup (f := g) (mem_range.2 (Nat.mul_pos hk hW))
    rw [h] at h0
    exact hg0 (le_bot_iff.1 h0)
  exact ⟨_, (EReal.coe_toReal h1 h2).symm⟩

/-- One step of the invariant for the running sum: if the old sum, rescaled to the new maximum
`M`, is the sum of `E (g i) M` over the entries seen, so is the new sum. -/
theorem state_succ_snd (hbot : ex ⊥ = 0)
    (hex : ∀ r : ℝ, ex (r : EReal) = ((Real.exp r : ℝ) : EReal))
    (hxg : ∀ t (j : Fin W), x t j = g (t * W + j.val)) (hg : ∀ i, g i ≠ ⊤)
    (k : ℕ) (M : ℝ) (hM : (state ex x (k + 1)).1 = (M : EReal))
    (hc : ex ((state ex x k).1 - (M : EReal)) * (state ex x k).2
      = ((∑ i ∈ range (k * W), E (g i) M : ℝ) : EReal)) :
    (state ex x (k + 1)).2 = ((∑ i ∈ range ((k + 1) * W), E (g i) M : ℝ) : EReal) := by
  have h1 : (state ex x (k + 1)).2
      = ex ((state ex x k).1 - (state ex x (k + 1)).1) * (state ex x k).2
        + ∑ j, ex (x k j - (state ex x (k + 1)).1) := rfl
  rw [h1, hM, hc, add_mul, one_mul, Finset.sum_range_add, EReal.coe_add,
    ← Fin.sum_univ_eq_sum_range (fun j => E (g (k * W + j)) M) W, coe_finset_sum univ]
  congr 1
  refine Finset.sum_congr rfl fun j _ => ?_
  rw [hxg k j]
  exact ex_sub_coe ex hbot hex (hg _) M

/-- The running sum after `k + 1` tiles is `∑ exp (g i - M)` over the entries seen, `M` the
running maximum. -/
theorem state_snd_eq (hbot : ex ⊥ = 0)
    (hex : ∀ r : ℝ, ex (r : EReal) = ((Real.exp r : ℝ) : EReal))
    (hxg : ∀ t (j : Fin W), x t j = g (t * W + j.val))
    (hg : ∀ i, g i ≠ ⊤) (hg0 : g 0 ≠ ⊥) (hW : 0 < W) (k : ℕ) :
    ∀ M : ℝ, (state ex x (k + 1)).1 = (M : EReal) →
      (state ex x (k + 1)).2 = ((∑ i ∈ range ((k + 1) * W), E (g i) M : ℝ) : EReal) := by
  induction k with
  | zero =>
    intro M hM
    refine state_succ_snd ex x g hbot hex hxg hg 0 M hM ?_
    simp [state]
  | succ k ih =>
    intro M hM
    obtain ⟨M', hM'⟩ := exists_real_fst ex x g hxg hg hg0 hW (k + 1) (Nat.succ_pos k)
    refine state_succ_snd ex x g hbot hex hxg hg (k + 1) M hM ?_
    rw [ih M' hM', hM', ← EReal.coe_sub, hex, ← EReal.coe_mul, Finset.mul_sum]
    congr 1
    exact Finset.sum_congr rfl fun i _ => E_rescale (g i) M' M

end Flat

/-! ### A row of reals followed by padding -/

/-- The flat row: `a i` for `i < N`, and `⊥` beyond. -/
noncomputable def row {N : ℕ} (a : Fin N → ℝ) (i : ℕ) : EReal :=
  if h : i < N then ((a ⟨i, h⟩ : ℝ) : EReal) else ⊥

theorem row_of_lt {N : ℕ} (a : Fin N → ℝ) {i : ℕ} (h : i < N) :
    row a i = ((a ⟨i, h⟩ : ℝ) : EReal) := dif_pos h

theorem row_of_not_lt {N : ℕ} (a : Fin N → ℝ) {i : ℕ} (h : ¬ i < N) : row a i = ⊥ := dif_neg h

theorem row_ne_top {N : ℕ} (a : Fin N → ℝ) (i : ℕ) : row a i ≠ ⊤ := by
  unfold row
  split_ifs
  · exact EReal.coe_ne_top _
  · exact bot_ne_top

/-- The supremum of the padded row is the supremum of the row. -/
theorem sup_row {N : ℕ} (a : Fin N → ℝ) (n : ℕ) (hn : N ≤ n) :
    (range n).sup (row a) = univ.sup fun u : Fin N => ((a u : ℝ) : EReal) := by
  apply le_antisymm
  · refine Finset.sup_le fun i _ => ?_
    by_cases h : i < N
    · rw [row_of_lt a h]
      exact Finset.le_sup (f := fun u : Fin N => ((a u : ℝ) : EReal)) (mem_univ (⟨i, h⟩ : Fin N))
    · rw [row_of_not_lt a h]
      exact bot_le
  · refine Finset.sup_le fun u _ => ?_
    have hu : row a u.val = ((a u : ℝ) : EReal) := row_of_lt a u.2
    rw [← hu]
    exact Finset.le_sup (f := row a) (mem_range.2 (lt_of_lt_of_le u.2 hn))

/-- The sum of shifted exponentials over the padded row is the sum over the row. -/
theorem sum_row {N : ℕ} (a : Fin N → ℝ) (M : ℝ) (n : ℕ) (hn : N ≤ n) :
    ∑ i ∈ range n, E (row a i) M = ∑ u : Fin N, Real.exp (a u - M) := by
  rw [← Finset.sum_subset (range_subset_range.2 hn) (f := fun i => E (row a i) M)
    (fun i _ hi => by
      rw [row_of_not_lt a (fun h => hi (mem_range.2 h)), E_bot]),
    Finset.sum_range]
  refine Finset.sum_congr rfl fun u _ => ?_
  rw [row_of_lt a u.2, E_coe]

/-! ### The main statements -/

/-- After the last tile: the running maximum is a real number `M`, the maximum of the row, and the
running sum is the positive real number `∑ exp (a u - M)`. -/
theorem state_final (ex : EReal → EReal) (hbot : ex ⊥ = 0)
    (hex : ∀ r : ℝ, ex (r : EReal) = ((Real.exp r : ℝ) : EReal))
    (N T W : ℕ) (hN : N ≤ T * W) (hT0 : 0 < T) (hT : ∀ t, t < T → t * W < N)
    (a : Fin N → ℝ) (x : ℕ → Fin W → EReal)
    (hx : ∀ t (j : Fin W), x t j =
      if h : t * W + j.val < N then ((a ⟨t * W + j.val, h⟩ : ℝ) : EReal) else ⊥) :
    ∃ M : ℝ, (state ex x T).1 = (M : EReal)
      ∧ (M : EReal) = (Finset.univ.sup fun u : Fin N => ((a u : ℝ) : EReal))
      ∧ (state ex x T).2 = ((∑ u : Fin N, Real.exp (a u - M) : ℝ) : EReal)
      ∧ 0 < ∑ u : Fin N, Real.exp (a u - M) := by
  have hN0 : 0 < N := by
    have h := hT 0 hT0
    rwa [zero_mul] at h
  have hW : 0 < W := by
    rcases Nat.eq_zero_or_pos W with h | h
    · subst h
      rw [mul_zero] at hN
      omega
    · exact h
  have hxg : ∀ t (j : Fin W), x t j = row a (t * W + j.val) := fun t j => hx t j
  have hg : ∀ i, row a i ≠ ⊤ := row_ne_top a
  have hg0 : row a 0 ≠ ⊥ := by
    rw [row_of_lt a hN0]
    exact EReal.coe_ne_bot _
  obtain ⟨M, hM⟩ := exists_real_fst ex x (row a) hxg hg hg0 hW T hT0
  refine ⟨M, hM, ?_, ?_, ?_⟩
  · rw [← hM, state_fst_eq ex x (row a) hxg, sup_row a _ hN]
  · obtain ⟨k, rfl⟩ : ∃ k, T = k + 1 := ⟨T - 1, by omega⟩
    rw [state_snd_eq ex x (row a) hbot hex hxg hg hg0 hW k M hM, sum_row a M _ hN]
  · exact Finset.sum_pos (fun u _ => Real.exp_pos _) ⟨⟨0, hN0⟩, mem_univ _⟩

/-- The final running maximum is real and is the maximum of the row. -/
theorem state_fst (ex : EReal → EReal) (hbot : ex ⊥ = 0)
    (hex : ∀ r : ℝ, ex (r : EReal) = ((Real.exp r : ℝ) : EReal))
    (N T W : ℕ) (hN : N ≤ T * W) (hT0 : 0 < T) (hT : ∀ t, t < T → t * W < N)
    (a : Fin N → ℝ) (x : ℕ → Fin W → EReal)
    (hx : ∀ t (j : Fin W), x t j =
      if h : t * W + j.val < N then ((a ⟨t * W + j.val, h⟩ : ℝ) : EReal) else ⊥) :
    ∃ M : ℝ, (state ex x T).1 = (M : EReal)
      ∧ (M : EReal) = (Finset.univ.sup fun u : Fin N => ((a u : ℝ) : EReal)) := by
  obtain ⟨M, h1, h2, _, _⟩ := state_final ex hbot hex N T W hN hT0 hT a x hx
  exact ⟨M, h1, h2⟩

/-- The final running sum is the sum of `ex (a u - m)` over the row, `m` the final maximum. -/
theorem state_snd (ex : EReal → EReal) (hbot : ex ⊥ = 0)
    (hex : ∀ r : ℝ, ex (r : EReal) = ((Real.exp r : ℝ) : EReal))
    (N T W : ℕ) (hN : N ≤ T * W) (hT0 : 0 < T) (hT : ∀ t, t < T → t * W < N)
    (a : Fin N → ℝ) (x : ℕ → Fin W → EReal)
    (hx : ∀ t (j : Fin W), x t j =
      if h : t * W + j.val < N then ((a ⟨t * W + j.val, h⟩ : ℝ) : EReal) else ⊥) :
    (state ex x T).2 = ∑ u : Fin N, ex (((a u : ℝ) : EReal) - (state ex x T).1) := by
  obtain ⟨M, h1, _, h3, _⟩ := state_final ex hbot hex N T W hN hT0 hT a x hx
  rw [h3, h1, coe_finset_sum]
  refine Finset.sum_congr rfl fun u _ => ?_
  rw [← EReal.coe_sub, hex]

/-- The online log-sum-exp agrees with the direct one: subtracting either from an entry of the
row gives the same value. -/
theorem online_lse_eq (ex lg : EReal → EReal) (hbot : ex ⊥ = 0)
    (hex : ∀ r : ℝ, ex (r : EReal) = ((Real.exp r : ℝ) : EReal))
    (hlg : ∀ r : ℝ, 0 < r → lg (r : EReal) = ((Real.log r : ℝ) : EReal))
    (N T W : ℕ) (hN : N ≤ T * W) (hT0 : 0 < T) (hT : ∀ t, t < T → t * W < N)
    (a : Fin N → ℝ) (x : ℕ → Fin W → EReal)
    (hx : ∀ t (j : Fin W), x t j =
      if h : t * W + j.val < N then ((a ⟨t * W + j.val, h⟩ : ℝ) : EReal) else ⊥)
    (v : Fin N) :
    ((a v : ℝ) : EReal) - ((state ex x T).1 + lg (state ex x T).2)
      = (((a v : ℝ) : EReal) - max ⊥ (Finset.univ.sup fun u : Fin N => ((a u : ℝ) : EReal)))
          - lg (0 + ∑ u : Fin N, ex (((a u : ℝ) : EReal)
              - max ⊥ (Finset.univ.sup fun u : Fin N => ((a u : ℝ) : EReal)))) := by
  obtain ⟨M, hM, hMsup, hL, hLpos⟩ := state_final ex hbot hex N T W hN hT0 hT a x hx
  have hS : ∑ u : Fin N, ex (((a u : ℝ) : EReal) - (M : EReal))
      = ((∑ u : Fin N, Real.exp (a u - M) : ℝ) : EReal) := by
    rw [coe_finset_sum]
    refine Finset.sum_congr rfl fun u _ => ?_
    rw [← EReal.coe_sub, hex]
  rw [hM, hL, hlg _ hLpos, max_eq_right bot_le, ← hMsup, zero_add, hS, hlg _ hLpos,
    ← EReal.coe_add, ← EReal.coe_sub, ← EReal.coe_sub, ← EReal.coe_sub]
  congr 1
  ring

end Cert.LibOnlineLse
-- ==== Proof.LibRowLoss.lean ====
/-
  One row of the supervised-contrastive loss: the tiled evaluation equals the direct one.

  The row has real similarities a(0), …, a(N−1), N = T·W, its own column r, and marks lab(k) with lab(r) set.
  The tiled evaluation folds four accumulators over the T column blocks of width W:
    M — the running maximum;
    L — the sum, over the columns seen other than r, of exp(a(k) − M), rescaled by exp(M_old − M_new) when M moves;
    U — the sum of a(k) over the marked columns seen other than r;     C — the number of those columns.
  After k ≥ 1 blocks all four are real numbers: M is the maximum of the first k·W similarities, because a supremum of
  finitely many reals over a nonempty set is real; L is Σ exp(a(i) − M) over the unmasked columns seen, because
  exp(a − M_old) · exp(M_old − M_new) = exp(a − M_new) (the first block starts from M = −∞, L = 0, and 0 · anything = 0);
  U and C are plain partial sums.  After the last block, with everything real,
    Σ_k [lab k] = C + 1                      (the diagonal is marked),
    Σ_k (a k − M − log Z) · w k · [lab k] = U − C · (M + log Z),     Z = max(ε, L) = max(L, ε) ≥ ε > 0,
  so both losses are the same real number −(U − C·(M + log Z)) / (C + 1).

  The file also collects: the values of the exact exponential, logarithm, square root and division on real arguments;
  the fold of max over finitely many reals as a real supremum; the identity
  Σ_d (x d / p / √t)(y d / q / √t) = (Σ_d (x d / p)(y d / q)) / t; and positivity of a sum of squares of reals that are
  not all zero.
-/
import proofs.«101596_j86105504350689_1_alg».proof.Proof.RowSpec
import proofs.«101596_j86105504350689_1_alg».proof.Proof.LibOnlineLse
import proofs.«101596_j86105504350689_1_alg».proof.Proof.LibEReal
import Idealize.ShloMosaic.PureOps.Ideal.Laws

noncomputable section

namespace Cert.LibRowLoss

open Idealize.ShloMosaic
open Finset
open Cert.RowSpec (step state lossTiled lossDirect)

/-! ### The exact operations on real arguments -/

/-- The exact exponential of a real is the real exponential. -/
@[simp] theorem exp_coe (x : ℝ) : Ideal.exp (x : EReal) = ((Real.exp x : ℝ) : EReal) := rfl

/-- The exact exponential of −∞ is 0. -/
@[simp] theorem exp_bot : Ideal.exp ⊥ = 0 := rfl

/-- The exact logarithm of a positive real is the real logarithm. -/
theorem log_coe {x : ℝ} (hx : 0 < x) : Ideal.log (x : EReal) = ((Real.log x : ℝ) : EReal) := by
  rw [Ideal.log_coe, if_neg (not_le.mpr hx)]

/-- The exact square root of a nonnegative real is the real square root. -/
theorem sqrt_coe {x : ℝ} (hx : 0 ≤ x) : Ideal.sqrt (x : EReal) = ((Real.sqrt x : ℝ) : EReal) := by
  rw [Ideal.sqrt_coe, if_neg (not_lt.mpr hx)]

/-- The exact quotient of a real by a nonzero real is the real quotient. -/
theorem div_coe (x : ℝ) {y : ℝ} (hy : y ≠ 0) : Ideal.div (x : EReal) (y : EReal) = ((x / y : ℝ) : EReal) := by
  rw [Ideal.div_coe hy, ← EReal.coe_mul, mul_one_div]

/-- The coercion of a finite real sum is the sum of the coercions. -/
theorem coe_sum {ι : Type*} (s : Finset ι) (f : ι → ℝ) :
    ((∑ i ∈ s, f i : ℝ) : EReal) = ∑ i ∈ s, ((f i : ℝ) : EReal) :=
  Cert.LibOnlineLse.coe_finset_sum s f

/-- Folding max from −∞ over a finite family is its supremum. -/
theorem fold_max_eq_sup {ι : Type*} (s : Finset ι) (f : ι → EReal) : s.fold max ⊥ f = s.sup f := rfl

/-- The supremum of finitely many reals, over a nonempty index set, taken in the extended reals, is the coercion of
    their real supremum. -/
theorem sup_coe_eq_coe_sup' {ι : Type*} (s : Finset ι) (hs : s.Nonempty) (f : ι → ℝ) :
    s.sup (fun i => ((f i : ℝ) : EReal)) = ((s.sup' hs f : ℝ) : EReal) := by
  apply le_antisymm
  · refine Finset.sup_le fun i hi => ?_
    exact EReal.coe_le_coe_iff.2 (Finset.le_sup' f hi)
  · obtain ⟨i, hi, h⟩ := Finset.exists_mem_eq_sup' hs f
    rw [h]
    exact Finset.le_sup (f := fun i => ((f i : ℝ) : EReal)) hi

/-- Folding max from −∞ over the coercions of a nonempty finite family of reals gives the coercion of their real
    supremum. -/
theorem fold_max_coe {ι : Type*} [Fintype ι] [Nonempty ι] (f : ι → ℝ) :
    (Finset.univ : Finset ι).fold max ⊥ (fun i => ((f i : ℝ) : EReal))
      = (((Finset.univ : Finset ι).sup' Finset.univ_nonempty f : ℝ) : EReal) := by
  rw [fold_max_eq_sup, sup_coe_eq_coe_sup']

/-- That fold is not −∞. -/
theorem fold_max_coe_ne_bot {ι : Type*} [Fintype ι] [Nonempty ι] (f : ι → ℝ) :
    (Finset.univ : Finset ι).fold max ⊥ (fun i => ((f i : ℝ) : EReal)) ≠ ⊥ := by
  rw [fold_max_coe]; exact EReal.coe_ne_bot _

/-- That fold is not +∞. -/
theorem fold_max_coe_ne_top {ι : Type*} [Fintype ι] [Nonempty ι] (f : ι → ℝ) :
    (Finset.univ : Finset ι).fold max ⊥ (fun i => ((f i : ℝ) : EReal)) ≠ ⊤ := by
  rw [fold_max_coe]; exact EReal.coe_ne_top _

/-! ### The accumulators over blocks cut out of a flat sequence -/

/-- The accumulators after k blocks only depend on the first k blocks. -/
theorem state_congr {W : ℕ} (x x' : ℕ → Fin W → EReal) (d d' e e' : ℕ → Fin W → Bool) (k : ℕ)
    (hx : ∀ t, t < k → x t = x' t) (hd : ∀ t, t < k → d t = d' t) (he : ∀ t, t < k → e t = e' t) :
    state x d e k = state x' d' e' k := by
  induction k with
  | zero => rfl
  | succ k ih =>
    show step (x k) (d k) (e k) (state x d e k) = step (x' k) (d' k) (e' k) (state x' d' e' k)
    rw [hx k (Nat.lt_succ_self k), hd k (Nat.lt_succ_self k), he k (Nat.lt_succ_self k),
      ih (fun t ht => hx t (Nat.lt_succ_of_lt ht)) (fun t ht => hd t (Nat.lt_succ_of_lt ht))
        (fun t ht => he t (Nat.lt_succ_of_lt ht))]

section Flat

variable {W : ℕ} (f : ℕ → ℝ) (dN eN : ℕ → Bool)

/-- The blocks of width W of a flat real sequence, as extended reals. -/
def tilesR (W : ℕ) (f : ℕ → ℝ) : ℕ → Fin W → EReal := fun t j => ((f (t * W + j.val) : ℝ) : EReal)

/-- The blocks of width W of a flat mask. -/
def tilesB (W : ℕ) (m : ℕ → Bool) : ℕ → Fin W → Bool := fun t j => m (t * W + j.val)

/-- The accumulators after k blocks of the flat sequence f with the flat masks dN (exponential sum) and eN (matched
    sums). -/
def flatState (W : ℕ) (f : ℕ → ℝ) (dN eN : ℕ → Bool) (k : ℕ) : RowSpec.Acc :=
  state (tilesR W f) (tilesB W dN) (tilesB W eN) k

/-- The running maximum after k blocks is the supremum of the first k·W entries. -/
theorem flat_fst (k : ℕ) :
    (flatState W f dN eN k).1 = (range (k * W)).sup fun i => ((f i : ℝ) : EReal) := by
  induction k with
  | zero => simp [flatState, state]
  | succ k ih =>
    have hsup : (univ : Finset (Fin W)).fold max ⊥ (tilesR W f k)
        = (range W).sup fun j => ((f (k * W + j) : ℝ) : EReal) := by
      rw [fold_max_eq_sup, ← Cert.LibOnlineLse.sup_univ_fin (fun j => ((f (k * W + j) : ℝ) : EReal)) W]
      rfl
    rw [add_mul, one_mul, Cert.LibOnlineLse.sup_range_add, ← ih, ← hsup]
    rfl

/-- After at least one nonempty block the running maximum is the real supremum of the entries seen. -/
theorem flat_fst_real (hW : 0 < W) (k : ℕ) :
    (flatState W f dN eN (k + 1)).1
      = (((range ((k + 1) * W)).sup' (nonempty_range_iff.2 (Nat.mul_pos (Nat.succ_pos k) hW).ne') f : ℝ) : EReal) := by
  rw [flat_fst, sup_coe_eq_coe_sup']

/-- One block of the invariant of the exponential sum: if the old sum rescaled to the new maximum M is the sum of
    exp (f i − M) over the unmasked entries seen, so is the new sum. -/
theorem flat_L_succ (k : ℕ) (M : ℝ) (hM : (flatState W f dN eN (k + 1)).1 = (M : EReal))
    (hc : (flatState W f dN eN k).2.1 * Ideal.exp ((flatState W f dN eN k).1 - (M : EReal))
      = ((∑ i ∈ range (k * W), (if dN i then Real.exp (f i - M) else 0) : ℝ) : EReal)) :
    (flatState W f dN eN (k + 1)).2.1
      = ((∑ i ∈ range ((k + 1) * W), (if dN i then Real.exp (f i - M) else 0) : ℝ) : EReal) := by
  have h1 : (flatState W f dN eN (k + 1)).2.1
      = (flatState W f dN eN k).2.1 * Ideal.exp ((flatState W f dN eN k).1 - (flatState W f dN eN (k + 1)).1)
        + ∑ j : Fin W, (if tilesB W dN k j then Ideal.exp (tilesR W f k j - (flatState W f dN eN (k + 1)).1) else 0) :=
    rfl
  rw [h1, hM, hc, add_mul, one_mul, Finset.sum_range_add, EReal.coe_add,
    ← Fin.sum_univ_eq_sum_range (fun j => if dN (k * W + j) then Real.exp (f (k * W + j) - M) else 0) W,
    coe_sum univ]
  congr 1
  refine Finset.sum_congr rfl fun j _ => ?_
  show (if dN (k * W + j.val) then Ideal.exp (((f (k * W + j.val) : ℝ) : EReal) - (M : EReal)) else 0) = _
  by_cases h : dN (k * W + j.val) = true
  · rw [if_pos h, if_pos h, ← EReal.coe_sub, exp_coe]
  · rw [if_neg h, if_neg h, EReal.coe_zero]

/-- The exponential sum after k + 1 blocks is Σ exp (f i − M) over the unmasked entries seen, M the running maximum. -/
theorem flat_L (hW : 0 < W) (k : ℕ) :
    ∀ M : ℝ, (flatState W f dN eN (k + 1)).1 = (M : EReal) →
      (flatState W f dN eN (k + 1)).2.1
        = ((∑ i ∈ range ((k + 1) * W), (if dN i then Real.exp (f i - M) else 0) : ℝ) : EReal) := by
  induction k with
  | zero =>
    intro M hM
    refine flat_L_succ f dN eN 0 M hM ?_
    simp [flatState, state]
  | succ k ih =>
    intro M hM
    have hM' := flat_fst_real f dN eN hW k
    refine flat_L_succ f dN eN (k + 1) M hM ?_
    rw [ih _ hM', hM', ← EReal.coe_sub, exp_coe, ← EReal.coe_mul, Finset.sum_mul]
    congr 1
    refine Finset.sum_congr rfl fun i _ => ?_
    by_cases h : dN i = true
    · rw [if_pos h, if_pos h, ← Real.exp_add]
      congr 1
      ring
    · rw [if_neg h, if_neg h, zero_mul]

/-- The matched sum after k blocks is the sum of the matched entries seen. -/
theorem flat_U (k : ℕ) :
    (flatState W f dN eN k).2.2.1 = ((∑ i ∈ range (k * W), (if eN i then f i else 0) : ℝ) : EReal) := by
  induction k with
  | zero => simp [flatState, state]
  | succ k ih =>
    have h1 : (flatState W f dN eN (k + 1)).2.2.1
        = (flatState W f dN eN k).2.2.1 + ∑ j : Fin W, (if tilesB W eN k j then tilesR W f k j else 0) := rfl
    rw [h1, ih, add_mul, one_mul, Finset.sum_range_add, EReal.coe_add,
      ← Fin.sum_univ_eq_sum_range (fun j => if eN (k * W + j) then f (k * W + j) else 0) W, coe_sum univ]
    congr 1
    refine Finset.sum_congr rfl fun j _ => ?_
    show (if eN (k * W + j.val) then ((f (k * W + j.val) : ℝ) : EReal) else 0) = _
    by_cases h : eN (k * W + j.val) = true
    · rw [if_pos h, if_pos h]
    · rw [if_neg h, if_neg h, EReal.coe_zero]

/-- The match count after k blocks is the number of matched entries seen. -/
theorem flat_C (k : ℕ) :
    (flatState W f dN eN k).2.2.2 = ((∑ i ∈ range (k * W), (if eN i then (1 : ℝ) else 0) : ℝ) : EReal) := by
  induction k with
  | zero => simp [flatState, state]
  | succ k ih =>
    have h1 : (flatState W f dN eN (k + 1)).2.2.2
        = (flatState W f dN eN k).2.2.2 + ∑ j : Fin W, (if tilesB W eN k j then (1 : EReal) else 0) := rfl
    rw [h1, ih, add_mul, one_mul, Finset.sum_range_add, EReal.coe_add,
      ← Fin.sum_univ_eq_sum_range (fun j => if eN (k * W + j) then (1 : ℝ) else 0) W, coe_sum univ]
    congr 1
    refine Finset.sum_congr rfl fun j _ => ?_
    show (if eN (k * W + j.val) then (1 : EReal) else 0) = _
    by_cases h : eN (k * W + j.val) = true
    · rw [if_pos h, if_pos h, EReal.coe_one]
    · rw [if_neg h, if_neg h, EReal.coe_zero]

end Flat

/-! ### The two losses as real numbers -/

/-- The coercion of the larger of two reals is the larger of their coercions. -/
theorem coe_max (x y : ℝ) : ((max x y : ℝ) : EReal) = max (x : EReal) (y : EReal) :=
  EReal.coe_strictMono.monotone.map_max

/-- The tiled loss, from accumulators that are real numbers with a nonnegative count, is a real number. -/
theorem lossTiled_coe (ε M L U C : ℝ) (hε : 0 < ε) (hC : 0 ≤ C) (s : RowSpec.Acc)
    (h1 : s.1 = (M : EReal)) (h2 : s.2.1 = (L : EReal)) (h3 : s.2.2.1 = (U : EReal)) (h4 : s.2.2.2 = (C : EReal)) :
    lossTiled (ε : EReal) s = ((0 - (U - C * (M + Real.log (max L ε))) / (C + 1) : ℝ) : EReal) := by
  have hZ : 0 < max L ε := lt_max_of_lt_right hε
  have hC1 : C + 1 ≠ 0 := by linarith
  unfold lossTiled
  rw [h1, h2, h3, h4, ← coe_max, log_coe hZ, ← EReal.coe_add, ← EReal.coe_mul, ← EReal.coe_sub, ← EReal.coe_one,
    ← EReal.coe_add, div_coe _ hC1, ← EReal.coe_zero, ← EReal.coe_sub]

/-- The direct loss of a row of reals whose maximum is the real M is a real number. -/
theorem lossDirect_coe {N : ℕ} (ε M : ℝ) (hε : 0 < ε) (a : Fin N → ℝ) (r : Fin N) (lab : Fin N → Bool)
    (hden : (∑ k : Fin N, if lab k = true then (1 : ℝ) else 0) ≠ 0)
    (hM : (univ : Finset (Fin N)).fold max ⊥ (fun k => ((a k : ℝ) : EReal)) = (M : EReal)) :
    lossDirect (ε : EReal) (fun k => ((a k : ℝ) : EReal)) r lab
      = ((-((∑ k : Fin N, ((a k - M)
              - Real.log (max ε (∑ k : Fin N, Real.exp (a k - M) * (1 - if k = r then 1 else 0))))
              * (1 - if k = r then 1 else 0) * (if lab k = true then 1 else 0))
            / (∑ k : Fin N, if lab k = true then (1 : ℝ) else 0)) * 1 : ℝ) : EReal) := by
  have hw : ∀ k : Fin N, (1 - (if k = r then (1 : EReal) else 0)) = ((1 - (if k = r then (1 : ℝ) else 0) : ℝ) : EReal) := by
    intro k
    by_cases h : k = r
    · rw [if_pos h, if_pos h, ← EReal.coe_one, ← EReal.coe_sub]
    · rw [if_neg h, if_neg h, ← EReal.coe_one, ← EReal.coe_zero, ← EReal.coe_sub]
  have hl : ∀ k : Fin N, (if lab k = true then (1 : EReal) else 0) = ((if lab k = true then (1 : ℝ) else 0 : ℝ) : EReal) := by
    intro k
    by_cases h : lab k = true
    · rw [if_pos h, if_pos h, EReal.coe_one]
    · rw [if_neg h, if_neg h, EReal.coe_zero]
  have hS : (∑ k : Fin N, Ideal.exp (((a k : ℝ) : EReal) - (M : EReal)) * (1 - (if k = r then (1 : EReal) else 0)))
      = ((∑ k : Fin N, Real.exp (a k - M) * (1 - if k = r then 1 else 0) : ℝ) : EReal) := by
    rw [coe_sum]
    refine Finset.sum_congr rfl fun k _ => ?_
    rw [hw, ← EReal.coe_sub, exp_coe, EReal.coe_mul]
  have hZ : 0 < max ε (∑ k : Fin N, Real.exp (a k - M) * (1 - if k = r then 1 else 0)) := lt_max_of_lt_left hε
  have hD : (∑ k : Fin N, (if lab k = true then (1 : EReal) else 0))
      = ((∑ k : Fin N, (if lab k = true then (1 : ℝ) else 0) : ℝ) : EReal) := by
    rw [coe_sum]
    exact Finset.sum_congr rfl fun k _ => hl k
  unfold lossDirect
  dsimp only
  rw [hM, zero_add, zero_add, zero_add, hS, ← coe_max, log_coe hZ, hD]
  have hNum : (∑ k : Fin N, ((((a k : ℝ) : EReal) - (M : EReal))
        - ((Real.log (max ε (∑ k : Fin N, Real.exp (a k - M) * (1 - if k = r then 1 else 0))) : ℝ) : EReal))
        * (1 - (if k = r then (1 : EReal) else 0)) * (if lab k = true then (1 : EReal) else 0))
      = ((∑ k : Fin N, ((a k - M)
              - Real.log (max ε (∑ k : Fin N, Real.exp (a k - M) * (1 - if k = r then 1 else 0))))
              * (1 - if k = r then 1 else 0) * (if lab k = true then 1 else 0) : ℝ) : EReal) := by
    rw [coe_sum]
    refine Finset.sum_congr rfl fun k _ => ?_
    rw [hw, hl, ← EReal.coe_sub, ← EReal.coe_sub, ← EReal.coe_mul, ← EReal.coe_mul]
  rw [hNum, div_coe _ hden, ← EReal.coe_neg, ← EReal.coe_one, ← EReal.coe_mul]

/-! ### The identity between the two real expressions -/

/-- For a row of reals with the diagonal marked, the tiled expression in the off-diagonal sums equals the direct
    expression in the full sums: the marks number one more than the off-diagonal marks, the weighted numerator splits
    as U − C·(M + log Z), and the two clamped exponential sums are the same number. -/
theorem row_identity {N : ℕ} (a : Fin N → ℝ) (r : Fin N) (lab : Fin N → Bool) (hr : lab r = true) (M ε : ℝ) :
    0 - ((∑ k : Fin N, if (lab k && decide (k.val ≠ r.val)) = true then a k else 0)
          - (∑ k : Fin N, if (lab k && decide (k.val ≠ r.val)) = true then (1 : ℝ) else 0)
            * (M + Real.log (max (∑ k : Fin N, if decide (k.val ≠ r.val) = true then Real.exp (a k - M) else 0) ε)))
        / ((∑ k : Fin N, if (lab k && decide (k.val ≠ r.val)) = true then (1 : ℝ) else 0) + 1)
      = -((∑ k : Fin N, ((a k - M)
              - Real.log (max ε (∑ k : Fin N, Real.exp (a k - M) * (1 - if k = r then 1 else 0))))
              * (1 - if k = r then 1 else 0) * (if lab k = true then 1 else 0))
            / (∑ k : Fin N, if lab k = true then (1 : ℝ) else 0)) * 1 := by
  have hne : ∀ k : Fin N, k ≠ r → k.val ≠ r.val := fun k h h' => h (Fin.ext h')
  have hL : (∑ k : Fin N, if decide (k.val ≠ r.val) = true then Real.exp (a k - M) else 0)
      = ∑ k : Fin N, Real.exp (a k - M) * (1 - if k = r then 1 else 0) := by
    refine Finset.sum_congr rfl fun k _ => ?_
    by_cases h : k = r
    · subst h; simp
    · simp [h, hne k h]
  have h1 : (∑ k : Fin N, if k = r then (1 : ℝ) else 0) = 1 := by simp
  have hden : (∑ k : Fin N, if lab k = true then (1 : ℝ) else 0)
      = (∑ k : Fin N, if (lab k && decide (k.val ≠ r.val)) = true then (1 : ℝ) else 0) + 1 := by
    rw [← h1, ← Finset.sum_add_distrib]
    refine Finset.sum_congr rfl fun k _ => ?_
    by_cases h : k = r
    · subst h; simp [hr]
    · simp [h, hne k h]
  have hnum : ∀ z : ℝ, (∑ k : Fin N, ((a k - M) - z) * (1 - if k = r then 1 else 0) * (if lab k = true then 1 else 0))
      = (∑ k : Fin N, if (lab k && decide (k.val ≠ r.val)) = true then a k else 0)
        - (∑ k : Fin N, if (lab k && decide (k.val ≠ r.val)) = true then (1 : ℝ) else 0) * (M + z) := by
    intro z
    rw [Finset.sum_mul, ← Finset.sum_sub_distrib]
    refine Finset.sum_congr rfl fun k _ => ?_
    by_cases h : k = r
    · subst h; simp
    · by_cases hl : lab k = true
      · simp [h, hne k h, hl]; ring
      · simp [h, hne k h, hl]
  rw [hL, hden, hnum, max_comm]
  ring

/-! ### The main statement -/

/-- A column inside block t < T lies inside the row of T·W columns. -/
theorem tile_lt {T W t : ℕ} (ht : t < T) (j : Fin W) : t * W + j.val < T * W :=
  calc t * W + j.val < t * W + W := Nat.add_lt_add_left j.2 _
    _ = (t + 1) * W := by rw [add_mul, one_mul]
    _ ≤ T * W := Nat.mul_le_mul_right W ht

/-- The flat row: a i inside the row, 0 beyond it (never read). -/
def flatRow {N : ℕ} (a : Fin N → ℝ) (i : ℕ) : ℝ := if h : i < N then a ⟨i, h⟩ else 0

/-- The flat marks: lab i inside the row, unmarked beyond it (never read). -/
def flatLab {N : ℕ} (lab : Fin N → Bool) (i : ℕ) : Bool := if h : i < N then lab ⟨i, h⟩ else false

theorem flatRow_of_lt {N : ℕ} (a : Fin N → ℝ) {i : ℕ} (h : i < N) : flatRow a i = a ⟨i, h⟩ := dif_pos h

theorem flatLab_of_lt {N : ℕ} (lab : Fin N → Bool) {i : ℕ} (h : i < N) : flatLab lab i = lab ⟨i, h⟩ := dif_pos h

theorem flatRow_val {N : ℕ} (a : Fin N → ℝ) (k : Fin N) : flatRow a k.val = a k := dif_pos k.2

theorem flatLab_val {N : ℕ} (lab : Fin N → Bool) (k : Fin N) : flatLab lab k.val = lab k := dif_pos k.2

/-- The tiled loss of the flat row equals the direct loss of the row. -/
theorem flat_loss_eq (T W : ℕ) (hT : 0 < T) (hW : 0 < W) (a : Fin (T * W) → ℝ) (r : Fin (T * W))
    (lab : Fin (T * W) → Bool) (hr : lab r = true) (ε : ℝ) (hε : 0 < ε) :
    lossTiled (ε : EReal)
        (flatState W (flatRow a) (fun i => decide (i ≠ r.val)) (fun i => flatLab lab i && decide (i ≠ r.val)) T)
      = lossDirect (ε : EReal) (fun k => ((a k : ℝ) : EReal)) r lab := by
  obtain ⟨k, rfl⟩ : ∃ k, T = k + 1 := ⟨T - 1, by omega⟩
  have hM := flat_fst_real (flatRow a) (fun i => decide (i ≠ r.val)) (fun i => flatLab lab i && decide (i ≠ r.val)) hW k
  have hL := flat_L (flatRow a) (fun i => decide (i ≠ r.val)) (fun i => flatLab lab i && decide (i ≠ r.val)) hW k _ hM
  have hU := flat_U (W := W) (flatRow a) (fun i => decide (i ≠ r.val)) (fun i => flatLab lab i && decide (i ≠ r.val)) (k + 1)
  have hC := flat_C (W := W) (flatRow a) (fun i => decide (i ≠ r.val)) (fun i => flatLab lab i && decide (i ≠ r.val)) (k + 1)
  generalize hMdef : ((range ((k + 1) * W)).sup' (nonempty_range_iff.2 (Nat.mul_pos (Nat.succ_pos k) hW).ne') (flatRow a)) = M
    at hM hL
  rw [Finset.sum_range] at hL hU hC
  simp only [flatRow_val, flatLab_val] at hL hU hC
  have hMx : (univ : Finset (Fin ((k + 1) * W))).fold max ⊥ (fun u => ((a u : ℝ) : EReal)) = (M : EReal) := by
    rw [← hM, flat_fst, fold_max_eq_sup,
      ← Cert.LibOnlineLse.sup_univ_fin (fun i => ((flatRow a i : ℝ) : EReal)) ((k + 1) * W)]
    simp only [flatRow_val]
  have hCnn : 0 ≤ ∑ u : Fin ((k + 1) * W), (if (lab u && decide (u.val ≠ r.val)) = true then (1 : ℝ) else 0) :=
    Finset.sum_nonneg fun u _ => by split_ifs <;> norm_num
  have hden : (∑ u : Fin ((k + 1) * W), if lab u = true then (1 : ℝ) else 0) ≠ 0 := by
    have : 0 < ∑ u : Fin ((k + 1) * W), if lab u = true then (1 : ℝ) else 0 := by
      refine Finset.sum_pos' (fun u _ => by split_ifs <;> norm_num) ⟨r, mem_univ _, ?_⟩
      rw [if_pos hr]; norm_num
    exact this.ne'
  rw [lossTiled_coe ε M _ _ _ hε hCnn _ hM hL hU hC, lossDirect_coe ε M hε a r lab hden hMx, row_identity a r lab hr M ε]

/-- The tiled loss equals the direct loss, for blocks given as functions that on every block t < T carry the row's
    similarities, the off-diagonal mask and the matched off-diagonal mask as functions of the column number t·W + j.
    Blocks t ≥ T are never read. -/
theorem lossTiled_eq_lossDirect_of (T W : ℕ) (hT : 0 < T) (hW : 0 < W) (a : Fin (T * W) → ℝ) (r : Fin (T * W))
    (lab : Fin (T * W) → Bool) (hr : lab r = true) (ε : ℝ) (hε : 0 < ε)
    (x : ℕ → Fin W → EReal) (d e : ℕ → Fin W → Bool)
    (hx : ∀ t (ht : t < T) (j : Fin W), x t j = ((a ⟨t * W + j.val, tile_lt ht j⟩ : ℝ) : EReal))
    (hd : ∀ t, t < T → ∀ j : Fin W, d t j = decide (t * W + j.val ≠ r.val))
    (he : ∀ t (ht : t < T) (j : Fin W),
      e t j = (lab ⟨t * W + j.val, tile_lt ht j⟩ && decide (t * W + j.val ≠ r.val))) :
    lossTiled (ε : EReal) (state x d e T) = lossDirect (ε : EReal) (fun k => ((a k : ℝ) : EReal)) r lab := by
  rw [← flat_loss_eq T W hT hW a r lab hr ε hε]
  congr 1
  refine state_congr _ _ _ _ _ _ T (fun t ht => ?_) (fun t ht => ?_) (fun t ht => ?_)
  · funext j
    rw [hx t ht j]
    show _ = ((flatRow a (t * W + j.val) : ℝ) : EReal)
    rw [flatRow_of_lt a (tile_lt ht j)]
  · funext j
    exact hd t ht j
  · funext j
    rw [he t ht j]
    show _ = (flatLab lab (t * W + j.val) && decide (t * W + j.val ≠ r.val))
    rw [flatLab_of_lt lab (tile_lt ht j)]

/-- The tiled loss equals the direct loss: a row of T·W real similarities read in T blocks of width W, with the two
    masks as functions of the column number t·W + j (the flat row and the flat marks extend the row by values that
    are never read). -/
theorem lossTiled_eq_lossDirect (T W : ℕ) (hT : 0 < T) (hW : 0 < W) (a : Fin (T * W) → ℝ) (r : Fin (T * W))
    (lab : Fin (T * W) → Bool) (hr : lab r = true) (ε : ℝ) (hε : 0 < ε) :
    lossTiled (ε : EReal)
        (state (fun t (j : Fin W) => ((flatRow a (t * W + j.val) : ℝ) : EReal))
               (fun t (j : Fin W) => decide (t * W + j.val ≠ r.val))
               (fun t (j : Fin W) => flatLab lab (t * W + j.val) && decide (t * W + j.val ≠ r.val)) T)
      = lossDirect (ε : EReal) (fun k => ((a k : ℝ) : EReal)) r lab :=
  flat_loss_eq T W hT hW a r lab hr ε hε

/-- The same with the row padded by −∞ beyond its end and the marks written with an explicit bound test. -/
theorem lossTiled_eq_lossDirect_padded (T W : ℕ) (hT : 0 < T) (hW : 0 < W) (a : Fin (T * W) → ℝ) (r : Fin (T * W))
    (lab : Fin (T * W) → Bool) (hr : lab r = true) (ε : ℝ) (hε : 0 < ε) :
    lossTiled (ε : EReal)
        (state (fun t (j : Fin W) =>
                  if h : t * W + j.val < T * W then ((a ⟨t * W + j.val, h⟩ : ℝ) : EReal) else ⊥)
               (fun t (j : Fin W) => decide (t * W + j.val ≠ r.val))
               (fun t (j : Fin W) =>
                  (if h : t * W + j.val < T * W then lab ⟨t * W + j.val, h⟩ else false)
                    && decide (t * W + j.val ≠ r.val)) T)
      = lossDirect (ε : EReal) (fun k => ((a k : ℝ) : EReal)) r lab := by
  refine lossTiled_eq_lossDirect_of T W hT hW a r lab hr ε hε _ _ _ (fun t ht j => ?_) (fun t _ j => rfl)
    (fun t ht j => ?_)
  · exact dif_pos (tile_lt ht j)
  · show ((if h : t * W + j.val < T * W then lab ⟨t * W + j.val, h⟩ else false)
        && decide (t * W + j.val ≠ r.val)) = _
    rw [dif_pos (tile_lt ht j)]

/-! ### Scaling both factors of a product by a square root -/

/-- Dividing each factor of every product by √t divides the sum of products by t. -/
theorem gram_scale {n : ℕ} (x y : Fin n → ℝ) (p q s t : ℝ) (hp : p ≠ 0) (hq : q ≠ 0) (ht : 0 < t)
    (hs : s = Real.sqrt t) :
    ∑ d : Fin n, (x d / p / s) * (y d / q / s) = (∑ d : Fin n, (x d / p) * (y d / q)) / t := by
  have hs0 : s ≠ 0 := by rw [hs]; exact (Real.sqrt_pos.2 ht).ne'
  have hss : s * s = t := by rw [hs]; exact Real.mul_self_sqrt ht.le
  rw [Finset.sum_div]
  refine Finset.sum_congr rfl fun d _ => ?_
  rw [← hss]
  field_simp

/-- The same on the extended reals with the exact division and square root: each normalised feature divided by √t
    before the product, against the sum of products divided by t. -/
theorem gram_scale_ereal {n : ℕ} (x y : Fin n → ℝ) (p q t : ℝ) (hp : p ≠ 0) (hq : q ≠ 0) (ht : 0 < t) :
    ∑ d : Fin n, Ideal.div (Ideal.div ((x d : ℝ) : EReal) (p : EReal)) (Ideal.sqrt (t : EReal))
        * Ideal.div (Ideal.div ((y d : ℝ) : EReal) (q : EReal)) (Ideal.sqrt (t : EReal))
      = Ideal.div (∑ d : Fin n, Ideal.div ((x d : ℝ) : EReal) (p : EReal) * Ideal.div ((y d : ℝ) : EReal) (q : EReal))
          (t : EReal) := by
  have hs0 : Real.sqrt t ≠ 0 := (Real.sqrt_pos.2 ht).ne'
  have hl : ∀ d : Fin n, Ideal.div (Ideal.div ((x d : ℝ) : EReal) (p : EReal)) (Ideal.sqrt (t : EReal))
        * Ideal.div (Ideal.div ((y d : ℝ) : EReal) (q : EReal)) (Ideal.sqrt (t : EReal))
      = (((x d / p / Real.sqrt t) * (y d / q / Real.sqrt t) : ℝ) : EReal) := by
    intro d
    rw [sqrt_coe ht.le, div_coe _ hp, div_coe _ hq, div_coe _ hs0, div_coe _ hs0, ← EReal.coe_mul]
  have hr : ∀ d : Fin n, Ideal.div ((x d : ℝ) : EReal) (p : EReal) * Ideal.div ((y d : ℝ) : EReal) (q : EReal)
      = (((x d / p) * (y d / q) : ℝ) : EReal) := by
    intro d
    rw [div_coe _ hp, div_coe _ hq, ← EReal.coe_mul]
  rw [Finset.sum_congr rfl fun d _ => hl d, Finset.sum_congr rfl fun d _ => hr d, ← coe_sum, ← coe_sum,
    div_coe _ ht.ne', gram_scale x y p q (Real.sqrt t) t hp hq ht rfl]

/-! ### Sums of squares -/

/-- A sum of squares of reals, one of which is not zero, is positive. -/
theorem sumsq_pos_of_ne {n : ℕ} (x : Fin n → ℝ) (d : Fin n) (hd : x d ≠ 0) : 0 < ∑ k : Fin n, x k * x k :=
  Finset.sum_pos' (fun k _ => mul_self_nonneg (x k)) ⟨d, mem_univ d, mul_self_pos.2 hd⟩

/-- Its square root is positive. -/
theorem sqrt_sumsq_pos_of_ne {n : ℕ} (x : Fin n → ℝ) (d : Fin n) (hd : x d ≠ 0) :
    0 < Real.sqrt (∑ k : Fin n, x k * x k) :=
  Real.sqrt_pos.2 (sumsq_pos_of_ne x d hd)

/-- A sum of products of coerced reals is the coercion of the real sum of products. -/
theorem coe_dot {n : ℕ} (x y : Fin n → ℝ) :
    ∑ k : Fin n, ((x k : ℝ) : EReal) * ((y k : ℝ) : EReal) = ((∑ k : Fin n, x k * y k : ℝ) : EReal) := by
  rw [coe_sum]
  exact Finset.sum_congr rfl fun k _ => (EReal.coe_mul _ _).symm

/-- The exact square root of a sum of squares of coerced reals is the coercion of the real square root. -/
theorem sqrt_sumsq_coe {n : ℕ} (x : Fin n → ℝ) :
    Ideal.sqrt (∑ k : Fin n, ((x k : ℝ) : EReal) * ((x k : ℝ) : EReal))
      = ((Real.sqrt (∑ k : Fin n, x k * x k) : ℝ) : EReal) := by
  rw [coe_dot, sqrt_coe (Finset.sum_nonneg fun k _ => mul_self_nonneg (x k))]

end Cert.LibRowLoss

end
-- ==== Proof.RealSims.lean ====
/-
  The similarities of the reference are real numbers, and the kernel's pre-scaled features give the same numbers.

  For real features with nonzero rows, the norm of row r is the positive real n(r) = √(Σ_d x(r,d)²), the normalised
  entry is the real x(r,d) / n(r), and the reference's similarity of rows r and k is the real
      a(r,k) = (Σ_d (x(r,d)/n(r)) · (x(k,d)/n(k))) / t,
  t the temperature, a positive real.  Dividing every normalised entry by √t before the inner product gives the same
  number, because √t · √t = t.  The two float constants involved, the temperature and the clamp ε, are positive
  dyadic rationals: 13421773 / 2²⁶ and 10995116 / 2⁴⁰.
-/
import proofs.«101596_j86105504350689_1_alg».proof.Proof.RefRow
import proofs.«101596_j86105504350689_1_alg».proof.Proof.LibRowLoss
import Idealize.ShloMosaic.Lib.IdealHost
import Idealize.ShloMosaic.PureOps.Ideal.Laws

noncomputable section

namespace Cert.RealSims

open Idealize.ShloMosaic Idealize.ShloMosaic.ValueIdx
open Cert.RefRow (Feat nrm unit simRef)

/-- The clamp's pattern denotes the dyadic rational 10995116 / 2⁴⁰ (about 10⁻⁵). -/
theorem eps_eq : Ideal.ofBits .f32 0x3727C5AC#32 = (((10995116 : ℝ) / 2 ^ 40 : ℝ) : EReal) := by
  simp [Ideal.ofBits, Ideal.ieee, -EReal.coe_mul]; norm_num

/-- The temperature's pattern denotes the dyadic rational 13421773 / 2²⁶ (about 0.2). -/
theorem temp_eq : Ideal.ofBits .f32 0x3E4CCCCD#32 = (((13421773 : ℝ) / 2 ^ 26 : ℝ) : EReal) := by
  simp [Ideal.ofBits, Ideal.ieee, -EReal.coe_mul]; norm_num

/-- The clamp is a positive real. -/
theorem eps_real : ∃ e : ℝ, 0 < e ∧ Ideal.ofBits .f32 0x3727C5AC#32 = ((e : ℝ) : EReal) :=
  ⟨(10995116 : ℝ) / 2 ^ 40, by positivity, eps_eq⟩

/-- The temperature is a positive real. -/
theorem temp_real : ∃ t : ℝ, 0 < t ∧ Ideal.ofBits .f32 0x3E4CCCCD#32 = ((t : ℝ) : EReal) :=
  ⟨(13421773 : ℝ) / 2 ^ 26, by positivity, temp_eq⟩

/-- For real features whose rows are not zero, every similarity of the reference is a real number, and the inner
    products of the normalised rows pre-divided by the square root of the temperature are the same real numbers. -/
theorem sims_real (X : Cert.RefRow.Feat) (hX : ∀ j, ∃ x : ℝ, X j = (x : EReal))
    (hpos : ∀ r : Fin 8192, (0 : EReal) < ∑ d : Fin 128, X (ix2 r d) * X (ix2 r d))
    (g : Cert.RefRow.Feat)
    (hg : ∀ (r : Fin 8192) (d : Fin 128),
      g (ix2 r d) = Ideal.div (Cert.RefRow.unit X r d) (Ideal.sqrt (Ideal.ofBits .f32 0x3E4CCCCD#32))) :
    ∃ a : Fin 8192 → Fin 8192 → ℝ, ∀ r k : Fin 8192,
      Cert.RefRow.simRef X r k = ((a r k : ℝ) : EReal)
        ∧ (∑ d : Fin 128, g (ix2 r d) * g (ix2 k d)) = ((a r k : ℝ) : EReal) := by
  obtain ⟨t, ht, hbt⟩ := temp_real
  choose x hx using hX
  have hS : ∀ r : Fin 8192, (∑ d : Fin 128, X (ix2 r d) * X (ix2 r d))
      = ((∑ d : Fin 128, x (ix2 r d) * x (ix2 r d) : ℝ) : EReal) := by
    intro r
    rw [← Cert.LibRowLoss.coe_dot]
    exact Finset.sum_congr rfl fun d _ => by rw [hx]
  have hSpos : ∀ r : Fin 8192, 0 < ∑ d : Fin 128, x (ix2 r d) * x (ix2 r d) := by
    intro r
    have h := hpos r
    rw [hS r] at h
    exact_mod_cast h
  have hn : ∀ r : Fin 8192, Real.sqrt (∑ d : Fin 128, x (ix2 r d) * x (ix2 r d)) ≠ 0 :=
    fun r => (Real.sqrt_pos.2 (hSpos r)).ne'
  have hnrm : ∀ r : Fin 8192, nrm X r = ((Real.sqrt (∑ d : Fin 128, x (ix2 r d) * x (ix2 r d)) : ℝ) : EReal) := by
    intro r
    unfold Cert.RefRow.nrm
    rw [zero_add, hS r, Cert.LibRowLoss.sqrt_coe (hSpos r).le]
  have hunit : ∀ (r : Fin 8192) (d : Fin 128), unit X r d
      = Ideal.div ((x (ix2 r d) : ℝ) : EReal)
          ((Real.sqrt (∑ d : Fin 128, x (ix2 r d) * x (ix2 r d)) : ℝ) : EReal) := by
    intro r d
    unfold Cert.RefRow.unit
    rw [hx, hnrm]
  refine ⟨fun r k => (∑ d : Fin 128,
      (x (ix2 r d) / Real.sqrt (∑ d : Fin 128, x (ix2 r d) * x (ix2 r d)))
        * (x (ix2 k d) / Real.sqrt (∑ d : Fin 128, x (ix2 k d) * x (ix2 k d)))) / t, fun r k => ?_⟩
  have h1 : simRef X r k = (((∑ d : Fin 128,
      (x (ix2 r d) / Real.sqrt (∑ d : Fin 128, x (ix2 r d) * x (ix2 r d)))
        * (x (ix2 k d) / Real.sqrt (∑ d : Fin 128, x (ix2 k d) * x (ix2 k d)))) / t : ℝ) : EReal) := by
    have hs : (∑ d : Fin 128, unit X r d * unit X k d) = ((∑ d : Fin 128,
        (x (ix2 r d) / Real.sqrt (∑ d : Fin 128, x (ix2 r d) * x (ix2 r d)))
          * (x (ix2 k d) / Real.sqrt (∑ d : Fin 128, x (ix2 k d) * x (ix2 k d))) : ℝ) : EReal) := by
      rw [Cert.LibRowLoss.coe_sum]
      refine Finset.sum_congr rfl fun d _ => ?_
      rw [hunit, hunit, Cert.LibRowLoss.div_coe _ (hn r), Cert.LibRowLoss.div_coe _ (hn k), ← EReal.coe_mul]
    unfold Cert.RefRow.simRef
    rw [hbt, hs, Cert.LibRowLoss.div_coe _ ht.ne']
  refine ⟨h1, ?_⟩
  rw [← h1]
  have hgg : ∀ d : Fin 128, g (ix2 r d) * g (ix2 k d)
      = Ideal.div (Ideal.div ((x (ix2 r d) : ℝ) : EReal)
            ((Real.sqrt (∑ d : Fin 128, x (ix2 r d) * x (ix2 r d)) : ℝ) : EReal)) (Ideal.sqrt (t : EReal))
        * Ideal.div (Ideal.div ((x (ix2 k d) : ℝ) : EReal)
            ((Real.sqrt (∑ d : Fin 128, x (ix2 k d) * x (ix2 k d)) : ℝ) : EReal)) (Ideal.sqrt (t : EReal)) := by
    intro d
    rw [hg, hg, hunit, hunit, hbt]
  refine (Finset.sum_congr rfl fun d _ => hgg d).trans ?_
  refine (Cert.LibRowLoss.gram_scale_ereal (fun d : Fin 128 => x (ix2 r d)) (fun d : Fin 128 => x (ix2 k d))
    (Real.sqrt (∑ d : Fin 128, x (ix2 r d) * x (ix2 r d))) (Real.sqrt (∑ d : Fin 128, x (ix2 k d) * x (ix2 k d)))
    t (hn r) (hn k) ht).trans ?_
  unfold Cert.RefRow.simRef
  rw [hbt]
  refine congrArg (fun y : EReal => Ideal.div y (t : EReal)) ?_
  refine Finset.sum_congr rfl fun d _ => ?_
  rw [hunit, hunit]

end Cert.RealSims

end
-- ==== Proof.Bridge.lean ====
/-
  The two programs compute one number. Under the precondition every feature is a real and every row has a positive
  sum of squares, so every normalised feature and every similarity is a real; the kernel's similarities (each
  normalised feature divided by √t before the matrix product) are the reference's (the product divided by t); on
  real similarities the tiled loss of a row — eight column blocks folded into the running maximum, the rescaled
  exponential sum, the matched sum and the match count — is the row's direct loss; and both programs end with the
  mean of the 8192 row losses.
-/
import proofs.«101596_j86105504350689_1_alg».proof.Proof.KernelIdeal.RowState
import proofs.«101596_j86105504350689_1_alg».proof.Proof.KernelIdeal.HostValues
import proofs.«101596_j86105504350689_1_alg».proof.Proof.KernelIdeal.PreFacts
import proofs.«101596_j86105504350689_1_alg».proof.Proof.KernelIdeal.Frame
import proofs.«101596_j86105504350689_1_alg».proof.Proof.RefRow
import proofs.«101596_j86105504350689_1_alg».proof.Proof.LibRowLoss
import proofs.«101596_j86105504350689_1_alg».proof.Proof.RealSims

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Cert.RowSpec

variable (m : (ℓ : Loc nD τ sig) → Buf (Elt Ideal) ℓ) (c : Dev nD)

/-- Column k carries row r's label. -/
abbrev sameLab (r k : Fin 8192) : Bool := decide (Cert.KernelIdeal.HostVal.labs m c (ix1 r) = Cert.KernelIdeal.HostVal.labs m c (ix1 k))

/-- A position inside tile t, as an index of the long axis, is the tile's offset plus the position. -/
theorem pos_tile {t : ℕ} (ht : t < 8) (j : Fin 1024) : pos (1024 * t + j.val) = ⟨t * 1024 + j.val, Cert.LibRowLoss.tile_lt ht j⟩ :=
  Fin.ext (by rw [pos_val (by have := j.isLt; omega)]; show 1024 * t + j.val = t * 1024 + j.val; omega)

/-- A row's loss as the kernel forms it is the row's direct loss over the reference's similarities. -/
theorem row_eq (hpre : Cert.Pre_finite_inputs.fn (F := Ideal) (m ((c.tc : Thread nD τ).loc main_arg0)) (m ((c.tc : Thread nD τ).loc main_arg1)) (m ((c.tc : Thread nD τ).loc main_arg2)) = fun _ => 1#1)
    (r : Fin 8192) :
    lossK m c r = lossDirect epsK (fun k => Cert.RefRow.simRef (Cert.KernelIdeal.HostVal.feat m c) r k) r (fun k => sameLab m c r k) := by
  obtain ⟨e, he0, hee⟩ := Cert.RealSims.eps_real
  obtain ⟨a, ha⟩ := Cert.RealSims.sims_real (Cert.KernelIdeal.HostVal.feat m c) (Cert.KernelIdeal.PreFacts.feat_real _ _ _ hpre) (Cert.KernelIdeal.PreFacts.norm_pos _ _ _ hpre)
    (gF m c) (fun r d => Cert.KernelIdeal.HostVal.scaled_apply m c r d)
  have key := Cert.LibRowLoss.lossTiled_eq_lossDirect_of 8 1024 (by decide) (by decide) (fun k : Fin (8 * 1024) => a r k) r (fun k => sameLab m c r k)
    (by show decide _ = true; exact decide_eq_true rfl) e he0 (xT m c r) (dT r) (eT m c r)
    (fun t ht j => by
      unfold xT simK
      rw [pos_tile ht j]
      exact (ha r _).2)
    (fun t ht j => by
      unfold dT
      exact decide_eq_decide.mpr ⟨fun h e => h (by omega), fun h e => h (by omega)⟩)
    (fun t ht j => by
      unfold eT sameLab labC labR
      rw [Cert.KernelIdeal.HostVal.labcol_apply, Cert.KernelIdeal.HostVal.labrow_apply, pos_tile ht j]
      congr 1
      exact decide_eq_decide.mpr ⟨fun h e => h (by omega), fun h e => h (by omega)⟩)
  unfold lossK
  rw [show (epsK : EReal) = ((e : ℝ) : EReal) from hee, key]
  exact congrArg (fun s : Fin 8192 → EReal => lossDirect ((e : ℝ) : EReal) s r (fun k => sameLab m c r k)) (funext fun k => ((ha r k).1).symm)

/-- The kernel's result is the reference's composed term of the same arguments. -/
theorem kernel_result (hpre : Cert.Pre_finite_inputs.fn (F := Ideal) (m ((c.tc : Thread nD τ).loc main_arg0)) (m ((c.tc : Thread nD τ).loc main_arg1)) (m ((c.tc : Thread nD τ).loc main_arg2)) = fun _ => 1#1) :
    (Vend m c (Proc.devRef .tc main_v10) : S_.Idx → EReal)
      = Cert.ReferenceIdeal.Read.val_main_v42 (F := Ideal) (Cert.KernelIdeal.HostVal.feat m c) (Cert.KernelIdeal.HostVal.labs m c) := by
  rw [Cert.RefRow.ref_result]
  unfold Vend
  rw [Cert.KernelIdeal.HostVal.mean_apply]
  have hcol : Cert.KernelIdeal.HostVal.lossCol (Vexit m c) = lossCol m c := by
    unfold Cert.KernelIdeal.HostVal.lossCol Vexit
    rw [Function.update_self]
    exact final4 m c
  funext _
  refine congrArg (fun s : EReal => Ideal.div (0 + s) (Ideal.ofBits .f32 0x46000000#32)) (Finset.sum_congr rfl fun r _ => ?_)
  rw [hcol]
  unfold lossCol
  rw [show pos ((ix2 r (0 : Fin 1) : S8192x1.Idx) 0).val = r from Fin.ext (pos_val r.isLt)]
  exact row_eq m c hpre r

end Cert.KernelIdeal.Hand

end
-- ==== Proof.lean ====
/-
  A supervised-contrastive loss over 8192 feature rows of width 128. Both programs normalise every row to unit
  length and form the 8192 × 8192 matrix of similarities divided by a temperature t; for every row r the loss is
      −( Σ_{k ≠ r, label k = label r} (s(r,k) − max_k s(r,k) − log max(ε, Σ_{k ≠ r} exp(s(r,k) − max_k s(r,k)))) ) / #{k : label k = label r},
  and the result is the mean over the rows.

  The reference forms the whole matrix on the host. The kernel divides every normalised feature by √t first and then
  sweeps each block of 1024 rows over the 8 blocks of 1024 columns, keeping per row a running maximum, a sum of
  exponentials relative to it (rescaled whenever the maximum moves), the sum of the matched similarities and their
  count; after the last column block it writes −(U − C·(M + log max(L, ε)))/(C + 1).

  Under the precondition (every feature finite, every row of positive squared length) every similarity is a real
  number, the two ways of applying the temperature agree, the tiled recurrence reproduces the direct sums, and the
  diagonal accounts for the +1 in the denominator: the two results are one extended real.

  The three frames: each kernel program's run is established point by point over the 64 grid points (two of the
  kernel's windows read one array, which is shared between them for the region's duration); the reference is a
  straight line of host operations.
-/
import proofs.«101596_j86105504350689_1_alg».proof.Defs
import proofs.«101596_j86105504350689_1_alg».proof.Proof.Gen.Kernel
import proofs.«101596_j86105504350689_1_alg».proof.Proof.Gen.KernelIdeal
import proofs.«101596_j86105504350689_1_alg».proof.Proof.Gen.ReferenceIdeal
import proofs.«101596_j86105504350689_1_alg».proof.Proof.Gen.Pre_finite_inputs
import proofs.«101596_j86105504350689_1_alg».proof.Proof.Gen.ReferenceIdeal.Run
import proofs.«101596_j86105504350689_1_alg».proof.Proof.Gen.ReferenceIdeal.Read
import proofs.«101596_j86105504350689_1_alg».proof.Proof.Kernel.Frame
import proofs.«101596_j86105504350689_1_alg».proof.Proof.KernelIdeal.Frame
import proofs.«101596_j86105504350689_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments unchanged. -/
theorem frame_k : Cert.frame_Kernel := fun m ρ _ => Cert.Kernel.Hand.frame (F := Bits) m ρ

/-- So does the kernel read over the extended reals. -/
theorem frame_ki : Cert.frame_KernelIdeal := fun m ρ _ => Cert.KernelIdeal.Hand.frame (F := Ideal) m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories agreeing on the arguments both programs end at the reference's composed term of those arguments:
    the kernel's mean of tiled row losses is the reference's mean of direct row losses. -/
theorem algebraic : Cert.algebraic_KernelIdeal_ReferenceIdeal := by
  intro m ρ m' ρ' hpre hagree
  refine ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)), ?_, ?_⟩
  · exact (θ_run (Cert.KernelIdeal.defs (F := Ideal)) _ _).mono (fun r h c => ⟨(h c).1.trans (Cert.KernelIdeal.Hand.kernel_result m c (hpre c)), (h c).2⟩)
      (Cert.KernelIdeal.Hand.run_value (F := Ideal) m ρ)
  · refine (θ_run (Cert.ReferenceIdeal.defs (F := Ideal)) _ _).mono (fun _ h c => ⟨?_, (h c).2⟩) (Cert.ReferenceIdeal.Value.run (F := Ideal) m' ρ')
    rw [(h c).1, Cert.ReferenceIdeal.Read.val_main_v42_eq, (hagree c).1, (hagree c).2.2]

theorem claim : Cert.Claim :=
  ⟨Cert.Kernel.Gen.facts, Cert.KernelIdeal.Gen.facts, Cert.ReferenceIdeal.Gen.facts, Cert.Pre_finite_inputs.Gen.facts, frame_k, frame_ki, frame_ri, preserves, algebraic⟩

end Cert.Proof

end
